-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512 : Shape := ⟨3, ![64, 512, 512]⟩
abbrev S64x64x512 : Shape := ⟨3, ![64, 64, 512]⟩
abbrev S64x512x1 : Shape := ⟨3, ![64, 512, 1]⟩
abbrev S64x1x64 : Shape := ⟨3, ![64, 1, 64]⟩
abbrev S512x512 : Shape := ⟨2, ![512, 512]⟩
abbrev S512 : Shape := ⟨1, ![512]⟩
abbrev S_ : Shape := ⟨0, ![]⟩

class Facts : Prop where
  bcast_S_S64x512x512 : S_.BroadcastsInDim S64x512x512 (![] : Fin 0 → Fin S64x512x512.rank)
  reducesTo_S64x512x512_S_d0_1_2 : S64x512x512.ReducesTo [0, 1, 2] S_
  h_S_ : 0 < S_.numel
  bcast_S_S64x64x512 : S_.BroadcastsInDim S64x64x512 (![] : Fin 0 → Fin S64x64x512.rank)
  reducesTo_S64x64x512_S_d0_1_2 : S64x64x512.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg9 : FVec F S512 .f32) (main_v33 : IVec S_ 1) : IVec S_ 1 :=
  let main_v34 : FVec F S512 .f32 := Host.absf main_arg9
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg6 : FVec F S512x512 .f32) (main_arg7 : FVec F S512 .f32) (main_arg8 : FVec F S512x512 .f32) (main_arg9 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg6
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg7
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg8
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg9 main_v33

def fn {F : FTy → Type} [FloatOps F] (main_arg0 : FVec F S64x512x512 .f32) (main_arg1 : FVec F S64x64x512 .f32) (main_arg2 : IVec S64x512x1 32) (main_arg3 : IVec S64x1x64 32) (main_arg4 : FVec F S512x512 .f32) (main_arg5 : FVec F S512 .f32) (main_arg6 : FVec F S512x512 .f32) (main_arg7 : FVec F S512 .f32) (main_arg8 : FVec F S512x512 .f32) (main_arg9 : FVec F S512 .f32) : IVec S_ 1 :=
  let main_v0 : FVec F S64x512x512 .f32 := Host.absf main_arg0
  let main_cst : FVec F S_ .f32 := constant S_ .f32 0x7F800000#32
  let main_v1 : FVec F S64x512x512 .f32 := broadcastInDim S64x512x512 ![] bcast_S_S64x512x512 main_cst
  let main_v2 : IVec S64x512x512 1 := cmpf .olt main_v0 main_v1
  let main_c : IVec S_ 1 := constantI S_ 1 1#1
  let main_v3 : IVec S_ 1 := (fun x v => Host.reduce IntOp.andi x v reducesTo_S64x512x512_S_d0_1_2 h_S_) main_v2 main_c
  let main_v4 : FVec F S64x64x512 .f32 := Host.absf main_arg1
  let main_cst_0 : FVec F S_ .f32 := constant S_ .f32 0x7F800000#32
  let main_v5 : FVec F S64x64x512 .f32 := broadcastInDim S64x64x512 ![] bcast_S_S64x64x512 main_cst_0
  let main_v6 : IVec S64x64x512 1 := cmpf .olt main_v4 main_v5
  let main_c_1 : IVec S_ 1 := constantI S_ 1 1#1
  let main_v7 : IVec S_ 1 := (fun x v => Host.reduce IntOp.andi x v reducesTo_S64x64x512_S_d0_1_2 h_S_) main_v6 main_c_1
  let main_v8 : IVec S_ 1 := andi main_v3 main_v7
  let main_v9 : FVec F S512x512 .f32 := Host.absf main_arg4
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg6 main_arg7 main_arg8 main_arg9 main_v13 main_v16
-- ==== Kernel.lean ====
abbrev S64x512x512 : Shape := ⟨3, ![64, 512, 512]⟩
abbrev S64x64x512 : Shape := ⟨3, ![64, 64, 512]⟩
abbrev S64x512x1 : Shape := ⟨3, ![64, 512, 1]⟩
abbrev S64x1x64 : Shape := ⟨3, ![64, 1, 64]⟩
abbrev S512x512 : Shape := ⟨2, ![512, 512]⟩
abbrev S512 : Shape := ⟨1, ![512]⟩
abbrev S1x512x512 : Shape := ⟨3, ![1, 512, 512]⟩
abbrev S1x64x512 : Shape := ⟨3, ![1, 64, 512]⟩
abbrev S1x512x1 : Shape := ⟨3, ![1, 512, 1]⟩
abbrev S1x1x64 : Shape := ⟨3, ![1, 1, 64]⟩
abbrev S64x512 : Shape := ⟨2, ![64, 512]⟩
abbrev S512x1 : Shape := ⟨2, ![512, 1]⟩
abbrev S1x64 : Shape := ⟨2, ![1, 64]⟩
abbrev S1x512 : Shape := ⟨2, ![1, 512]⟩
abbrev S512x64 : Shape := ⟨2, ![512, 64]⟩
abbrev S1x512x64 : Shape := ⟨3, ![1, 512, 64]⟩
abbrev S8x512x64 : Shape := ⟨3, ![8, 512, 64]⟩
abbrev S64x64 : Shape := ⟨2, ![64, 64]⟩
abbrev S1x64x64 : Shape := ⟨3, ![1, 64, 64]⟩
abbrev S8x64x64 : Shape := ⟨3, ![8, 64, 64]⟩
abbrev S8x512 : Shape := ⟨2, ![8, 512]⟩
abbrev S8x512x1 : Shape := ⟨3, ![8, 512, 1]⟩
abbrev S8x64 : Shape := ⟨2, ![8, 64]⟩
abbrev S8x1x64 : Shape := ⟨3, ![8, 1, 64]⟩

abbrev nBuf : Space → Nat
  | .hbm => 16
  | .vmem => 20
  | .smem => 0
  | _ => 0

abbrev bufTy : (tb : Table) → Fin (tcTables nBuf tb) → BufTy
  | .hbm, ⟨0, _⟩ => ⟨S64x512x512, .f32⟩
  | .hbm, ⟨1, _⟩ => ⟨S64x64x512, .f32⟩
  | .hbm, ⟨2, _⟩ => ⟨S64x512x1, .i32⟩
  | .hbm, ⟨3, _⟩ => ⟨S64x1x64, .i32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S64x512x512, .f32⟩
  | .hbm, ⟨14, _⟩ => ⟨S64x64x512, .f32⟩
  | .hbm, ⟨15, _⟩ => ⟨S64x512x512, .f32⟩
  | .local _ .vmem, ⟨0, _⟩ => ⟨S1x512x512, .f32⟩
  | .local _ .vmem, ⟨1, _⟩ => ⟨S1x512x512, .f32⟩
  | .local _ .vmem, ⟨2, _⟩ => ⟨S1x64x512, .f32⟩
  | .local _ .vmem, ⟨3, _⟩ => ⟨S1x64x512, .f32⟩
  | .local _ .vmem, ⟨4, _⟩ => ⟨S1x512x1, .i32⟩
  | .local _ .vmem, ⟨5, _⟩ => ⟨S1x512x1, .i32⟩
  | .local _ .vmem, ⟨6, _⟩ => ⟨S1x1x64, .i32⟩
  | .local _ .vmem, ⟨7, _⟩ => ⟨S1x1x64, .i32⟩
  | .local _ .vmem, ⟨8, _⟩ => ⟨S512x512, .f32⟩
  | .local _ .vmem, ⟨9, _⟩ => ⟨S512, .f32⟩
  | .local _ .vmem, ⟨10, _⟩ => ⟨S512x512, .f32⟩
  | .local _ .vmem, ⟨11, _⟩ => ⟨S512, .f32⟩
  | .local _ .vmem, ⟨12, _⟩ => ⟨S512x512, .f32⟩
  | .local _ .vmem, ⟨13, _⟩ => ⟨S512, .f32⟩
  | .local _ .vmem, ⟨14, _⟩ => ⟨S1x512x512, .f32⟩
  | .local _ .vmem, ⟨15, _⟩ => ⟨S1x512x512, .f32⟩
  | .local _ .vmem, ⟨16, _⟩ => ⟨S1x64x512, .f32⟩
  | .local _ .vmem, ⟨17, _⟩ => ⟨S1x64x512, .f32⟩
  | .local _ .vmem, ⟨18, _⟩ => ⟨S1x512x512, .f32⟩
  | .local _ .vmem, ⟨19, _⟩ => ⟨S1x512x512, .f32⟩
  | _, _ => ⟨S64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x64 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x64x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  transposes_S512x512_S512x512_1_0 : S512x512.Transposes [1, 0] S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  broadcasts_S1x512_S64x512 : S1x512.Broadcasts S64x512
  slices_S512x512_o0_0_S512x64 : S512x512.Slices ![0, 0] S512x64
  slices_S512x512_o0_64_S512x64 : S512x512.Slices ![0, 64] S512x64
  slices_S512x512_o0_128_S512x64 : S512x512.Slices ![0, 128] S512x64
  slices_S512x512_o0_192_S512x64 : S512x512.Slices ![0, 192] S512x64
  slices_S512x512_o0_256_S512x64 : S512x512.Slices ![0, 256] S512x64
  slices_S512x512_o0_320_S512x64 : S512x512.Slices ![0, 320] S512x64
  slices_S512x512_o0_384_S512x64 : S512x512.Slices ![0, 384] S512x64
  slices_S512x512_o0_448_S512x64 : S512x512.Slices ![0, 448] S512x64
  shapeCasts_S512x64_S1x512x64 : S512x64.ShapeCasts S1x512x64
  concatenates_S1x512x64_S1x512x64_S1x512x64_S1x512x64_S1x512x64_S1x512x64_S1x512x64_S1x512x64_S8x512x64_d0 : Shape.Concatenates [S1x512x64, S1x512x64, S1x512x64, S1x512x64, S1x512x64, S1x512x64, S1x512x64, S1x512x64] S8x512x64 0
  slices_S64x512_o0_0_S64x64 : S64x512.Slices ![0, 0] S64x64
  slices_S64x512_o0_64_S64x64 : S64x512.Slices ![0, 64] S64x64
  slices_S64x512_o0_128_S64x64 : S64x512.Slices ![0, 128] S64x64
  slices_S64x512_o0_192_S64x64 : S64x512.Slices ![0, 192] S64x64
  slices_S64x512_o0_256_S64x64 : S64x512.Slices ![0, 256] S64x64
  slices_S64x512_o0_320_S64x64 : S64x512.Slices ![0, 320] S64x64
  slices_S64x512_o0_384_S64x64 : S64x512.Slices ![0, 384] S64x64
  slices_S64x512_o0_448_S64x64 : S64x512.Slices ![0, 448] S64x64
  shapeCasts_S64x64_S1x64x64 : S64x64.ShapeCasts S1x64x64
  concatenates_S1x64x64_S1x64x64_S1x64x64_S1x64x64_S1x64x64_S1x64x64_S1x64x64_S1x64x64_S8x64x64_d0 : Shape.Concatenates [S1x64x64, S1x64x64, S1x64x64, S1x64x64, S1x64x64, S1x64x64, S1x64x64, S1x64x64] S8x64x64 0
  broadcasts_S512x1_S512x64 : S512x1.Broadcasts S512x64
  broadcasts_S1x64_S512x64 : S1x64.Broadcasts S512x64
  broadcasts_S1x512x64_S8x512x64 : S1x512x64.Broadcasts S8x512x64
  reduces_S8x512x64_S8x512 : S8x512x64.Reduces [2] S8x512
  shapeCasts_S8x512_S8x512x1 : S8x512.ShapeCasts S8x512x1
  reduces_S8x512x64_S8x64 : S8x512x64.Reduces [1] S8x64
  shapeCasts_S8x64_S8x1x64 : S8x64.ShapeCasts S8x1x64
  broadcasts_S8x512x1_S8x512x64 : S8x512x1.Broadcasts S8x512x64
  broadcasts_S8x1x64_S8x512x64 : S8x1x64.Broadcasts S8x512x64
  slices_S8x512x64_o0_0_0_S1x512x64 : S8x512x64.Slices ![0, 0, 0] S1x512x64
  shapeCasts_S1x512x64_S512x64 : S1x512x64.ShapeCasts S512x64
  inb_S1x512x512_S1x512x64_0_0_0 : ∀ a, (![0, 0, 0] : Fin 3 → Nat) a + S1x512x64.size a ≤ S1x512x512.size a
  h_S1x512x64 : 0 < S1x512x64.numel
  slices_S8x64x64_o0_0_0_S1x64x64 : S8x64x64.Slices ![0, 0, 0] S1x64x64
  shapeCasts_S1x64x64_S64x64 : S1x64x64.ShapeCasts S64x64
  inb_S1x64x512_S1x64x64_0_0_0 : ∀ a, (![0, 0, 0] : Fin 3 → Nat) a + S1x64x64.size a ≤ S1x64x512.size a
  h_S1x64x64 : 0 < S1x64x64.numel
  slices_S8x512x64_o1_0_0_S1x512x64 : S8x512x64.Slices ![1, 0, 0] S1x512x64
  inb_S1x512x512_S1x512x64_0_0_64 : ∀ a, (![0, 0, 64] : Fin 3 → Nat) a + S1x512x64.size a ≤ S1x512x512.size a
  slices_S8x64x64_o1_0_0_S1x64x64 : S8x64x64.Slices ![1, 0, 0] S1x64x64
  inb_S1x64x512_S1x64x64_0_0_64 : ∀ a, (![0, 0, 64] : Fin 3 → Nat) a + S1x64x64.size a ≤ S1x64x512.size a
  slices_S8x512x64_o2_0_0_S1x512x64 : S8x512x64.Slices ![2, 0, 0] S1x512x64
  inb_S1x512x512_S1x512x64_0_0_128 : ∀ a, (![0, 0, 128] : Fin 3 → Nat) a + S1x512x64.size a ≤ S1x512x512.size a
  slices_S8x64x64_o2_0_0_S1x64x64 : S8x64x64.Slices ![2, 0, 0] S1x64x64
  inb_S1x64x512_S1x64x64_0_0_128 : ∀ a, (![0, 0, 128] : Fin 3 → Nat) a + S1x64x64.size a ≤ S1x64x512.size a
  slices_S8x512x64_o3_0_0_S1x512x64 : S8x512x64.Slices ![3, 0, 0] S1x512x64
  inb_S1x512x512_S1x512x64_0_0_192 : ∀ a, (![0, 0, 192] : Fin 3 → Nat) a + S1x512x64.size a ≤ S1x512x512.size a
  slices_S8x64x64_o3_0_0_S1x64x64 : S8x64x64.Slices ![3, 0, 0] S1x64x64
  inb_S1x64x512_S1x64x64_0_0_192 : ∀ a, (![0, 0, 192] : Fin 3 → Nat) a + S1x64x64.size a ≤ S1x64x512.size a
  slices_S8x512x64_o4_0_0_S1x512x64 : S8x512x64.Slices ![4, 0, 0] S1x512x64
  inb_S1x512x512_S1x512x64_0_0_256 : ∀ a, (![0, 0, 256] : Fin 3 → Nat) a + S1x512x64.size a ≤ S1x512x512.size a
  slices_S8x64x64_o4_0_0_S1x64x64 : S8x64x64.Slices ![4, 0, 0] S1x64x64
  inb_S1x64x512_S1x64x64_0_0_256 : ∀ a, (![0, 0, 256] : Fin 3 → Nat) a + S1x64x64.size a ≤ S1x64x512.size a
  slices_S8x512x64_o5_0_0_S1x512x64 : S8x512x64.Slices ![5, 0, 0] S1x512x64
  inb_S1x512x512_S1x512x64_0_0_320 : ∀ a, (![0, 0, 320] : Fin 3 → Nat) a + S1x512x64.size a ≤ S1x512x512.size a
  slices_S8x64x64_o5_0_0_S1x64x64 : S8x64x64.Slices ![5, 0, 0] S1x64x64
  inb_S1x64x512_S1x64x64_0_0_320 : ∀ a, (![0, 0, 320] : Fin 3 → Nat) a + S1x64x64.size a ≤ S1x64x512.size a
  slices_S8x512x64_o6_0_0_S1x512x64 : S8x512x64.Slices ![6, 0, 0] S1x512x64
  inb_S1x512x512_S1x512x64_0_0_384 : ∀ a, (![0, 0, 384] : Fin 3 → Nat) a + S1x512x64.size a ≤ S1x512x512.size a
  slices_S8x64x64_o6_0_0_S1x64x64 : S8x64x64.Slices ![6, 0, 0] S1x64x64
  inb_S1x64x512_S1x64x64_0_0_384 : ∀ a, (![0, 0, 384] : Fin 3 → Nat) a + S1x64x64.size a ≤ S1x64x512.size a
  slices_S8x512x64_o7_0_0_S1x512x64 : S8x512x64.Slices ![7, 0, 0] S1x512x64
  inb_S1x512x512_S1x512x64_0_0_448 : ∀ a, (![0, 0, 448] : Fin 3 → Nat) a + S1x512x64.size a ≤ S1x512x512.size a
  slices_S8x64x64_o7_0_0_S1x64x64 : S8x64x64.Slices ![7, 0, 0] S1x64x64
  inb_S1x64x512_S1x64x64_0_0_448 : ∀ a, (![0, 0, 448] : Fin 3 → Nat) a + S1x64x64.size a ≤ S1x64x512.size a
  dot_S512x512_S512x512_S512x512_1_0_0_1_n_n_wf : DotDims.WF S512x512 S512x512 S512x512 [1] [0] [0] [1] [] []
  dot_S64x512_S512x512_S64x512_1_0_0_1_n_n_wf : DotDims.WF S64x512 S512x512 S64x512 [1] [0] [0] [1] [] []
  dot_S8x512x64_S8x64x64_S8x512x64_2_2_1_1_0_0_wf : DotDims.WF S8x512x64 S8x64x64 S8x512x64 [2] [2] [1] [1] [0] [0]
  dot_S8x512x64_S8x64x64_S8x512x64_2_1_1_2_0_0_wf : DotDims.WF S8x512x64 S8x64x64 S8x512x64 [2] [1] [1] [2] [0] [0]
  dot_S8x512x64_S8x512x64_S8x64x64_1_1_2_2_0_0_wf : DotDims.WF S8x512x64 S8x512x64 S8x64x64 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S64x512x512.size a
  hwx0_0 : ∀ i : grid0.Coords, EltTy.bits .f32 = 32 ∨ (Rect.block (s := S64x512x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S64x64x512.size a
  hwx0_1 : ∀ i : grid0.Coords, EltTy.bits .f32 = 32 ∨ (Rect.block (s := S64x64x512) S1x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S64x512x1.size a
  hwx0_2 : ∀ i : grid0.Coords, EltTy.bits .i32 = 32 ∨ (Rect.block (s := S64x512x1) S1x512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x64.size a ≤ S64x1x64.size a
  hwx0_3 : ∀ i : grid0.Coords, EltTy.bits .i32 = 32 ∨ (Rect.block (s := S64x1x64) S1x1x64.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .f32 = 32 ∨ (Rect.block (s := S512x512) S512x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x512x512.size a ≤ S64x512x512.size a
  hwx0_10 : ∀ i : grid0.Coords, EltTy.bits .f32 = 32 ∨ (Rect.block (s := S64x512x512) S1x512x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x64x512.size a ≤ S64x64x512.size a
  hwx0_11 : ∀ i : grid0.Coords, EltTy.bits .f32 = 32 ∨ (Rect.block (s := S64x64x512) S1x64x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x512x512.size a ≤ S64x512x512.size a
  hwx0_12 : ∀ i : grid0.Coords, EltTy.bits .f32 = 32 ∨ (Rect.block (s := S64x512x512) S1x512x512.size (cc0_transform_12 i) (hinb0_12 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S8x512x64_S8x64x64_S8x512x64_2_2_1_1_0_0 : DotDims S8x512x64 S8x64x64 S8x512x64 where
  lhsContracting := [2]
  rhsContracting := [2]
  lhsNonContracting := [1]
  rhsNonContracting := [1]
  lhsBatch := [0]
  rhsBatch := [0]
  wf := dot_S8x512x64_S8x64x64_S8x512x64_2_2_1_1_0_0_wf
def dot_S8x512x64_S8x64x64_S8x512x64_2_1_1_2_0_0 : DotDims S8x512x64 S8x64x64 S8x512x64 where
  lhsContracting := [2]
  rhsContracting := [1]
  lhsNonContracting := [1]
  rhsNonContracting := [2]
  lhsBatch := [0]
  rhsBatch := [0]
  wf := dot_S8x512x64_S8x64x64_S8x512x64_2_1_1_2_0_0_wf
def dot_S8x512x64_S8x512x64_S8x64x64_1_1_2_2_0_0 : DotDims S8x512x64 S8x512x64 S8x64x64 where
  lhsContracting := [1]
  rhsContracting := [1]
  lhsNonContracting := [2]
  rhsNonContracting := [2]
  lhsBatch := [0]
  rhsBatch := [0]
  wf := dot_S8x512x64_S8x512x64_S8x64x64_1_1_2_2_0_0_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3_0) S1x512x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v3_1) S1x64x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v3_2) S1x512x512.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S64x512x512 : Shape := ⟨3, ![64, 512, 512]⟩
abbrev S64x64x512 : Shape := ⟨3, ![64, 64, 512]⟩
abbrev S64x512x1 : Shape := ⟨3, ![64, 512, 1]⟩
abbrev S64x1x64 : Shape := ⟨3, ![64, 1, 64]⟩
abbrev S512x512 : Shape := ⟨2, ![512, 512]⟩
abbrev S512 : Shape := ⟨1, ![512]⟩
abbrev S1x1x512 : Shape := ⟨3, ![1, 1, 512]⟩
abbrev S_ : Shape := ⟨0, ![]⟩
abbrev S64x512x8x64 : Shape := ⟨4, ![64, 512, 8, 64]⟩
abbrev S8x64x512x64 : Shape := ⟨4, ![8, 64, 512, 64]⟩
abbrev S64x64x8x64 : Shape := ⟨4, ![64, 64, 8, 64]⟩
abbrev S8x64x64x64 : Shape := ⟨4, ![8, 64, 64, 64]⟩
abbrev S64x512x64 : Shape := ⟨3, ![64, 512, 64]⟩
abbrev S1x64x512x64 : Shape := ⟨4, ![1, 64, 512, 64]⟩
abbrev S8x64x512 : Shape := ⟨3, ![8, 64, 512]⟩
abbrev S8x64x512x1 : Shape := ⟨4, ![8, 64, 512, 1]⟩
abbrev S8x64x64 : Shape := ⟨3, ![8, 64, 64]⟩
abbrev S8x64x1x64 : Shape := ⟨4, ![8, 64, 1, 64]⟩

abbrev nBuf : Space → Nat
  | .hbm => 92
  | .vmem => 0
  | .smem => 0
  | _ => 0

abbrev bufTy : (tb : Table) → Fin (tcTables nBuf tb) → BufTy
  | .hbm, ⟨0, _⟩ => ⟨S64x512x512, .f32⟩
  | .hbm, ⟨1, _⟩ => ⟨S64x64x512, .f32⟩
  | .hbm, ⟨2, _⟩ => ⟨S64x512x1, .i32⟩
  | .hbm, ⟨3, _⟩ => ⟨S64x1x64, .i32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S64x512x512, .f32⟩
  | .hbm, ⟨11, _⟩ => ⟨S1x1x512, .f32⟩
  | .hbm, ⟨12, _⟩ => ⟨S64x512x512, .f32⟩
  | .hbm, ⟨13, _⟩ => ⟨S64x512x512, .f32⟩
  | .hbm, ⟨14, _⟩ => ⟨S_, .f32⟩
  | .hbm, ⟨15, _⟩ => ⟨S64x512x512, .f32⟩
  | .hbm, ⟨16, _⟩ => ⟨S64x512x512, .f32⟩
  | .hbm, ⟨17, _⟩ => ⟨S64x64x512, .f32⟩
  | .hbm, ⟨18, _⟩ => ⟨S1x1x512, .f32⟩
  | .hbm, ⟨19, _⟩ => ⟨S64x64x512, .f32⟩
  | .hbm, ⟨20, _⟩ => ⟨S64x64x512, .f32⟩
  | .hbm, ⟨21, _⟩ => ⟨S_, .f32⟩
  | .hbm, ⟨22, _⟩ => ⟨S64x64x512, .f32⟩
  | .hbm, ⟨23, _⟩ => ⟨S64x64x512, .f32⟩
  | .hbm, ⟨24, _⟩ => ⟨S64x64x512, .f32⟩
  | .hbm, ⟨25, _⟩ => ⟨S1x1x512, .f32⟩
  | .hbm, ⟨26, _⟩ => ⟨S64x64x512, .f32⟩
  | .hbm, ⟨27, _⟩ => ⟨S64x64x512, .f32⟩
  | .hbm, ⟨28, _⟩ => ⟨S_, .f32⟩
  | .hbm, ⟨29, _⟩ => ⟨S64x64x512, .f32⟩
  | .hbm, ⟨30, _⟩ => ⟨S64x64x512, .f32⟩
  | .hbm, ⟨31, _⟩ => ⟨S64x512x8x64, .f32⟩
  | .hbm, ⟨32, _⟩ => ⟨S8x64x512x64, .f32⟩
  | .hbm, ⟨33, _⟩ => ⟨S64x64x8x64, .f32⟩
  | .hbm, ⟨34, _⟩ => ⟨S8x64x64x64, .f32⟩
  | .hbm, ⟨35, _⟩ => ⟨S64x64x8x64, .f32⟩
  | .hbm, ⟨36, _⟩ => ⟨S8x64x64x64, .f32⟩
  | .hbm, ⟨37, _⟩ => ⟨S8x64x512x64, .f32⟩
  | .hbm, ⟨38, _⟩ => ⟨S_, .f32⟩
  | .hbm, ⟨39, _⟩ => ⟨S8x64x512x64, .f32⟩
  | .hbm, ⟨40, _⟩ => ⟨S8x64x512x64, .f32⟩
  | .hbm, ⟨41, _⟩ => ⟨S64x512x1, .f32⟩
  | .hbm, ⟨42, _⟩ => ⟨S64x1x64, .f32⟩
  | .hbm, ⟨43, _⟩ => ⟨S64x512x64, .f32⟩
  | .hbm, ⟨44, _⟩ => ⟨S1x64x512x64, .f32⟩
  | .hbm, ⟨45, _⟩ => ⟨S8x64x512x64, .f32⟩
  | .hbm, ⟨46, _⟩ => ⟨S8x64x512x64, .f32⟩
  | .hbm, ⟨47, _⟩ => ⟨S_, .f32⟩
  | .hbm, ⟨48, _⟩ => ⟨S1x64x512x64, .f32⟩
  | .hbm, ⟨49, _⟩ => ⟨S1x64x512x64, .f32⟩
  | .hbm, ⟨50, _⟩ => ⟨S_, .f32⟩
  | .hbm, ⟨51, _⟩ => ⟨S1x64x512x64, .f32⟩
  | .hbm, ⟨52, _⟩ => ⟨S1x64x512x64, .f32⟩
  | .hbm, ⟨53, _⟩ => ⟨S8x64x512x64, .f32⟩
  | .hbm, ⟨54, _⟩ => ⟨S8x64x512x64, .f32⟩
  | .hbm, ⟨55, _⟩ => ⟨S_, .f32⟩
  | .hbm, ⟨56, _⟩ => ⟨S8x64x512, .f32⟩
  | .hbm, ⟨57, _⟩ => ⟨S_, .f32⟩
  | .hbm, ⟨58, _⟩ => ⟨S8x64x512, .f32⟩
  | .hbm, ⟨59, _⟩ => ⟨S8x64x512, .f32⟩
  | .hbm, ⟨60, _⟩ => ⟨S8x64x512x1, .f32⟩
  | .hbm, ⟨61, _⟩ => ⟨S8x64x512x64, .f32⟩
  | .hbm, ⟨62, _⟩ => ⟨S8x64x512x64, .f32⟩
  | .hbm, ⟨63, _⟩ => ⟨S8x64x512x64, .f32⟩
  | .hbm, ⟨64, _⟩ => ⟨S_, .f32⟩
  | .hbm, ⟨65, _⟩ => ⟨S8x64x512, .f32⟩
  | .hbm, ⟨66, _⟩ => ⟨S8x64x512x1, .f32⟩
  | .hbm, ⟨67, _⟩ => ⟨S8x64x512x64, .f32⟩
  | .hbm, ⟨68, _⟩ => ⟨S8x64x512x64, .f32⟩
  | .hbm, ⟨69, _⟩ => ⟨S_, .f32⟩
  | .hbm, ⟨70, _⟩ => ⟨S8x64x64, .f32⟩
  | .hbm, ⟨71, _⟩ => ⟨S_, .f32⟩
  | .hbm, ⟨72, _⟩ => ⟨S8x64x64, .f32⟩
  | .hbm, ⟨73, _⟩ => ⟨S8x64x64, .f32⟩
  | .hbm, ⟨74, _⟩ => ⟨S8x64x1x64, .f32⟩
  | .hbm, ⟨75, _⟩ => ⟨S8x64x512x64, .f32⟩
  | .hbm, ⟨76, _⟩ => ⟨S8x64x512x64, .f32⟩
  | .hbm, ⟨77, _⟩ => ⟨S8x64x512x64, .f32⟩
  | .hbm, ⟨78, _⟩ => ⟨S_, .f32⟩
  | .hbm, ⟨79, _⟩ => ⟨S8x64x64, .f32⟩
  | .hbm, ⟨80, _⟩ => ⟨S8x64x1x64, .f32⟩
  | .hbm, ⟨81, _⟩ => ⟨S8x64x512x64, .f32⟩
  | .hbm, ⟨82, _⟩ => ⟨S8x64x512x64, .f32⟩
  | .hbm, ⟨83, _⟩ => ⟨S8x64x512x64, .f32⟩
  | .hbm, ⟨84, _⟩ => ⟨S8x64x64x64, .f32⟩
  | .hbm, ⟨85, _⟩ => ⟨S8x64x512x64, .f32⟩
  | .hbm, ⟨86, _⟩ => ⟨S64x512x8x64, .f32⟩
  | .hbm, ⟨87, _⟩ => ⟨S64x512x512, .f32⟩
  | .hbm, ⟨88, _⟩ => ⟨S64x64x8x64, .f32⟩
  | .hbm, ⟨89, _⟩ => ⟨S64x64x512, .f32⟩
  | .hbm, ⟨90, _⟩ => ⟨S64x512x8x64, .f32⟩
  | .hbm, ⟨91, _⟩ => ⟨S64x512x512, .f32⟩
  | _, _ => ⟨S64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call2_cst : Ref sig .tc := ⟨.hbm, 28, rfl⟩
abbrev main_call2_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_0 : Ref sig .tc := ⟨.hbm, 47, rfl⟩
abbrev main_v30 : Ref sig .tc := ⟨.hbm, 48, rfl⟩
abbrev main_v31 : Ref sig .tc := ⟨.hbm, 49, rfl⟩
abbrev main_cst_1 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_2 : Ref sig .tc := ⟨.hbm, 55, rfl⟩
abbrev main_v36 : Ref sig .tc := ⟨.hbm, 56, rfl⟩
abbrev main_cst_3 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_4 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_5 : Ref sig .tc := ⟨.hbm, 69, rfl⟩
abbrev main_v47 : Ref sig .tc := ⟨.hbm, 70, rfl⟩
abbrev main_cst_6 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_7 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S64x512x512_0_1_2 : S1x1x512.BroadcastsInDim S64x512x512 (![0, 1, 2] : Fin 3 → Fin S64x512x512.rank)
  bcast_S_S64x512x512 : S_.BroadcastsInDim S64x512x512 (![] : Fin 0 → Fin S64x512x512.rank)
  bcast_S1x1x512_S64x64x512_0_1_2 : S1x1x512.BroadcastsInDim S64x64x512 (![0, 1, 2] : Fin 3 → Fin S64x64x512.rank)
  bcast_S_S64x64x512 : S_.BroadcastsInDim S64x64x512 (![] : Fin 0 → Fin S64x64x512.rank)
  shapeCasts_S64x512x512_S64x512x8x64 : S64x512x512.ShapeCasts S64x512x8x64
  transposes_S64x512x8x64_S8x64x512x64_2_0_1_3 : S64x512x8x64.Transposes [2, 0, 1, 3] S8x64x512x64
  shapeCasts_S64x64x512_S64x64x8x64 : S64x64x512.ShapeCasts S64x64x8x64
  transposes_S64x64x8x64_S8x64x64x64_2_0_1_3 : S64x64x8x64.Transposes [2, 0, 1, 3] S8x64x64x64
  bcast_S_S8x64x512x64 : S_.BroadcastsInDim S8x64x512x64 (![] : Fin 0 → Fin S8x64x512x64.rank)
  bcast_S64x512x64_S1x64x512x64_1_2_3 : S64x512x64.BroadcastsInDim S1x64x512x64 (![1, 2, 3] : Fin 3 → Fin S1x64x512x64.rank)
  bcast_S1x64x512x64_S8x64x512x64_0_1_2_3 : S1x64x512x64.BroadcastsInDim S8x64x512x64 (![0, 1, 2, 3] : Fin 4 → Fin S8x64x512x64.rank)
  bcast_S_S1x64x512x64 : S_.BroadcastsInDim S1x64x512x64 (![] : Fin 0 → Fin S1x64x512x64.rank)
  reducesTo_S8x64x512x64_S8x64x512_d3 : S8x64x512x64.ReducesTo [3] S8x64x512
  h_S_ : 0 < S_.numel
  bcast_S_S8x64x512 : S_.BroadcastsInDim S8x64x512 (![] : Fin 0 → Fin S8x64x512.rank)
  bcast_S8x64x512_S8x64x512x1_0_1_2 : S8x64x512.BroadcastsInDim S8x64x512x1 (![0, 1, 2] : Fin 3 → Fin S8x64x512x1.rank)
  bcast_S8x64x512x1_S8x64x512x64_0_1_2_3 : S8x64x512x1.BroadcastsInDim S8x64x512x64 (![0, 1, 2, 3] : Fin 4 → Fin S8x64x512x64.rank)
  reducesTo_S8x64x512x64_S8x64x64_d2 : S8x64x512x64.ReducesTo [2] S8x64x64
  bcast_S_S8x64x64 : S_.BroadcastsInDim S8x64x64 (![] : Fin 0 → Fin S8x64x64.rank)
  bcast_S8x64x64_S8x64x1x64_0_1_3 : S8x64x64.BroadcastsInDim S8x64x1x64 (![0, 1, 3] : Fin 3 → Fin S8x64x1x64.rank)
  bcast_S8x64x1x64_S8x64x512x64_0_1_2_3 : S8x64x1x64.BroadcastsInDim S8x64x512x64 (![0, 1, 2, 3] : Fin 4 → Fin S8x64x512x64.rank)
  transposes_S8x64x512x64_S64x512x8x64_1_2_0_3 : S8x64x512x64.Transposes [1, 2, 0, 3] S64x512x8x64
  shapeCasts_S64x512x8x64_S64x512x512 : S64x512x8x64.ShapeCasts S64x512x512
  transposes_S8x64x64x64_S64x64x8x64_1_2_0_3 : S8x64x64x64.Transposes [1, 2, 0, 3] S64x64x8x64
  shapeCasts_S64x64x8x64_S64x64x512 : S64x64x8x64.ShapeCasts S64x64x512
  dot_S64x512x512_S512x512_S64x512x512_2_1_01_0_n_n_wf : DotDims.WF S64x512x512 S512x512 S64x512x512 [2] [1] [0, 1] [0] [] []
  dot_S64x64x512_S512x512_S64x64x512_2_1_01_0_n_n_wf : DotDims.WF S64x64x512 S512x512 S64x64x512 [2] [1] [0, 1] [0] [] []
  dot_S8x64x512x64_S8x64x64x64_S8x64x512x64_3_3_2_2_01_01_wf : DotDims.WF S8x64x512x64 S8x64x64x64 S8x64x512x64 [3] [3] [2] [2] [0, 1] [0, 1]
  dot_S64x512x1_S64x1x64_S64x512x64_2_1_1_2_0_0_wf : DotDims.WF S64x512x1 S64x1x64 S64x512x64 [2] [1] [1] [2] [0] [0]
  dot_S8x64x512x64_S8x64x64x64_S8x64x512x64_3_2_2_3_01_01_wf : DotDims.WF S8x64x512x64 S8x64x64x64 S8x64x512x64 [3] [2] [2] [3] [0, 1] [0, 1]
  dot_S8x64x512x64_S8x64x512x64_S8x64x64x64_2_2_3_3_01_01_wf : DotDims.WF S8x64x512x64 S8x64x512x64 S8x64x64x64 [2] [2] [3] [3] [0, 1] [0, 1]

variable [Facts₀]

def dot_S64x512x512_S512x512_S64x512x512_2_1_01_0_n_n : DotDims S64x512x512 S512x512 S64x512x512 where
  lhsContracting := [2]
  rhsContracting := [1]
  lhsNonContracting := [0, 1]
  rhsNonContracting := [0]
  lhsBatch := []
  rhsBatch := []
  wf := dot_S64x512x512_S512x512_S64x512x512_2_1_01_0_n_n_wf
def dot_S64x64x512_S512x512_S64x64x512_2_1_01_0_n_n : DotDims S64x64x512 S512x512 S64x64x512 where
  lhsContracting := [2]
  rhsContracting := [1]
  lhsNonContracting := [0, 1]
  rhsNonContracting := [0]
  lhsBatch := []
  rhsBatch := []
  wf := dot_S64x64x512_S512x512_S64x64x512_2_1_01_0_n_n_wf
def dot_S8x64x512x64_S8x64x64x64_S8x64x512x64_3_3_2_2_01_01 : DotDims S8x64x512x64 S8x64x64x64 S8x64x512x64 where
  lhsContracting := [3]
  rhsContracting := [3]
  lhsNonContracting := [2]
  rhsNonContracting := [2]
  lhsBatch := [0, 1]
  rhsBatch := [0, 1]
  wf := dot_S8x64x512x64_S8x64x64x64_S8x64x512x64_3_3_2_2_01_01_wf
def dot_S64x512x1_S64x1x64_S64x512x64_2_1_1_2_0_0 : DotDims S64x512x1 S64x1x64 S64x512x64 where
  lhsContracting := [2]
  rhsContracting := [1]
  lhsNonContracting := [1]
  rhsNonContracting := [2]
  lhsBatch := [0]
  rhsBatch := [0]
  wf := dot_S64x512x1_S64x1x64_S64x512x64_2_1_1_2_0_0_wf
def dot_S8x64x512x64_S8x64x64x64_S8x64x512x64_3_2_2_3_01_01 : DotDims S8x64x512x64 S8x64x64x64 S8x64x512x64 where
  lhsContracting := [3]
  rhsContracting := [2]
  lhsNonContracting := [2]
  rhsNonContracting := [3]
  lhsBatch := [0, 1]
  rhsBatch := [0, 1]
  wf := dot_S8x64x512x64_S8x64x64x64_S8x64x512x64_3_2_2_3_01_01_wf
def dot_S8x64x512x64_S8x64x512x64_S8x64x64x64_2_2_3_3_01_01 : DotDims S8x64x512x64 S8x64x512x64 S8x64x64x64 where
  lhsContracting := [2]
  rhsContracting := [2]
  lhsNonContracting := [3]
  rhsNonContracting := [3]
  lhsBatch := [0, 1]
  rhsBatch := [0, 1]
  wf := dot_S8x64x512x64_S8x64x512x64_S8x64x64x64_2_2_3_3_01_01_wf

class Facts : Prop extends Facts₀ where

variable [Facts]
-- ==== Proof.Spec.lean ====
/-
  Multi-head co-attention over one batch element, as functions of coordinates on the extended reals.

  For one batch element: `Q q j`, `K k j`, `V k j` are the three rectified projections (context rows `q`, question rows
  `k`, feature column `j`); head `h` owns the 64 columns `64 h + d`. With the outer product `mk q k` of the two masks,
    score h q k = Σ_d Q q (64h+d) · K k (64h+d)
    sim h q k   = mk q k · (score h q k / 8) + (1 − mk q k) · negBig
  and the two softmaxes of `sim`: along `k` (the context weights `cw`) and along `q` (the question weights).  The
  softmax along `q` is written in two ways: with its own shifted exponential `exp (sim − colMax)`, and from the row
  softmax's numerator as `exp (sim − rowMax) · exp rowMax · exp (0 − colMax)`.  The two agree as soon as every `sim` is a
  real number: then both maxima are real, every factor is a real exponential, and `e^(s−r) · e^r · e^(−c) = e^(s−c)`.
  On the extended reals the identity can fail at infinities, which is why realness is carried along.
-/
import Idealize.ShloMosaic.PureOps.Ideal.Laws
import Idealize.ShloMosaic.Lib.ValueIdx
import Mathlib.Analysis.SpecialFunctions.Exp
import Mathlib.Tactic.Ring

open scoped BigOperators

noncomputable section

namespace Cert.CoAttn

open Idealize.ShloMosaic

/-! ## The float literals the two programs spell -/

theorem ofBits_zero : Ideal.ofBits .f32 0x00000000#32 = 0 := by
  simp [Ideal.ofBits, Ideal.ieee]

/-- The pattern of `-inf` is the bottom of the extended reals. -/
theorem ofBits_negInf : Ideal.ofBits .f32 0xFF800000#32 = ⊥ := by
  simp [Ideal.ofBits, Ideal.ieee]

/-- `0.125` denotes the real `1/8`. -/
theorem ofBits_eighth : Ideal.ofBits .f32 0x3E000000#32 = ((1 / 8 : ℝ) : EReal) := by
  simp [Ideal.ofBits, Ideal.ieee, -EReal.coe_mul]; norm_num

/-- `8.0` denotes the real `8`. -/
theorem ofBits_eight : Ideal.ofBits .f32 0x41000000#32 = ((8 : ℝ) : EReal) := by
  simp [Ideal.ofBits, Ideal.ieee, -EReal.coe_mul]; norm_num

/-- `1.0` denotes the real `1`. -/
theorem ofBits_one : Ideal.ofBits .f32 0x3F800000#32 = ((1 : ℝ) : EReal) := by
  simp [Ideal.ofBits, Ideal.ieee, -EReal.coe_mul]; norm_num

/-- The large negative fill `-1e30` (as an f32) denotes some real number. -/
theorem ofBits_negBig_real : ∃ r : ℝ, Ideal.ofBits .f32 0xF149F2CA#32 = (r : EReal) := by
  simp [Ideal.ofBits, Ideal.ieee, -EReal.coe_mul]
  exact ⟨-(13234890 * 2 ^ 76 : ℝ), (EReal.coe_neg _).symm⟩

/-! ## Extended reals that are real numbers -/

/-- An extended real that is a real number. -/
def IsReal (a : EReal) : Prop := ∃ r : ℝ, a = (r : EReal)

theorem IsReal.coe (r : ℝ) : IsReal (r : EReal) := ⟨r, rfl⟩
theorem IsReal.zero : IsReal (0 : EReal) := ⟨0, rfl⟩
theorem IsReal.add {a b : EReal} (ha : IsReal a) (hb : IsReal b) : IsReal (a + b) := by
  obtain ⟨r, rfl⟩ := ha; obtain ⟨t, rfl⟩ := hb; exact ⟨r + t, (EReal.coe_add r t).symm⟩
theorem IsReal.sub {a b : EReal} (ha : IsReal a) (hb : IsReal b) : IsReal (a - b) := by
  obtain ⟨r, rfl⟩ := ha; obtain ⟨t, rfl⟩ := hb; exact ⟨r - t, (EReal.coe_sub r t).symm⟩
theorem IsReal.mul {a b : EReal} (ha : IsReal a) (hb : IsReal b) : IsReal (a * b) := by
  obtain ⟨r, rfl⟩ := ha; obtain ⟨t, rfl⟩ := hb; exact ⟨r * t, (EReal.coe_mul r t).symm⟩
theorem IsReal.max {a b : EReal} (ha : IsReal a) (hb : IsReal b) : IsReal (max a b) := by
  rcases max_choice a b with h | h <;> rw [h] <;> assumption
theorem IsReal.ne_bot {a : EReal} (ha : IsReal a) : a ≠ ⊥ := by
  obtain ⟨r, rfl⟩ := ha; exact EReal.coe_ne_bot r

theorem IsReal.sum {ι : Type*} (S : Finset ι) (f : ι → EReal) (h : ∀ i ∈ S, IsReal (f i)) : IsReal (∑ i ∈ S, f i) := by
  classical
  induction S using Finset.induction_on with
  | empty => simpa using IsReal.zero
  | insert a S ha ih =>
    rw [Finset.sum_insert ha]
    exact (h a (Finset.mem_insert_self a S)).add (ih fun i hi => h i (Finset.mem_insert_of_mem hi))

/-- A running maximum started at the bottom is the bottom or one of the values. -/
theorem fold_max_bot_mem {ι : Type*} (S : Finset ι) (f : ι → EReal) :
    S.fold max ⊥ f = ⊥ ∨ ∃ i ∈ S, S.fold max ⊥ f = f i := by
  classical
  induction S using Finset.induction_on with
  | empty => exact Or.inl Finset.fold_empty
  | insert a S ha ih =>
    rw [Finset.fold_insert ha]
    rcases max_choice (f a) (S.fold max ⊥ f) with h | h
    · exact Or.inr ⟨a, Finset.mem_insert_self a S, h⟩
    · rw [h]
      rcases ih with ih | ⟨i, hi, ih⟩
      · exact Or.inl ih
      · exact Or.inr ⟨i, Finset.mem_insert_of_mem hi, ih⟩

/-- Every value is below the running maximum. -/
theorem le_fold_max_bot {ι : Type*} (S : Finset ι) (f : ι → EReal) (i : ι) (hi : i ∈ S) : f i ≤ S.fold max ⊥ f := by
  classical
  induction S using Finset.induction_on with
  | empty => exact absurd hi (Finset.notMem_empty i)
  | insert a S ha ih =>
    rw [Finset.fold_insert ha]
    rcases Finset.mem_insert.1 hi with rfl | h
    · exact le_max_left _ _
    · exact le_trans (ih h) (le_max_right _ _)

/-- The maximum of finitely many real numbers, at least one, is a real number. -/
theorem isReal_fold_max {n : ℕ} (hn : 0 < n) (f : Fin n → EReal) (h : ∀ i, IsReal (f i)) :
    IsReal ((Finset.univ : Finset (Fin n)).fold max ⊥ f) := by
  rcases fold_max_bot_mem Finset.univ f with hb | ⟨i, _, hi⟩
  · exfalso
    have := le_fold_max_bot Finset.univ f ⟨0, hn⟩ (Finset.mem_univ _)
    rw [hb] at this
    exact (h ⟨0, hn⟩).ne_bot (le_bot_iff.1 this)
  · rw [hi]; exact h i

/-! ## One batch element -/

/-- A rectified affine form of a row: `max (Σ_c a c · w c + b) 0`. -/
def lin (a w : Fin 512 → EReal) (b : EReal) : EReal := max ((∑ c : Fin 512, a c * w c) + b) 0

theorem lin_real {a w : Fin 512 → EReal} {b : EReal} (ha : ∀ c, IsReal (a c)) (hw : ∀ c, IsReal (w c)) (hb : IsReal b) :
    IsReal (lin a w b) :=
  ((IsReal.sum _ _ fun c _ => (ha c).mul (hw c)).add hb).max IsReal.zero

/-- Column `64 h + d`: feature `d` of head `h`. -/
def col (h : Fin 8) (d : Fin 64) : Fin 512 := ⟨64 * h.val + d.val, by omega⟩

/-- The head that owns column `j`, and the column's place inside it. -/
def headOf (j : Fin 512) : Fin 8 := ⟨j.val / 64, by omega⟩
def featOf (j : Fin 512) : Fin 64 := ⟨j.val % 64, Nat.mod_lt _ (by decide)⟩

theorem col_headOf_featOf (j : Fin 512) : col (headOf j) (featOf j) = j :=
  Fin.ext (by show 64 * (j.val / 64) + j.val % 64 = j.val; omega)

/-- The literal `1.0` and the large negative fill. -/
def one : EReal := Ideal.ofBits .f32 0x3F800000#32
def negBig : EReal := Ideal.ofBits .f32 0xF149F2CA#32

theorem one_real : IsReal one := ⟨1, ofBits_one⟩
theorem negBig_real : IsReal negBig := ofBits_negBig_real

section Heads

variable (Q : Fin 512 → Fin 512 → EReal) (K V : Fin 64 → Fin 512 → EReal) (mk : Fin 512 → Fin 64 → EReal)

/-- Head `h`'s score of context row `q` against question row `k`. -/
def score (h : Fin 8) (q : Fin 512) (k : Fin 64) : EReal := ∑ d : Fin 64, Q q (col h d) * K k (col h d)

/-- The masked, scaled score. -/
def sim (h : Fin 8) (q : Fin 512) (k : Fin 64) : EReal :=
  mk q k * (score Q K h q k * ((1 / 8 : ℝ) : EReal)) + (one - mk q k) * negBig

def rowMax (h : Fin 8) (q : Fin 512) : EReal := (Finset.univ : Finset (Fin 64)).fold max ⊥ (fun k => sim Q K mk h q k)
def colMax (h : Fin 8) (k : Fin 64) : EReal := (Finset.univ : Finset (Fin 512)).fold max ⊥ (fun q => sim Q K mk h q k)

/-- Numerator of the softmax along `k`. -/
def rowExp (h : Fin 8) (q : Fin 512) (k : Fin 64) : EReal := Ideal.exp (sim Q K mk h q k - rowMax Q K mk h q)

/-- The context weights: the softmax of `sim` along `k`. -/
def cw (h : Fin 8) (q : Fin 512) (k : Fin 64) : EReal :=
  Ideal.div (rowExp Q K mk h q k) (∑ k' : Fin 64, rowExp Q K mk h q k')

/-- Numerator of the softmax along `q`, rebuilt from the row softmax's numerator. -/
def colExpFromRow (h : Fin 8) (q : Fin 512) (k : Fin 64) : EReal :=
  rowExp Q K mk h q k * Ideal.exp (rowMax Q K mk h q) * Ideal.exp (0 - colMax Q K mk h k)

/-- Numerator of the softmax along `q`, shifted by its own maximum. -/
def colExp (h : Fin 8) (q : Fin 512) (k : Fin 64) : EReal := Ideal.exp (sim Q K mk h q k - colMax Q K mk h k)

/-- The attended values: `Σ_k cw h q k · V k (64h+d)`. -/
def ctxAtt (h : Fin 8) (q : Fin 512) (d : Fin 64) : EReal := ∑ k : Fin 64, cw Q K mk h q k * V k (col h d)

section Along
variable (num : Fin 8 → Fin 512 → Fin 64 → EReal)

/-- The question weights from a numerator: normalised along `q`. -/
def qwOf (h : Fin 8) (q : Fin 512) (k : Fin 64) : EReal := Ideal.div (num h q k) (∑ q' : Fin 512, num h q' k)

/-- The attended context rows: `Σ_q qw h q k · Q q (64h+d)`. -/
def quesAttOf (h : Fin 8) (k : Fin 64) (d : Fin 64) : EReal := ∑ q : Fin 512, qwOf num h q k * Q q (col h d)

/-- The co-attention: `Σ_k cw h q k · quesAtt h k d`. -/
def coAttOf (h : Fin 8) (q : Fin 512) (d : Fin 64) : EReal := ∑ k : Fin 64, cw Q K mk h q k * quesAttOf Q num h k d

end Along

theorem score_real (hQ : ∀ q j, IsReal (Q q j)) (hK : ∀ k j, IsReal (K k j)) (h : Fin 8) (q : Fin 512) (k : Fin 64) :
    IsReal (score Q K h q k) :=
  IsReal.sum _ _ fun d _ => (hQ q _).mul (hK k _)

theorem sim_real (hQ : ∀ q j, IsReal (Q q j)) (hK : ∀ k j, IsReal (K k j)) (hmk : ∀ q k, IsReal (mk q k))
    (h : Fin 8) (q : Fin 512) (k : Fin 64) : IsReal (sim Q K mk h q k) :=
  ((hmk q k).mul ((score_real Q K hQ hK h q k).mul (IsReal.coe _))).add ((one_real.sub (hmk q k)).mul negBig_real)

/-- THE LAW: where every masked score is real, the column numerator rebuilt from the row numerator is the column
    numerator itself: `e^(s−r) · e^r · e^(0−c) = e^(s−c)` for real `s`, `r`, `c`. -/
theorem colExpFromRow_eq (hs : ∀ h q k, IsReal (sim Q K mk h q k)) :
    colExpFromRow Q K mk = colExp Q K mk := by
  funext h q k
  obtain ⟨s, hs'⟩ := hs h q k
  obtain ⟨r, hr⟩ : IsReal (rowMax Q K mk h q) := isReal_fold_max (by decide) _ fun k' => hs h q k'
  obtain ⟨c, hc⟩ : IsReal (colMax Q K mk h k) := isReal_fold_max (by decide) _ fun q' => hs h q' k
  unfold colExpFromRow colExp rowExp
  rw [hs', hr, hc, ← EReal.coe_zero, ← EReal.coe_sub, ← EReal.coe_sub, ← EReal.coe_sub,
    Ideal.exp_coe, Ideal.exp_coe, Ideal.exp_coe, Ideal.exp_coe, ← EReal.coe_mul, ← EReal.coe_mul,
    ← Real.exp_add, ← Real.exp_add]
  congr 2
  ring

end Heads

/-! ## The whole arrays -/

section Arrays

variable (X : (⟨3, ![64, 512, 512]⟩ : Shape).Idx → EReal) (Y : (⟨3, ![64, 64, 512]⟩ : Shape).Idx → EReal)
  (cm : (⟨3, ![64, 512, 1]⟩ : Shape).Idx → BitVec 32) (qm : (⟨3, ![64, 1, 64]⟩ : Shape).Idx → BitVec 32)
  (WQ : (⟨2, ![512, 512]⟩ : Shape).Idx → EReal) (bQ : (⟨1, ![512]⟩ : Shape).Idx → EReal)
  (WK : (⟨2, ![512, 512]⟩ : Shape).Idx → EReal) (bK : (⟨1, ![512]⟩ : Shape).Idx → EReal)
  (WV : (⟨2, ![512, 512]⟩ : Shape).Idx → EReal) (bV : (⟨1, ![512]⟩ : Shape).Idx → EReal)

open ValueIdx

/-- A rectified projection of batch element `n`: row `t` of the input against row `j` of the weight, plus the bias. -/
def proj {T : ℕ} (A : (⟨3, ![64, T, 512]⟩ : Shape).Idx → EReal) (W : (⟨2, ![512, 512]⟩ : Shape).Idx → EReal)
    (b : (⟨1, ![512]⟩ : Shape).Idx → EReal) (n : Fin 64) (t : Fin T) (j : Fin 512) : EReal :=
  lin (fun c => A (ix3 n t c)) (fun c => W (ix2 j c)) (b (ix1 j))

/-- The outer product of the two integer masks of batch element `n`, as reals. -/
def maskOf (n : Fin 64) (q : Fin 512) (k : Fin 64) : EReal :=
  (((cm (ix3 n q (0 : Fin 1))).toInt : ℝ) : EReal) * (((qm (ix3 n (0 : Fin 1) k)).toInt : ℝ) : EReal)

theorem proj_real {T : ℕ} {A : (⟨3, ![64, T, 512]⟩ : Shape).Idx → EReal} {W : (⟨2, ![512, 512]⟩ : Shape).Idx → EReal}
    {b : (⟨1, ![512]⟩ : Shape).Idx → EReal} (hA : ∀ i, IsReal (A i)) (hW : ∀ i, IsReal (W i)) (hb : ∀ i, IsReal (b i))
    (n : Fin 64) (t : Fin T) (j : Fin 512) : IsReal (proj A W b n t j) :=
  lin_real (fun _ => hA _) (fun _ => hW _) (hb _)

theorem maskOf_real (n : Fin 64) (q : Fin 512) (k : Fin 64) : IsReal (maskOf cm qm n q k) :=
  (IsReal.coe _).mul (IsReal.coe _)

/-- The three results at array index `(n, t, j)`: head `j / 64`, feature `j % 64`. The second and third take the numerator
    of the softmax along the context rows as a parameter. -/
def outCtxAtt (n : Fin 64) (q : Fin 512) (j : Fin 512) : EReal :=
  ctxAtt (proj X WQ bQ n) (proj Y WK bK n) (proj Y WV bV n) (maskOf cm qm n) (headOf j) q (featOf j)

def outQuesAtt (num : Fin 64 → Fin 8 → Fin 512 → Fin 64 → EReal) (n : Fin 64) (k : Fin 64) (j : Fin 512) : EReal :=
  quesAttOf (proj X WQ bQ n) (num n) (headOf j) k (featOf j)

def outCoAtt (num : Fin 64 → Fin 8 → Fin 512 → Fin 64 → EReal) (n : Fin 64) (q : Fin 512) (j : Fin 512) : EReal :=
  coAttOf (proj X WQ bQ n) (proj Y WK bK n) (maskOf cm qm n) (num n) (headOf j) q (featOf j)

/-- The two numerators, per batch element. -/
def numFromRow (n : Fin 64) : Fin 8 → Fin 512 → Fin 64 → EReal :=
  colExpFromRow (proj X WQ bQ n) (proj Y WK bK n) (maskOf cm qm n)
def numOwn (n : Fin 64) : Fin 8 → Fin 512 → Fin 64 → EReal :=
  colExp (proj X WQ bQ n) (proj Y WK bK n) (maskOf cm qm n)

/-- For real inputs the two numerators are one function. -/
theorem numFromRow_eq (hX : ∀ i, IsReal (X i)) (hY : ∀ i, IsReal (Y i)) (hWQ : ∀ i, IsReal (WQ i)) (hbQ : ∀ i, IsReal (bQ i))
    (hWK : ∀ i, IsReal (WK i)) (hbK : ∀ i, IsReal (bK i)) :
    numFromRow X Y cm qm WQ bQ WK bK = numOwn X Y cm qm WQ bQ WK bK := by
  funext n
  exact colExpFromRow_eq _ _ _ fun h q k =>
    sim_real _ _ _ (proj_real hX hWQ hbQ n) (proj_real hY hWK hbK n) (maskOf_real cm qm n) h q k

end Arrays

end Cert.CoAttn

end
-- ==== Proof.FiniteInputs.lean ====
/-
  Finite inputs. The precondition states, for each float argument x, that every entry satisfies |x| < +∞,
  folded to one bit by a conjunction over all entries, and that the conjunction of the eight bits is 1.
  Over the extended reals |x| is max x (-x); it is +∞ at both infinities, so |x| < +∞ says that x is a real.
-/
import proofs.«152353_j773094113483_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.CoAttn.Finite

open Idealize.ShloMosaic Idealize.ShloMosaic.ValueIdx Cert.Pre_finite_inputs

/-- The rank-0 shape has one index. -/
instance subsingleton_S_ : Subsingleton S_.Idx := ⟨fun a b => funext fun d => d.elim0⟩

/-- The pattern 0x7F800000 denotes +∞. -/
theorem ofBits_inf : Ideal.ofBits .f32 0x7F800000#32 = (⊤ : EReal) := by
  simp [Ideal.ofBits, Ideal.ieee]

/-- An extended real x with max x (-x) < +∞ is a real: at x = -∞ and at x = +∞ the maximum is +∞. -/
theorem real_of_abs_lt_top (x : EReal) (h : Ideal.cmp .olt (max x (-x)) (⊤ : EReal) = 1#1) :
    ∃ r : ℝ, x = (r : EReal) := by
  induction x using EReal.rec with
  | bot => simp [Ideal.cmp] at h
  | coe r => exact ⟨r, rfl⟩
  | top => simp [Ideal.cmp] at h

/-- One argument: if the conjunction over all entries of |x| < +∞ is 1, every entry of x is a real. -/
theorem reals_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ix0 = 1#1) :
    ∀ i, ∃ r : ℝ, x i = (r : EReal) := by
  intro i
  have hi := Host.reduce_andi_all _ _ hr hu ix0 e i
  have hi' : Ideal.cmp .olt (max (x i) (-(x i))) (Ideal.ofBits .f32 0x7F800000#32) = 1#1 := hi
  rw [ofBits_inf] at hi'
  exact real_of_abs_lt_top (x i) hi'

/-- Under the precondition every entry of every float argument is a real. -/
theorem reals_of_pre [Cert.Pre_finite_inputs.Facts]
    (a0 : FVec Ideal Cert.Pre_finite_inputs.S64x512x512 .f32) (a1 : FVec Ideal Cert.Pre_finite_inputs.S64x64x512 .f32)
    (a2 : IVec Cert.Pre_finite_inputs.S64x512x1 32) (a3 : IVec Cert.Pre_finite_inputs.S64x1x64 32)
    (a4 : FVec Ideal Cert.Pre_finite_inputs.S512x512 .f32) (a5 : FVec Ideal Cert.Pre_finite_inputs.S512 .f32)
    (a6 : FVec Ideal Cert.Pre_finite_inputs.S512x512 .f32) (a7 : FVec Ideal Cert.Pre_finite_inputs.S512 .f32)
    (a8 : FVec Ideal Cert.Pre_finite_inputs.S512x512 .f32) (a9 : FVec Ideal Cert.Pre_finite_inputs.S512 .f32)
    (h : Cert.Pre_finite_inputs.fn (F := Ideal) a0 a1 a2 a3 a4 a5 a6 a7 a8 a9 = fun _ => 1#1) :
    (∀ i, ∃ r : ℝ, a0 i = (r : EReal)) ∧ (∀ i, ∃ r : ℝ, a1 i = (r : EReal)) ∧ (∀ i, ∃ r : ℝ, a4 i = (r : EReal))
      ∧ (∀ i, ∃ r : ℝ, a5 i = (r : EReal)) ∧ (∀ i, ∃ r : ℝ, a6 i = (r : EReal)) ∧ (∀ i, ∃ r : ℝ, a7 i = (r : EReal))
      ∧ (∀ i, ∃ r : ℝ, a8 i = (r : EReal)) ∧ (∀ i, ∃ r : ℝ, a9 i = (r : EReal)) := by
  have h0 := congrFun h ix0
  dsimp only [Cert.Pre_finite_inputs.fn, Cert.Pre_finite_inputs.fn_part1, Cert.Pre_finite_inputs.fn_part2, andi] at h0
  simp only [IntOp.andi_eq_one] at h0
  obtain ⟨⟨⟨⟨⟨⟨⟨e0, e1⟩, e4⟩, e5⟩, e6⟩, e7⟩, e8⟩, e9⟩ := h0
  exact ⟨reals_of_all a0 _ _ _ e0, reals_of_all a1 _ _ _ e1, reals_of_all a4 _ _ _ e4, reals_of_all a5 _ _ _ e5,
    reals_of_all a6 _ _ _ e6, reals_of_all a7 _ _ _ e7, reals_of_all a8 _ _ _ e8, reals_of_all a9 _ _ _ e9⟩

end Cert.CoAttn.Finite
-- ==== Proof.RefSide.lean ====
/-
  The reference program, read stage by stage at indices built from coordinates, as the functions of coordinates of
  the specification: the three rectified projections, their split into 8 heads of 64 columns, the scaled scores, the
  outer-product mask and the masked scores, the two running maxima, the two softmaxes, the three contractions, and the
  merge of the heads back into 512 columns (column j is feature j % 64 of head j / 64).
-/
import proofs.«152353_j773094113483_2_alg».proof.Proof.Spec
import proofs.«152353_j773094113483_2_alg».proof.Proof.Gen.ReferenceIdeal.Read

open scoped BigOperators

noncomputable section

namespace Cert.CoAttn.Ref

open Cert.ReferenceIdeal Cert.ReferenceIdeal.Read Idealize.ShloMosaic Idealize.ShloMosaic.ValueIdx

variable (x0 : (⟨S64x512x512, .f32⟩ : BufTy).Contents (Elt Ideal)) (x1 : (⟨S64x64x512, .f32⟩ : BufTy).Contents (Elt Ideal))
  (x2 : (⟨S64x512x1, .i32⟩ : BufTy).Contents (Elt Ideal)) (x3 : (⟨S64x1x64, .i32⟩ : BufTy).Contents (Elt Ideal))
  (x4 : (⟨S512x512, .f32⟩ : BufTy).Contents (Elt Ideal)) (x5 : (⟨S512, .f32⟩ : BufTy).Contents (Elt Ideal))
  (x6 : (⟨S512x512, .f32⟩ : BufTy).Contents (Elt Ideal)) (x7 : (⟨S512, .f32⟩ : BufTy).Contents (Elt Ideal))
  (x8 : (⟨S512x512, .f32⟩ : BufTy).Contents (Elt Ideal)) (x9 : (⟨S512, .f32⟩ : BufTy).Contents (Elt Ideal))

/-! ## The three rectified projections -/

/-- The context projection at (n, t, j): max (Σ_c x0 (n,t,c) · x4 (j,c) + x5 j) 0. -/
theorem v4_eq (n : Fin 64) (t : Fin 512) (j : Fin 512) :
    val_main_v4 (F := Ideal) x0 x4 x5 (ix3 n t j) = proj x0 x4 x5 n t j := by
  rw [val_main_v4_apply, val_main_v3_apply, val_main_v0_apply, val_main_v2_apply, val_main_v1_apply,
    val_main_call0_v0_apply, val_main_call0_cst_apply]
  have el : ∀ k, lidx_main_v0 (ix3 n t j) k = ix3 n t k := fun k => funext fun a => by
    match a with | ⟨0, _⟩ => rfl | ⟨1, _⟩ => rfl | ⟨2, _⟩ => rfl
  have er : ∀ k, ridx_main_v0 (ix3 n t j) k = ix2 j k := fun k => funext fun a => by
    match a with | ⟨0, _⟩ => rfl | ⟨1, _⟩ => rfl
  have eb : idx_main_v1 (idx_main_v2 (ix3 n t j)) = ix1 j := funext fun a => by
    match a with | ⟨0, _⟩ => rfl
  simp only [el, er, eb]
  show max ((∑ k : Fin 512, x0 (ix3 n t k) * x4 (ix2 j k)) + x5 (ix1 j)) (Ideal.ofBits .f32 0x00000000#32) = _
  rw [ofBits_zero]
  rfl

/-- The question projection for the keys. -/
theorem v9_eq (n : Fin 64) (t : Fin 64) (j : Fin 512) :
    val_main_v9 (F := Ideal) x1 x6 x7 (ix3 n t j) = proj x1 x6 x7 n t j := by
  rw [val_main_v9_apply, val_main_v8_apply, val_main_v5_apply, val_main_v7_apply, val_main_v6_apply,
    val_main_call1_v0_apply, val_main_call1_cst_apply]
  have el : ∀ k, lidx_main_v5 (ix3 n t j) k = ix3 n t k := fun k => funext fun a => by
    match a with | ⟨0, _⟩ => rfl | ⟨1, _⟩ => rfl | ⟨2, _⟩ => rfl
  have er : ∀ k, ridx_main_v5 (ix3 n t j) k = ix2 j k := fun k => funext fun a => by
    match a with | ⟨0, _⟩ => rfl | ⟨1, _⟩ => rfl
  have eb : idx_main_v6 (idx_main_v7 (ix3 n t j)) = ix1 j := funext fun a => by
    match a with | ⟨0, _⟩ => rfl
  simp only [el, er, eb]
  show max ((∑ k : Fin 512, x1 (ix3 n t k) * x6 (ix2 j k)) + x7 (ix1 j)) (Ideal.ofBits .f32 0x00000000#32) = _
  rw [ofBits_zero]
  rfl

/-- The question projection for the values. -/
theorem v14_eq (n : Fin 64) (t : Fin 64) (j : Fin 512) :
    val_main_v14 (F := Ideal) x1 x8 x9 (ix3 n t j) = proj x1 x8 x9 n t j := by
  rw [val_main_v14_apply, val_main_v13_apply, val_main_v10_apply, val_main_v12_apply, val_main_v11_apply,
    val_main_call2_v0_apply, val_main_call2_cst_apply]
  have el : ∀ k, lidx_main_v10 (ix3 n t j) k = ix3 n t k := fun k => funext fun a => by
    match a with | ⟨0, _⟩ => rfl | ⟨1, _⟩ => rfl | ⟨2, _⟩ => rfl
  have er : ∀ k, ridx_main_v10 (ix3 n t j) k = ix2 j k := fun k => funext fun a => by
    match a with | ⟨0, _⟩ => rfl | ⟨1, _⟩ => rfl
  have eb : idx_main_v11 (idx_main_v12 (ix3 n t j)) = ix1 j := funext fun a => by
    match a with | ⟨0, _⟩ => rfl
  simp only [el, er, eb]
  show max ((∑ k : Fin 512, x1 (ix3 n t k) * x8 (ix2 j k)) + x9 (ix1 j)) (Ideal.ofBits .f32 0x00000000#32) = _
  rw [ofBits_zero]
  rfl

/-! ## The split into heads: head h owns the columns 64 h + d -/

/-- The context projection, by heads: at (h, n, t, d) it is the projection's column 64 h + d. -/
theorem v16_eq (h : Fin 8) (n : Fin 64) (t : Fin 512) (d : Fin 64) :
    val_main_v16 (F := Ideal) x0 x4 x5 (ix4 h n t d) = proj x0 x4 x5 n t (col h d) := by
  rw [val_main_v16_apply, val_main_v15_apply]
  have e : idx_main_v15 (idx_main_v16 (ix4 h n t d)) = ix3 n t (col h d) := funext fun a => Fin.ext (by
    have hh := h.isLt; have hn := n.isLt; have ht := t.isLt; have hd := d.isLt
    match a with
    | ⟨0, _⟩ => show (((n.val * 512 + t.val) * 8 + h.val) * 64 + d.val) / 262144 = n.val; omega
    | ⟨1, _⟩ => show (((n.val * 512 + t.val) * 8 + h.val) * 64 + d.val) / 512 % 512 = t.val; omega
    | ⟨2, _⟩ => show (((n.val * 512 + t.val) * 8 + h.val) * 64 + d.val) % 512 = 64 * h.val + d.val; omega)
  rw [e, v4_eq]

/-- The keys, by heads. -/
theorem v18_eq (h : Fin 8) (n : Fin 64) (t : Fin 64) (d : Fin 64) :
    val_main_v18 (F := Ideal) x1 x6 x7 (ix4 h n t d) = proj x1 x6 x7 n t (col h d) := by
  rw [val_main_v18_apply, val_main_v17_apply]
  have e : idx_main_v17 (idx_main_v18 (ix4 h n t d)) = ix3 n t (col h d) := funext fun a => Fin.ext (by
    have hh := h.isLt; have hn := n.isLt; have ht := t.isLt; have hd := d.isLt
    match a with
    | ⟨0, _⟩ => show (((n.val * 64 + t.val) * 8 + h.val) * 64 + d.val) / 32768 = n.val; omega
    | ⟨1, _⟩ => show (((n.val * 64 + t.val) * 8 + h.val) * 64 + d.val) / 512 % 64 = t.val; omega
    | ⟨2, _⟩ => show (((n.val * 64 + t.val) * 8 + h.val) * 64 + d.val) % 512 = 64 * h.val + d.val; omega)
  rw [e, v9_eq]

/-- The values, by heads. -/
theorem v20_eq (h : Fin 8) (n : Fin 64) (t : Fin 64) (d : Fin 64) :
    val_main_v20 (F := Ideal) x1 x8 x9 (ix4 h n t d) = proj x1 x8 x9 n t (col h d) := by
  rw [val_main_v20_apply, val_main_v19_apply]
  have e : idx_main_v19 (idx_main_v20 (ix4 h n t d)) = ix3 n t (col h d) := funext fun a => Fin.ext (by
    have hh := h.isLt; have hn := n.isLt; have ht := t.isLt; have hd := d.isLt
    match a with
    | ⟨0, _⟩ => show (((n.val * 64 + t.val) * 8 + h.val) * 64 + d.val) / 32768 = n.val; omega
    | ⟨1, _⟩ => show (((n.val * 64 + t.val) * 8 + h.val) * 64 + d.val) / 512 % 64 = t.val; omega
    | ⟨2, _⟩ => show (((n.val * 64 + t.val) * 8 + h.val) * 64 + d.val) % 512 = 64 * h.val + d.val; omega)
  rw [e, v14_eq]

/-! ## The scores and their scaling by 1/8 -/

/-- Head h's score of context row q against question row k: Σ_d Q q (64h+d) · K k (64h+d). -/
theorem v21_eq (h : Fin 8) (n : Fin 64) (q : Fin 512) (k : Fin 64) :
    val_main_v21 (F := Ideal) x0 x1 x4 x5 x6 x7 (ix4 h n q k) = score (proj x0 x4 x5 n) (proj x1 x6 x7 n) h q k := by
  rw [val_main_v21_apply]
  unfold score
  refine Finset.sum_congr rfl fun d _ => ?_
  have el : lidx_main_v21 (ix4 h n q k) d = ix4 h n q d := funext fun a => by
    match a with | ⟨0, _⟩ => rfl | ⟨1, _⟩ => rfl | ⟨2, _⟩ => rfl | ⟨3, _⟩ => rfl
  have er : ridx_main_v21 (ix4 h n q k) d = ix4 h n k d := funext fun a => by
    match a with | ⟨0, _⟩ => rfl | ⟨1, _⟩ => rfl | ⟨2, _⟩ => rfl | ⟨3, _⟩ => rfl
  rw [el, er, v16_eq, v18_eq]

/-- Division by the literal 8 is multiplication by the real 1/8. -/
theorem v23_eq (h : Fin 8) (n : Fin 64) (q : Fin 512) (k : Fin 64) :
    val_main_v23 (F := Ideal) x0 x1 x4 x5 x6 x7 (ix4 h n q k) = score (proj x0 x4 x5 n) (proj x1 x6 x7 n) h q k * ((1 / 8 : ℝ) : EReal) := by
  rw [val_main_v23_apply, val_main_v22_apply, val_main_cst_apply, v21_eq]
  show Ideal.div _ (Ideal.ofBits .f32 0x41000000#32) = _
  rw [ofBits_eight, Ideal.div_coe (by norm_num : (8 : ℝ) ≠ 0)]

/-! ## The mask and the masked scores -/

/-- The mask is the product of the two integer masks read as reals (a contraction over one term). -/
theorem v26_eq (n : Fin 64) (q : Fin 512) (k : Fin 64) :
    val_main_v26 (F := Ideal) x2 x3 (ix3 n q k) = maskOf x2 x3 n q k := by
  rw [val_main_v26_apply, Fin.sum_univ_one, val_main_v24_apply, val_main_v25_apply]
  have el : lidx_main_v26 (ix3 n q k) (0 : Fin 1) = ix3 n q (0 : Fin 1) := funext fun a => by
    match a with | ⟨0, _⟩ => rfl | ⟨1, _⟩ => rfl | ⟨2, _⟩ => rfl
  have er : ridx_main_v26 (ix3 n q k) (0 : Fin 1) = ix3 n (0 : Fin 1) k := funext fun a => by
    match a with | ⟨0, _⟩ => rfl | ⟨1, _⟩ => rfl | ⟨2, _⟩ => rfl
  rw [el, er]
  rfl

/-- The masked, scaled score: m · (score / 8) + (1 − m) · fill. -/
theorem v35_eq (h : Fin 8) (n : Fin 64) (q : Fin 512) (k : Fin 64) :
    val_main_v35 (F := Ideal) x0 x1 x2 x3 x4 x5 x6 x7 (ix4 h n q k) = sim (proj x0 x4 x5 n) (proj x1 x6 x7 n) (maskOf x2 x3 n) h q k := by
  rw [val_main_v35_apply, val_main_v29_apply, val_main_v28_apply, val_main_v27_apply, val_main_v34_apply,
    val_main_v33_apply, val_main_v31_apply, val_main_v30_apply, val_main_cst_0_apply, val_main_v27_apply,
    val_main_v32_apply, val_main_cst_1_apply]
  have e1 : idx_main_v27 (idx_main_v28 (ix4 h n q k)) = ix3 n q k := funext fun a => by
    match a with | ⟨0, _⟩ => rfl | ⟨1, _⟩ => rfl | ⟨2, _⟩ => rfl
  rw [e1, v26_eq, v23_eq]
  rfl

/-! ## The two running maxima -/

/-- The shape [8,64,512,64] with its last axis dropped, and with its third axis dropped. -/
theorem red3 : S8x64x512x64.Reduces [3] S8x64x512 := by decide
theorem red2 : S8x64x512x64.Reduces [2] S8x64x64 := by decide

/-- (h, n, q) with k inserted on the last axis is (h, n, q, k). -/
theorem lift3 (h : Fin 8) (n : Fin 64) (q : Fin 512) (k : Fin 64) : red3.lift (ix3 h n q) k = ix4 h n q k :=
  funext fun a => Fin.ext (by
    match a with | ⟨0, _⟩ => rfl | ⟨1, _⟩ => rfl | ⟨2, _⟩ => rfl | ⟨3, _⟩ => rfl)

/-- (h, n, k) with q inserted on the third axis is (h, n, q, k). -/
theorem lift2 (h : Fin 8) (n : Fin 64) (k : Fin 64) (q : Fin 512) : red2.lift (ix3 h n k) q = ix4 h n q k :=
  funext fun a => Fin.ext (by
    match a with | ⟨0, _⟩ => rfl | ⟨1, _⟩ => rfl | ⟨2, _⟩ => rfl | ⟨3, _⟩ => rfl)

/-- A maximum-reduction over the last axis, at (h, n, q): the running maximum over that axis's coordinates. -/
theorem fold3 (x : S8x64x512x64.Idx → EReal) (init : S_.Idx → EReal) (h : Fin 8) (n : Fin 64) (q : Fin 512) :
    Host.reduce (FloatOps.maximumf (F := Ideal) (φ := .f32)) x init Gen.reducesTo_S8x64x512x64_S8x64x512_d3 Gen.h_S_ (ix3 h n q)
      = (Finset.univ : Finset (Fin (S8x64x512x64.size 3))).fold (FloatOps.maximumf (F := Ideal) (φ := .f32))
          (init (Shape.Idx.first Gen.h_S_)) (x ∘ red3.lift (ix3 h n q)) :=
  Host.reduce_eq_fold_single (FloatOps.maximumf (F := Ideal) (φ := .f32)) x init
    Gen.reducesTo_S8x64x512x64_S8x64x512_d3 red3 Gen.h_S_ (ix3 h n q)

/-- A maximum-reduction over the third axis, at (h, n, k). -/
theorem fold2 (x : S8x64x512x64.Idx → EReal) (init : S_.Idx → EReal) (h : Fin 8) (n : Fin 64) (k : Fin 64) :
    Host.reduce (FloatOps.maximumf (F := Ideal) (φ := .f32)) x init Gen.reducesTo_S8x64x512x64_S8x64x64_d2 Gen.h_S_ (ix3 h n k)
      = (Finset.univ : Finset (Fin (S8x64x512x64.size 2))).fold (FloatOps.maximumf (F := Ideal) (φ := .f32))
          (init (Shape.Idx.first Gen.h_S_)) (x ∘ red2.lift (ix3 h n k)) :=
  Host.reduce_eq_fold_single (FloatOps.maximumf (F := Ideal) (φ := .f32)) x init
    Gen.reducesTo_S8x64x512x64_S8x64x64_d2 red2 Gen.h_S_ (ix3 h n k)

/-- The maximum over the question rows k, started at −∞. -/
theorem v36_eq (h : Fin 8) (n : Fin 64) (q : Fin 512) :
    val_main_v36 (F := Ideal) x0 x1 x2 x3 x4 x5 x6 x7 (ix3 h n q) = rowMax (proj x0 x4 x5 n) (proj x1 x6 x7 n) (maskOf x2 x3 n) h q := by
  unfold val_main_v36
  refine (fold3 _ _ h n q).trans ?_
  unfold rowMax
  show (Finset.univ : Finset (Fin 64)).fold max (Ideal.ofBits .f32 0xFF800000#32)
      (val_main_v35 (F := Ideal) x0 x1 x2 x3 x4 x5 x6 x7 ∘ red3.lift (ix3 h n q)) = _
  rw [ofBits_negInf]
  refine Finset.fold_congr fun (k : Fin 64) _ => ?_
  exact (congrArg (val_main_v35 (F := Ideal) x0 x1 x2 x3 x4 x5 x6 x7) (lift3 h n q k)).trans (v35_eq x0 x1 x2 x3 x4 x5 x6 x7 h n q k)

/-- The maximum over the context rows q, started at −∞. -/
theorem v47_eq (h : Fin 8) (n : Fin 64) (k : Fin 64) :
    val_main_v47 (F := Ideal) x0 x1 x2 x3 x4 x5 x6 x7 (ix3 h n k) = colMax (proj x0 x4 x5 n) (proj x1 x6 x7 n) (maskOf x2 x3 n) h k := by
  unfold val_main_v47
  refine (fold2 _ _ h n k).trans ?_
  unfold colMax
  show (Finset.univ : Finset (Fin 512)).fold max (Ideal.ofBits .f32 0xFF800000#32)
      (val_main_v35 (F := Ideal) x0 x1 x2 x3 x4 x5 x6 x7 ∘ red2.lift (ix3 h n k)) = _
  rw [ofBits_negInf]
  refine Finset.fold_congr fun (q : Fin 512) _ => ?_
  exact (congrArg (val_main_v35 (F := Ideal) x0 x1 x2 x3 x4 x5 x6 x7) (lift2 h n k q)).trans (v35_eq x0 x1 x2 x3 x4 x5 x6 x7 h n q k)

/-- The maximum with −∞ changes nothing. -/
theorem v38_eq (h : Fin 8) (n : Fin 64) (q : Fin 512) :
    val_main_v38 (F := Ideal) x0 x1 x2 x3 x4 x5 x6 x7 (ix3 h n q) = rowMax (proj x0 x4 x5 n) (proj x1 x6 x7 n) (maskOf x2 x3 n) h q := by
  rw [val_main_v38_apply, val_main_v37_apply, val_main_cst_3_apply, v36_eq]
  show max (Ideal.ofBits .f32 0xFF800000#32) _ = _
  rw [ofBits_negInf]
  exact max_eq_right bot_le

theorem v49_eq (h : Fin 8) (n : Fin 64) (k : Fin 64) :
    val_main_v49 (F := Ideal) x0 x1 x2 x3 x4 x5 x6 x7 (ix3 h n k) = colMax (proj x0 x4 x5 n) (proj x1 x6 x7 n) (maskOf x2 x3 n) h k := by
  rw [val_main_v49_apply, val_main_v48_apply, val_main_cst_6_apply, v47_eq]
  show max (Ideal.ofBits .f32 0xFF800000#32) _ = _
  rw [ofBits_negInf]
  exact max_eq_right bot_le

/-! ## The softmax along the question rows -/

/-- The numerator: exp (sim − rowMax). -/
theorem v42_eq (h : Fin 8) (n : Fin 64) (q : Fin 512) (k : Fin 64) :
    val_main_v42 (F := Ideal) x0 x1 x2 x3 x4 x5 x6 x7 (ix4 h n q k) = rowExp (proj x0 x4 x5 n) (proj x1 x6 x7 n) (maskOf x2 x3 n) h q k := by
  rw [val_main_v42_apply, val_main_v41_apply, val_main_v40_apply, val_main_v39_apply]
  have e : idx_main_v39 (idx_main_v40 (ix4 h n q k)) = ix3 h n q := funext fun a => by
    match a with | ⟨0, _⟩ => rfl | ⟨1, _⟩ => rfl | ⟨2, _⟩ => rfl
  rw [e, v35_eq, v38_eq]
  rfl

/-- The denominator: the sum of the numerators over k, started at 0. -/
theorem v43_eq (h : Fin 8) (n : Fin 64) (q : Fin 512) :
    val_main_v43 (F := Ideal) x0 x1 x2 x3 x4 x5 x6 x7 (ix3 h n q) = ∑ k : Fin 64, rowExp (proj x0 x4 x5 n) (proj x1 x6 x7 n) (maskOf x2 x3 n) h q k := by
  rw [val_main_v43_apply, val_main_cst_4_apply]
  show Ideal.ofBits .f32 0x00000000#32 + _ = _
  rw [ofBits_zero, zero_add]
  refine Finset.sum_congr rfl fun k _ => ?_
  have e : idx_main_v43 (ix3 h n q) k = ix4 h n q k := funext fun a => by
    match a with | ⟨0, _⟩ => rfl | ⟨1, _⟩ => rfl | ⟨2, _⟩ => rfl | ⟨3, _⟩ => rfl
  rw [e, v42_eq]

/-- The context weights. -/
theorem v46_eq (h : Fin 8) (n : Fin 64) (q : Fin 512) (k : Fin 64) :
    val_main_v46 (F := Ideal) x0 x1 x2 x3 x4 x5 x6 x7 (ix4 h n q k) = cw (proj x0 x4 x5 n) (proj x1 x6 x7 n) (maskOf x2 x3 n) h q k := by
  rw [val_main_v46_apply, val_main_v45_apply, val_main_v44_apply]
  have e : idx_main_v44 (idx_main_v45 (ix4 h n q k)) = ix3 h n q := funext fun a => by
    match a with | ⟨0, _⟩ => rfl | ⟨1, _⟩ => rfl | ⟨2, _⟩ => rfl
  rw [e, v42_eq, v43_eq]
  rfl

/-! ## The softmax along the context rows -/

/-- The numerator: exp (sim − colMax). -/
theorem v53_eq (h : Fin 8) (n : Fin 64) (q : Fin 512) (k : Fin 64) :
    val_main_v53 (F := Ideal) x0 x1 x2 x3 x4 x5 x6 x7 (ix4 h n q k) = colExp (proj x0 x4 x5 n) (proj x1 x6 x7 n) (maskOf x2 x3 n) h q k := by
  rw [val_main_v53_apply, val_main_v52_apply, val_main_v51_apply, val_main_v50_apply]
  have e : idx_main_v50 (idx_main_v51 (ix4 h n q k)) = ix3 h n k := funext fun a => by
    match a with | ⟨0, _⟩ => rfl | ⟨1, _⟩ => rfl | ⟨2, _⟩ => rfl
  rw [e, v35_eq, v49_eq]
  rfl

/-- The denominator: the sum of the numerators over q, started at 0. -/
theorem v54_eq (h : Fin 8) (n : Fin 64) (k : Fin 64) :
    val_main_v54 (F := Ideal) x0 x1 x2 x3 x4 x5 x6 x7 (ix3 h n k) = ∑ q : Fin 512, colExp (proj x0 x4 x5 n) (proj x1 x6 x7 n) (maskOf x2 x3 n) h q k := by
  rw [val_main_v54_apply, val_main_cst_7_apply]
  show Ideal.ofBits .f32 0x00000000#32 + _ = _
  rw [ofBits_zero, zero_add]
  refine Finset.sum_congr rfl fun q _ => ?_
  have e : idx_main_v54 (ix3 h n k) q = ix4 h n q k := funext fun a => by
    match a with | ⟨0, _⟩ => rfl | ⟨1, _⟩ => rfl | ⟨2, _⟩ => rfl | ⟨3, _⟩ => rfl
  rw [e, v53_eq]

/-- The question weights. -/
theorem v57_eq (h : Fin 8) (n : Fin 64) (q : Fin 512) (k : Fin 64) :
    val_main_v57 (F := Ideal) x0 x1 x2 x3 x4 x5 x6 x7 (ix4 h n q k) = qwOf (colExp (proj x0 x4 x5 n) (proj x1 x6 x7 n) (maskOf x2 x3 n)) h q k := by
  rw [val_main_v57_apply, val_main_v56_apply, val_main_v55_apply]
  have e : idx_main_v55 (idx_main_v56 (ix4 h n q k)) = ix3 h n k := funext fun a => by
    match a with | ⟨0, _⟩ => rfl | ⟨1, _⟩ => rfl | ⟨2, _⟩ => rfl
  rw [e, v53_eq, v54_eq]
  rfl

/-! ## The three contractions -/

/-- The attended values: Σ_k cw h q k · V k (64h+d). -/
theorem v58_eq (h : Fin 8) (n : Fin 64) (q : Fin 512) (d : Fin 64) :
    val_main_v58 (F := Ideal) x0 x1 x2 x3 x4 x5 x6 x7 x8 x9 (ix4 h n q d)
      = ctxAtt (proj x0 x4 x5 n) (proj x1 x6 x7 n) (proj x1 x8 x9 n) (maskOf x2 x3 n) h q d := by
  rw [val_main_v58_apply]
  unfold ctxAtt
  refine Finset.sum_congr rfl fun k _ => ?_
  have el : lidx_main_v58 (ix4 h n q d) k = ix4 h n q k := funext fun a => by
    match a with | ⟨0, _⟩ => rfl | ⟨1, _⟩ => rfl | ⟨2, _⟩ => rfl | ⟨3, _⟩ => rfl
  have er : ridx_main_v58 (ix4 h n q d) k = ix4 h n k d := funext fun a => by
    match a with | ⟨0, _⟩ => rfl | ⟨1, _⟩ => rfl | ⟨2, _⟩ => rfl | ⟨3, _⟩ => rfl
  rw [el, er, v46_eq, v20_eq]

/-- The attended context rows: Σ_q qw h q k · Q q (64h+d). -/
theorem v59_eq (h : Fin 8) (n : Fin 64) (k : Fin 64) (d : Fin 64) :
    val_main_v59 (F := Ideal) x0 x1 x2 x3 x4 x5 x6 x7 (ix4 h n k d)
      = quesAttOf (proj x0 x4 x5 n) (colExp (proj x0 x4 x5 n) (proj x1 x6 x7 n) (maskOf x2 x3 n)) h k d := by
  rw [val_main_v59_apply]
  unfold quesAttOf
  refine Finset.sum_congr rfl fun q _ => ?_
  have el : lidx_main_v59 (ix4 h n k d) q = ix4 h n q k := funext fun a => by
    match a with | ⟨0, _⟩ => rfl | ⟨1, _⟩ => rfl | ⟨2, _⟩ => rfl | ⟨3, _⟩ => rfl
  have er : ridx_main_v59 (ix4 h n k d) q = ix4 h n q d := funext fun a => by
    match a with | ⟨0, _⟩ => rfl | ⟨1, _⟩ => rfl | ⟨2, _⟩ => rfl | ⟨3, _⟩ => rfl
  rw [el, er, v57_eq, v16_eq]

/-- The co-attention: Σ_k cw h q k · quesAtt h k d. -/
theorem v60_eq (h : Fin 8) (n : Fin 64) (q : Fin 512) (d : Fin 64) :
    val_main_v60 (F := Ideal) x0 x1 x2 x3 x4 x5 x6 x7 (ix4 h n q d)
      = coAttOf (proj x0 x4 x5 n) (proj x1 x6 x7 n) (maskOf x2 x3 n) (colExp (proj x0 x4 x5 n) (proj x1 x6 x7 n) (maskOf x2 x3 n)) h q d := by
  rw [val_main_v60_apply]
  unfold coAttOf
  refine Finset.sum_congr rfl fun k _ => ?_
  have el : lidx_main_v60 (ix4 h n q d) k = ix4 h n q k := funext fun a => by
    match a with | ⟨0, _⟩ => rfl | ⟨1, _⟩ => rfl | ⟨2, _⟩ => rfl | ⟨3, _⟩ => rfl
  have er : ridx_main_v60 (ix4 h n q d) k = ix4 h n k d := funext fun a => by
    match a with | ⟨0, _⟩ => rfl | ⟨1, _⟩ => rfl | ⟨2, _⟩ => rfl | ⟨3, _⟩ => rfl
  rw [el, er, v46_eq, v59_eq]

/-! ## The merge of the heads: column j is feature j % 64 of head j / 64 -/

theorem ref_ctxAtt (n : Fin 64) (t : Fin 512) (j : Fin 512) :
    val_main_v62 (F := Ideal) x0 x1 x2 x3 x4 x5 x6 x7 x8 x9 (ix3 n t j) = outCtxAtt x0 x1 x2 x3 x4 x5 x6 x7 x8 x9 n t j := by
  rw [val_main_v62_apply, val_main_v61_apply]
  have e : idx_main_v61 (idx_main_v62 (ix3 n t j)) = ix4 (headOf j) n t (featOf j) := funext fun a => Fin.ext (by
    have hn := n.isLt; have ht := t.isLt; have hj := j.isLt
    match a with
    | ⟨0, _⟩ => show ((n.val * 512 + t.val) * 512 + j.val) / 64 % 8 = j.val / 64; omega
    | ⟨1, _⟩ => show ((n.val * 512 + t.val) * 512 + j.val) / 262144 = n.val; omega
    | ⟨2, _⟩ => show ((n.val * 512 + t.val) * 512 + j.val) / 512 % 512 = t.val; omega
    | ⟨3, _⟩ => show ((n.val * 512 + t.val) * 512 + j.val) % 64 = j.val % 64; omega)
  rw [e, v58_eq]
  rfl

theorem ref_quesAtt (n : Fin 64) (t : Fin 64) (j : Fin 512) :
    val_main_v64 (F := Ideal) x0 x1 x2 x3 x4 x5 x6 x7 (ix3 n t j) = outQuesAtt x0 x4 x5 (numOwn x0 x1 x2 x3 x4 x5 x6 x7) n t j := by
  rw [val_main_v64_apply, val_main_v63_apply]
  have e : idx_main_v63 (idx_main_v64 (ix3 n t j)) = ix4 (headOf j) n t (featOf j) := funext fun a => Fin.ext (by
    have hn := n.isLt; have ht := t.isLt; have hj := j.isLt
    match a with
    | ⟨0, _⟩ => show ((n.val * 64 + t.val) * 512 + j.val) / 64 % 8 = j.val / 64; omega
    | ⟨1, _⟩ => show ((n.val * 64 + t.val) * 512 + j.val) / 32768 = n.val; omega
    | ⟨2, _⟩ => show ((n.val * 64 + t.val) * 512 + j.val) / 512 % 64 = t.val; omega
    | ⟨3, _⟩ => show ((n.val * 64 + t.val) * 512 + j.val) % 64 = j.val % 64; omega)
  rw [e, v59_eq]
  rfl

theorem ref_coAtt (n : Fin 64) (t : Fin 512) (j : Fin 512) :
    val_main_v66 (F := Ideal) x0 x1 x2 x3 x4 x5 x6 x7 (ix3 n t j) = outCoAtt x0 x1 x2 x3 x4 x5 x6 x7 (numOwn x0 x1 x2 x3 x4 x5 x6 x7) n t j := by
  rw [val_main_v66_apply, val_main_v65_apply]
  have e : idx_main_v65 (idx_main_v66 (ix3 n t j)) = ix4 (headOf j) n t (featOf j) := funext fun a => Fin.ext (by
    have hn := n.isLt; have ht := t.isLt; have hj := j.isLt
    match a with
    | ⟨0, _⟩ => show ((n.val * 512 + t.val) * 512 + j.val) / 64 % 8 = j.val / 64; omega
    | ⟨1, _⟩ => show ((n.val * 512 + t.val) * 512 + j.val) / 262144 = n.val; omega
    | ⟨2, _⟩ => show ((n.val * 512 + t.val) * 512 + j.val) / 512 % 512 = t.val; omega
    | ⟨3, _⟩ => show ((n.val * 512 + t.val) * 512 + j.val) % 64 = j.val % 64; omega)
  rw [e, v60_eq]
  rfl

end Cert.CoAttn.Ref
-- ==== Proof.KBlock.lean ====
/-
  One grid point's blocks: the specification's functions of the ten staged blocks.

  `projB` is a rectified projection of a `[1, T, 512]` block against a weight as staged (already transposed): entry
  `(t, j)` is `max (Σ_c x (0, t, c) · w (c, j) + b j) 0`; `maskB` is the outer product of the block's two integer masks.
  The three output blocks, as functions of the block index `(0, t, j)`, are the attention sums of head `j / 64` at feature
  `j % 64` over these.
-/
import proofs.«152353_j773094113483_2_alg».proof.Proof.Spec
import Idealize.ShloMosaic.Lib.ValueIdx

open scoped BigOperators

noncomputable section

namespace Cert.CoAttn.KBody

open Idealize.ShloMosaic Idealize.ShloMosaic.ValueIdx Cert.CoAttn

/-- A block's rectified projection: rows of the `[1, T, 512]` block against columns of the weight as staged (already
    transposed), plus the bias. -/
def projB {T : ℕ} (x : (⟨3, ![1, T, 512]⟩ : Shape).Idx → EReal) (w : (⟨2, ![512, 512]⟩ : Shape).Idx → EReal)
    (b : (⟨1, ![512]⟩ : Shape).Idx → EReal) (t : Fin T) (j : Fin 512) : EReal :=
  lin (fun c => x (ix3 (0 : Fin 1) t c)) (fun c => w (ix2 c j)) (b (ix1 j))

/-- The outer product of a block's two integer masks, as reals. -/
def maskB (x2 : (⟨3, ![1, 512, 1]⟩ : Shape).Idx → BitVec 32) (x3 : (⟨3, ![1, 1, 64]⟩ : Shape).Idx → BitVec 32)
    (q : Fin 512) (k : Fin 64) : EReal :=
  (((x2 (ix3 (0 : Fin 1) q (0 : Fin 1))).toInt : ℝ) : EReal) * (((x3 (ix3 (0 : Fin 1) (0 : Fin 1) k)).toInt : ℝ) : EReal)

theorem headOf_col (h : Fin 8) (d : Fin 64) : headOf (col h d) = h :=
  Fin.ext (by show (64 * h.val + d.val) / 64 = h.val; omega)
theorem featOf_col (h : Fin 8) (d : Fin 64) : featOf (col h d) = d :=
  Fin.ext (by show (64 * h.val + d.val) % 64 = d.val; omega)

/-- The three output blocks as functions of the block index. -/
def blockCtx (x0 : (⟨3, ![1, 512, 512]⟩ : Shape).Idx → EReal) (x1 : (⟨3, ![1, 64, 512]⟩ : Shape).Idx → EReal)
    (x2 : (⟨3, ![1, 512, 1]⟩ : Shape).Idx → BitVec 32) (x3 : (⟨3, ![1, 1, 64]⟩ : Shape).Idx → BitVec 32)
    (x4 : (⟨2, ![512, 512]⟩ : Shape).Idx → EReal) (x5 : (⟨1, ![512]⟩ : Shape).Idx → EReal)
    (x6 : (⟨2, ![512, 512]⟩ : Shape).Idx → EReal) (x7 : (⟨1, ![512]⟩ : Shape).Idx → EReal)
    (x8 : (⟨2, ![512, 512]⟩ : Shape).Idx → EReal) (x9 : (⟨1, ![512]⟩ : Shape).Idx → EReal)
    (y : (⟨3, ![1, 512, 512]⟩ : Shape).Idx) : EReal := ctxAtt (projB x0 x4 x5) (projB x1 x6 x7) (projB x1 x8 x9) (maskB x2 x3) (headOf (y 2)) (y 1) (featOf (y 2))
def blockQues (x0 : (⟨3, ![1, 512, 512]⟩ : Shape).Idx → EReal) (x1 : (⟨3, ![1, 64, 512]⟩ : Shape).Idx → EReal)
    (x2 : (⟨3, ![1, 512, 1]⟩ : Shape).Idx → BitVec 32) (x3 : (⟨3, ![1, 1, 64]⟩ : Shape).Idx → BitVec 32)
    (x4 : (⟨2, ![512, 512]⟩ : Shape).Idx → EReal) (x5 : (⟨1, ![512]⟩ : Shape).Idx → EReal)
    (x6 : (⟨2, ![512, 512]⟩ : Shape).Idx → EReal) (x7 : (⟨1, ![512]⟩ : Shape).Idx → EReal)
    (x8 : (⟨2, ![512, 512]⟩ : Shape).Idx → EReal) (x9 : (⟨1, ![512]⟩ : Shape).Idx → EReal)
    (y : (⟨3, ![1, 64, 512]⟩ : Shape).Idx) : EReal :=
  quesAttOf (projB x0 x4 x5) (colExpFromRow (projB x0 x4 x5) (projB x1 x6 x7) (maskB x2 x3)) (headOf (y 2)) (y 1) (featOf (y 2))
def blockCo (x0 : (⟨3, ![1, 512, 512]⟩ : Shape).Idx → EReal) (x1 : (⟨3, ![1, 64, 512]⟩ : Shape).Idx → EReal)
    (x2 : (⟨3, ![1, 512, 1]⟩ : Shape).Idx → BitVec 32) (x3 : (⟨3, ![1, 1, 64]⟩ : Shape).Idx → BitVec 32)
    (x4 : (⟨2, ![512, 512]⟩ : Shape).Idx → EReal) (x5 : (⟨1, ![512]⟩ : Shape).Idx → EReal)
    (x6 : (⟨2, ![512, 512]⟩ : Shape).Idx → EReal) (x7 : (⟨1, ![512]⟩ : Shape).Idx → EReal)
    (x8 : (⟨2, ![512, 512]⟩ : Shape).Idx → EReal) (x9 : (⟨1, ![512]⟩ : Shape).Idx → EReal)
    (y : (⟨3, ![1, 512, 512]⟩ : Shape).Idx) : EReal :=
  coAttOf (projB x0 x4 x5) (projB x1 x6 x7) (maskB x2 x3) (colExpFromRow (projB x0 x4 x5) (projB x1 x6 x7) (maskB x2 x3)) (headOf (y 2)) (y 1) (featOf (y 2))

theorem blockCtx_at (x0 : (⟨3, ![1, 512, 512]⟩ : Shape).Idx → EReal) (x1 : (⟨3, ![1, 64, 512]⟩ : Shape).Idx → EReal)
    (x2 : (⟨3, ![1, 512, 1]⟩ : Shape).Idx → BitVec 32) (x3 : (⟨3, ![1, 1, 64]⟩ : Shape).Idx → BitVec 32)
    (x4 : (⟨2, ![512, 512]⟩ : Shape).Idx → EReal) (x5 : (⟨1, ![512]⟩ : Shape).Idx → EReal)
    (x6 : (⟨2, ![512, 512]⟩ : Shape).Idx → EReal) (x7 : (⟨1, ![512]⟩ : Shape).Idx → EReal)
    (x8 : (⟨2, ![512, 512]⟩ : Shape).Idx → EReal) (x9 : (⟨1, ![512]⟩ : Shape).Idx → EReal)
    (h : Fin 8) (q : Fin 512) (d : Fin 64) :
    blockCtx x0 x1 x2 x3 x4 x5 x6 x7 x8 x9 (ix3 (0 : Fin 1) q (col h d)) = ctxAtt (projB x0 x4 x5) (projB x1 x6 x7) (projB x1 x8 x9) (maskB x2 x3) h q d := by
  show ctxAtt _ _ _ _ (headOf (col h d)) q (featOf (col h d)) = _
  rw [headOf_col, featOf_col]
theorem blockQues_at (x0 : (⟨3, ![1, 512, 512]⟩ : Shape).Idx → EReal) (x1 : (⟨3, ![1, 64, 512]⟩ : Shape).Idx → EReal)
    (x2 : (⟨3, ![1, 512, 1]⟩ : Shape).Idx → BitVec 32) (x3 : (⟨3, ![1, 1, 64]⟩ : Shape).Idx → BitVec 32)
    (x4 : (⟨2, ![512, 512]⟩ : Shape).Idx → EReal) (x5 : (⟨1, ![512]⟩ : Shape).Idx → EReal)
    (x6 : (⟨2, ![512, 512]⟩ : Shape).Idx → EReal) (x7 : (⟨1, ![512]⟩ : Shape).Idx → EReal)
    (x8 : (⟨2, ![512, 512]⟩ : Shape).Idx → EReal) (x9 : (⟨1, ![512]⟩ : Shape).Idx → EReal)
    (h : Fin 8) (k : Fin 64) (d : Fin 64) :
    blockQues x0 x1 x2 x3 x4 x5 x6 x7 x8 x9 (ix3 (0 : Fin 1) k (col h d)) = quesAttOf (projB x0 x4 x5) (colExpFromRow (projB x0 x4 x5) (projB x1 x6 x7) (maskB x2 x3)) h k d := by
  show quesAttOf _ _ (headOf (col h d)) k (featOf (col h d)) = _
  rw [headOf_col, featOf_col]
theorem blockCo_at (x0 : (⟨3, ![1, 512, 512]⟩ : Shape).Idx → EReal) (x1 : (⟨3, ![1, 64, 512]⟩ : Shape).Idx → EReal)
    (x2 : (⟨3, ![1, 512, 1]⟩ : Shape).Idx → BitVec 32) (x3 : (⟨3, ![1, 1, 64]⟩ : Shape).Idx → BitVec 32)
    (x4 : (⟨2, ![512, 512]⟩ : Shape).Idx → EReal) (x5 : (⟨1, ![512]⟩ : Shape).Idx → EReal)
    (x6 : (⟨2, ![512, 512]⟩ : Shape).Idx → EReal) (x7 : (⟨1, ![512]⟩ : Shape).Idx → EReal)
    (x8 : (⟨2, ![512, 512]⟩ : Shape).Idx → EReal) (x9 : (⟨1, ![512]⟩ : Shape).Idx → EReal)
    (h : Fin 8) (q : Fin 512) (d : Fin 64) :
    blockCo x0 x1 x2 x3 x4 x5 x6 x7 x8 x9 (ix3 (0 : Fin 1) q (col h d)) = coAttOf (projB x0 x4 x5) (projB x1 x6 x7) (maskB x2 x3) (colExpFromRow (projB x0 x4 x5) (projB x1 x6 x7) (maskB x2 x3)) h q d := by
  show coAttOf _ _ _ _ (headOf (col h d)) q (featOf (col h d)) = _
  rw [headOf_col, featOf_col]

end Cert.CoAttn.KBody

end
-- ==== Proof.KArray.lean ====
/-
  From the blocks to the three result arrays.

  The grid has one point per batch element: at point `t` the four batched inputs and the three outputs are staged as
  block `(t, 0, 0)` — rows `[t, t+1)` of the array —, the three weights (transposed before the launch) and the three biases whole.
  So the body's block functions at point `t` are the specification's functions of the whole arrays at batch element `t`,
  every output block is the restriction of one whole-array function, the blocks tile each output array, and the array
  after the run is that function.
-/
import proofs.«152353_j773094113483_2_alg».proof.Proof.Gen.KernelIdeal.Value
import proofs.«152353_j773094113483_2_alg».proof.Proof.KBlock
import Idealize.ShloMosaic.Lib.Pipeline.Value
import Idealize.ShloMosaic.Lib.StableHlo.Run
import Idealize.ShloMosaic.Lib.ValueLayout
import Idealize.ShloMosaic.Lib.Tactic

open scoped BigOperators

noncomputable section

namespace Cert.CoAttn.KArray

open Cert.KernelIdeal Cert.KernelIdeal.Gen Cert.KernelIdeal.Value Idealize.ShloMosaic Idealize.ShloMosaic.TcCoe Idealize.SL.Sem
open Idealize.ShloMosaic.ValueIdx Cert.CoAttn Cert.CoAttn.KBody
open Idealize.ShloMosaic.Pipeline (Dat)

/-! ## Blocks of one batch element are the arrays at that batch element -/

theorem projB_eq {T : ℕ} (x : (⟨3, ![1, T, 512]⟩ : Shape).Idx → EReal) (w : (⟨2, ![512, 512]⟩ : Shape).Idx → EReal)
    (b : (⟨1, ![512]⟩ : Shape).Idx → EReal) (A : (⟨3, ![64, T, 512]⟩ : Shape).Idx → EReal)
    (W : (⟨2, ![512, 512]⟩ : Shape).Idx → EReal) (B : (⟨1, ![512]⟩ : Shape).Idx → EReal) (n : Fin 64)
    (hx : ∀ t c, x (ix3 (0 : Fin 1) t c) = A (ix3 n t c)) (hw : ∀ c j, w (ix2 c j) = W (ix2 j c))
    (hb : ∀ j, b (ix1 j) = B (ix1 j)) : projB x w b = proj A W B n := by
  funext t j
  unfold projB proj
  simp only [hx, hw, hb]

theorem maskB_eq (x2 : (⟨3, ![1, 512, 1]⟩ : Shape).Idx → BitVec 32) (x3 : (⟨3, ![1, 1, 64]⟩ : Shape).Idx → BitVec 32)
    (cm : (⟨3, ![64, 512, 1]⟩ : Shape).Idx → BitVec 32) (qm : (⟨3, ![64, 1, 64]⟩ : Shape).Idx → BitVec 32) (n : Fin 64)
    (h2 : ∀ q, x2 (ix3 (0 : Fin 1) q (0 : Fin 1)) = cm (ix3 n q (0 : Fin 1)))
    (h3 : ∀ k, x3 (ix3 (0 : Fin 1) (0 : Fin 1) k) = qm (ix3 n (0 : Fin 1) k)) : maskB x2 x3 = maskOf cm qm n := by
  funext q k
  unfold maskB maskOf
  rw [h2, h3]

section Blocks

variable (x0 : (⟨3, ![1, 512, 512]⟩ : Shape).Idx → EReal) (x1 : (⟨3, ![1, 64, 512]⟩ : Shape).Idx → EReal)
  (x2 : (⟨3, ![1, 512, 1]⟩ : Shape).Idx → BitVec 32) (x3 : (⟨3, ![1, 1, 64]⟩ : Shape).Idx → BitVec 32)
  (x4 : (⟨2, ![512, 512]⟩ : Shape).Idx → EReal) (x5 : (⟨1, ![512]⟩ : Shape).Idx → EReal)
  (x6 : (⟨2, ![512, 512]⟩ : Shape).Idx → EReal) (x7 : (⟨1, ![512]⟩ : Shape).Idx → EReal)
  (x8 : (⟨2, ![512, 512]⟩ : Shape).Idx → EReal) (x9 : (⟨1, ![512]⟩ : Shape).Idx → EReal)
  (X : (⟨3, ![64, 512, 512]⟩ : Shape).Idx → EReal) (Y : (⟨3, ![64, 64, 512]⟩ : Shape).Idx → EReal)
  (cm : (⟨3, ![64, 512, 1]⟩ : Shape).Idx → BitVec 32) (qm : (⟨3, ![64, 1, 64]⟩ : Shape).Idx → BitVec 32)
  (WQ : (⟨2, ![512, 512]⟩ : Shape).Idx → EReal) (bQ : (⟨1, ![512]⟩ : Shape).Idx → EReal)
  (WK : (⟨2, ![512, 512]⟩ : Shape).Idx → EReal) (bK : (⟨1, ![512]⟩ : Shape).Idx → EReal)
  (WV : (⟨2, ![512, 512]⟩ : Shape).Idx → EReal) (bV : (⟨1, ![512]⟩ : Shape).Idx → EReal) (n : Fin 64)
  (h0 : ∀ t c, x0 (ix3 (0 : Fin 1) t c) = X (ix3 n t c)) (h1 : ∀ t c, x1 (ix3 (0 : Fin 1) t c) = Y (ix3 n t c))
  (h2 : ∀ q, x2 (ix3 (0 : Fin 1) q (0 : Fin 1)) = cm (ix3 n q (0 : Fin 1)))
  (h3 : ∀ k, x3 (ix3 (0 : Fin 1) (0 : Fin 1) k) = qm (ix3 n (0 : Fin 1) k))
  (h4 : ∀ c j, x4 (ix2 c j) = WQ (ix2 j c)) (h5 : ∀ j, x5 (ix1 j) = bQ (ix1 j))
  (h6 : ∀ c j, x6 (ix2 c j) = WK (ix2 j c)) (h7 : ∀ j, x7 (ix1 j) = bK (ix1 j))
  (h8 : ∀ c j, x8 (ix2 c j) = WV (ix2 j c)) (h9 : ∀ j, x9 (ix1 j) = bV (ix1 j))

include h0 h1 h2 h3 h4 h5 h6 h7 h8 h9

theorem blockCtx_eq (y : (⟨3, ![1, 512, 512]⟩ : Shape).Idx) :
    blockCtx x0 x1 x2 x3 x4 x5 x6 x7 x8 x9 y = outCtxAtt X Y cm qm WQ bQ WK bK WV bV n (y 1) (y 2) := by
  unfold blockCtx outCtxAtt
  rw [projB_eq x0 x4 x5 X WQ bQ n h0 h4 h5, projB_eq x1 x6 x7 Y WK bK n h1 h6 h7, projB_eq x1 x8 x9 Y WV bV n h1 h8 h9,
    maskB_eq x2 x3 cm qm n h2 h3]

theorem blockQues_eq (y : (⟨3, ![1, 64, 512]⟩ : Shape).Idx) :
    blockQues x0 x1 x2 x3 x4 x5 x6 x7 x8 x9 y = outQuesAtt X WQ bQ (numFromRow X Y cm qm WQ bQ WK bK) n (y 1) (y 2) := by
  unfold blockQues outQuesAtt numFromRow
  rw [projB_eq x0 x4 x5 X WQ bQ n h0 h4 h5, projB_eq x1 x6 x7 Y WK bK n h1 h6 h7, maskB_eq x2 x3 cm qm n h2 h3]

theorem blockCo_eq (y : (⟨3, ![1, 512, 512]⟩ : Shape).Idx) :
    blockCo x0 x1 x2 x3 x4 x5 x6 x7 x8 x9 y = outCoAtt X Y cm qm WQ bQ WK bK (numFromRow X Y cm qm WQ bQ WK bK) n (y 1) (y 2) := by
  unfold blockCo outCoAtt numFromRow
  rw [projB_eq x0 x4 x5 X WQ bQ n h0 h4 h5, projB_eq x1 x6 x7 Y WK bK n h1 h6 h7, maskB_eq x2 x3 cm qm n h2 h3]

end Blocks

/-! ## The index maps, decided over the 64 grid points -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 1) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 1) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 1) = 0 :=
  (by decide +kernel : ∀ t : Fin grid0.N, _)
theorem idx10 : ∀ t : Fin cfg0.N, win0_10.index t (0 : Fin 3) = t.val ∧ win0_10.index t (1 : Fin 3) = 0 ∧ win0_10.index t (2 : Fin 3) = 0 :=
  (by decide +kernel : ∀ t : Fin grid0.N, _)
theorem idx11 : ∀ t : Fin cfg0.N, win0_11.index t (0 : Fin 3) = t.val ∧ win0_11.index t (1 : Fin 3) = 0 ∧ win0_11.index t (2 : Fin 3) = 0 :=
  (by decide +kernel : ∀ t : Fin grid0.N, _)
theorem idx12 : ∀ t : Fin cfg0.N, win0_12.index t (0 : Fin 3) = t.val ∧ win0_12.index t (1 : Fin 3) = 0 ∧ win0_12.index t (2 : Fin 3) = 0 :=
  (by decide +kernel : ∀ t : Fin grid0.N, _)

variable (m : (ℓ : Loc nD τ sig) → Buf (Elt Ideal) ℓ) (ρ : Dev nD → PrngReg)

/-- The batch element of grid point `t`. -/
def batchOf (t : Fin cfg0.N) : Fin 64 := Fin.cast N_0 t

/-! ## The weights as staged: transposed before the launch -/

theorem staged_w (c : Dev nD) :
    (V m c main_v0 : S512x512.Idx → EReal) = transpose S512x512 [1, 0] (m ((c : Thread nD τ).loc main_arg4)) transposes_S512x512_S512x512_1_0
    ∧ (V m c main_v1 : S512x512.Idx → EReal) = transpose S512x512 [1, 0] (m ((c : Thread nD τ).loc main_arg6)) transposes_S512x512_S512x512_1_0
    ∧ (V m c main_v2 : S512x512.Idx → EReal) = transpose S512x512 [1, 0] (m ((c : Thread nD τ).loc main_arg8)) transposes_S512x512_S512x512_1_0 := by
  refine ⟨?_, ?_, ?_⟩ <;> (dsimp only [Gen.V, Gen.hostOps0]; after_results)

/-! ## The input blocks at a point -/

theorem iblk0_apply (c : Dev nD) (t : Fin cfg0.N) (q cc : Fin 512) :
    (iblk m c 0 t : Vec Ideal S1x512x512 .f32) (ix3 (0 : Fin 1) q cc)
      = (m ((c : Thread nD τ).loc main_arg0) : S64x512x512.Idx → EReal) (ix3 (batchOf t) q cc) := by
  obtain ⟨e0, e1, e2⟩ := idx0 t
  unfold iblk
  rw [View.read_apply]
  show V m c main_arg0 _ = _
  rw [V_main_arg0 m c]
  congr 1
  funext a
  apply Fin.ext
  match a with
  | ⟨0, _⟩ => show win0_0.index t (0 : Fin 3) * 1 + 1 * 0 = t.val; omega
  | ⟨1, _⟩ => show win0_0.index t (1 : Fin 3) * 512 + 1 * q.val = q.val; omega
  | ⟨2, _⟩ => show win0_0.index t (2 : Fin 3) * 512 + 1 * cc.val = cc.val; omega

theorem iblk1_apply (c : Dev nD) (t : Fin cfg0.N) (k : Fin 64) (cc : Fin 512) :
    (iblk m c 1 t : Vec Ideal S1x64x512 .f32) (ix3 (0 : Fin 1) k cc)
      = (m ((c : Thread nD τ).loc main_arg1) : S64x64x512.Idx → EReal) (ix3 (batchOf t) k cc) := by
  obtain ⟨e0, e1, e2⟩ := idx1 t
  unfold iblk
  rw [View.read_apply]
  show V m c main_arg1 _ = _
  rw [V_main_arg1 m c]
  congr 1
  funext a
  apply Fin.ext
  match a with
  | ⟨0, _⟩ => show win0_1.index t (0 : Fin 3) * 1 + 1 * 0 = t.val; omega
  | ⟨1, _⟩ => show win0_1.index t (1 : Fin 3) * 64 + 1 * k.val = k.val; omega
  | ⟨2, _⟩ => show win0_1.index t (2 : Fin 3) * 512 + 1 * cc.val = cc.val; omega

theorem iblk2_apply (c : Dev nD) (t : Fin cfg0.N) (q : Fin 512) :
    (iblk m c 2 t : Vec Ideal S1x512x1 .i32) (ix3 (0 : Fin 1) q (0 : Fin 1))
      = (m ((c : Thread nD τ).loc main_arg2) : S64x512x1.Idx → BitVec 32) (ix3 (batchOf t) q (0 : Fin 1)) := by
  obtain ⟨e0, e1, e2⟩ := idx2 t
  unfold iblk
  rw [View.read_apply]
  show V m c main_arg2 _ = _
  rw [V_main_arg2 m c]
  congr 1
  funext a
  apply Fin.ext
  match a with
  | ⟨0, _⟩ => show win0_2.index t (0 : Fin 3) * 1 + 1 * 0 = t.val; omega
  | ⟨1, _⟩ => show win0_2.index t (1 : Fin 3) * 512 + 1 * q.val = q.val; omega
  | ⟨2, _⟩ => show win0_2.index t (2 : Fin 3) * 1 + 1 * 0 = 0; omega

theorem iblk3_apply (c : Dev nD) (t : Fin cfg0.N) (k : Fin 64) :
    (iblk m c 3 t : Vec Ideal S1x1x64 .i32) (ix3 (0 : Fin 1) (0 : Fin 1) k)
      = (m ((c : Thread nD τ).loc main_arg3) : S64x1x64.Idx → BitVec 32) (ix3 (batchOf t) (0 : Fin 1) k) := by
  obtain ⟨e0, e1, e2⟩ := idx3 t
  unfold iblk
  rw [View.read_apply]
  show V m c main_arg3 _ = _
  rw [V_main_arg3 m c]
  congr 1
  funext a
  apply Fin.ext
  match a with
  | ⟨0, _⟩ => show win0_3.index t (0 : Fin 3) * 1 + 1 * 0 = t.val; omega
  | ⟨1, _⟩ => show win0_3.index t (1 : Fin 3) * 1 + 1 * 0 = 0; omega
  | ⟨2, _⟩ => show win0_3.index t (2 : Fin 3) * 64 + 1 * k.val = k.val; omega

theorem iblk4_apply (c : Dev nD) (t : Fin cfg0.N) (cc j : Fin 512) :
    (iblk m c 4 t : Vec Ideal S512x512 .f32) (ix2 cc j)
      = (m ((c : Thread nD τ).loc main_arg4) : S512x512.Idx → EReal) (ix2 j cc) := by
  obtain ⟨e0, e1⟩ := idx4 t
  unfold iblk
  rw [View.read_apply]
  show V m c main_v0 _ = _
  have he : ((cfg0.win 4).blk t).view.emb (ix2 cc j) = ix2 cc j := by
    funext a
    apply Fin.ext
    match a with
    | ⟨0, _⟩ => show win0_4.index t (0 : Fin 2) * 512 + 1 * cc.val = cc.val; omega
    | ⟨1, _⟩ => show win0_4.index t (1 : Fin 2) * 512 + 1 * j.val = j.val; omega
  rw [he, (staged_w m c).1]
  exact transpose_ix2_apply _ _ cc j

theorem iblk5_apply (c : Dev nD) (t : Fin cfg0.N) (j : Fin 512) :
    (iblk m c 5 t : Vec Ideal S512 .f32) (ix1 j) = (m ((c : Thread nD τ).loc main_arg5) : S512.Idx → EReal) (ix1 j) := by
  have e0 := idx5 t
  unfold iblk
  rw [View.read_apply]
  show V m c main_arg5 _ = _
  rw [V_main_arg5 m c]
  congr 1
  funext a
  apply Fin.ext
  match a with
  | ⟨0, _⟩ => show win0_5.index t (0 : Fin 1) * 512 + 1 * j.val = j.val; omega

theorem iblk6_apply (c : Dev nD) (t : Fin cfg0.N) (cc j : Fin 512) :
    (iblk m c 6 t : Vec Ideal S512x512 .f32) (ix2 cc j)
      = (m ((c : Thread nD τ).loc main_arg6) : S512x512.Idx → EReal) (ix2 j cc) := by
  obtain ⟨e0, e1⟩ := idx6 t
  unfold iblk
  rw [View.read_apply]
  show V m c main_v1 _ = _
  have he : ((cfg0.win 6).blk t).view.emb (ix2 cc j) = ix2 cc j := by
    funext a
    apply Fin.ext
    match a with
    | ⟨0, _⟩ => show win0_6.index t (0 : Fin 2) * 512 + 1 * cc.val = cc.val; omega
    | ⟨1, _⟩ => show win0_6.index t (1 : Fin 2) * 512 + 1 * j.val = j.val; omega
  rw [he, (staged_w m c).2.1]
  exact transpose_ix2_apply _ _ cc j

theorem iblk7_apply (c : Dev nD) (t : Fin cfg0.N) (j : Fin 512) :
    (iblk m c 7 t : Vec Ideal S512 .f32) (ix1 j) = (m ((c : Thread nD τ).loc main_arg7) : S512.Idx → EReal) (ix1 j) := by
  have e0 := idx7 t
  unfold iblk
  rw [View.read_apply]
  show V m c main_arg7 _ = _
  rw [V_main_arg7 m c]
  congr 1
  funext a
  apply Fin.ext
  match a with
  | ⟨0, _⟩ => show win0_7.index t (0 : Fin 1) * 512 + 1 * j.val = j.val; omega

theorem iblk8_apply (c : Dev nD) (t : Fin cfg0.N) (cc j : Fin 512) :
    (iblk m c 8 t : Vec Ideal S512x512 .f32) (ix2 cc j)
      = (m ((c : Thread nD τ).loc main_arg8) : S512x512.Idx → EReal) (ix2 j cc) := by
  obtain ⟨e0, e1⟩ := idx8 t
  unfold iblk
  rw [View.read_apply]
  show V m c main_v2 _ = _
  have he : ((cfg0.win 8).blk t).view.emb (ix2 cc j) = ix2 cc j := by
    funext a
    apply Fin.ext
    match a with
    | ⟨0, _⟩ => show win0_8.index t (0 : Fin 2) * 512 + 1 * cc.val = cc.val; omega
    | ⟨1, _⟩ => show win0_8.index t (1 : Fin 2) * 512 + 1 * j.val = j.val; omega
  rw [he, (staged_w m c).2.2]
  exact transpose_ix2_apply _ _ cc j

theorem iblk9_apply (c : Dev nD) (t : Fin cfg0.N) (j : Fin 512) :
    (iblk m c 9 t : Vec Ideal S512 .f32) (ix1 j) = (m ((c : Thread nD τ).loc main_arg9) : S512.Idx → EReal) (ix1 j) := by
  have e0 := idx9 t
  unfold iblk
  rw [View.read_apply]
  show V m c main_arg9 _ = _
  rw [V_main_arg9 m c]
  congr 1
  funext a
  apply Fin.ext
  match a with
  | ⟨0, _⟩ => show win0_9.index t (0 : Fin 1) * 512 + 1 * j.val = j.val; omega

/-! ## The blocks tile each output array -/

/-- An index of the array is in point t's block iff each coordinate is in the block's range on its axis. -/
theorem mem_blk10 (t : Fin cfg0.N) (i : S64x512x512.Idx) :
    i ∈ ((cfg0.win 10).blk t).view.set ↔ ∀ a : Fin 3, win0_10.index t a * S1x512x512.size a ≤ (i a).val ∧ (i a).val < win0_10.index t a * S1x512x512.size a + S1x512x512.size a := by
  show i ∈ ((View.whole main_v3_0).slice (win0_10.rect t)).set ↔ _
  rw [View.set_slice_whole, Rect.mem_set_unit]
  exact Iff.rfl

/-- Every index of the array is in the block of the point of its batch element. -/
theorem cover10 (i : S64x512x512.Idx) :
    ∃ t : Fin cfg0.N, (cfg0.win 10).flush t = true ∧ i ∈ ((cfg0.win 10).blk t).view.set := by
  refine ⟨Fin.cast N_0.symm (i 0), flush0_10 _, ?_⟩
  rw [mem_blk10]
  obtain ⟨e0, e1, e2⟩ := idx10 (Fin.cast N_0.symm (i 0))
  have hv : (Fin.cast N_0.symm (i 0)).val = (i 0).val := rfl
  have h1 : (i 1).val < 512 := (i 1).isLt
  have h2 : (i 2).val < 512 := (i 2).isLt
  intro a
  match a with
  | ⟨0, _⟩ => show win0_10.index _ (0 : Fin 3) * 1 ≤ (i 0).val ∧ (i 0).val < win0_10.index _ (0 : Fin 3) * 1 + 1; omega
  | ⟨1, _⟩ => show win0_10.index _ (1 : Fin 3) * 512 ≤ (i 1).val ∧ (i 1).val < win0_10.index _ (1 : Fin 3) * 512 + 512; omega
  | ⟨2, _⟩ => show win0_10.index _ (2 : Fin 3) * 512 ≤ (i 2).val ∧ (i 2).val < win0_10.index _ (2 : Fin 3) * 512 + 512; omega

/-- An index of the array is in point t's block iff each coordinate is in the block's range on its axis. -/
theorem mem_blk11 (t : Fin cfg0.N) (i : S64x64x512.Idx) :
    i ∈ ((cfg0.win 11).blk t).view.set ↔ ∀ a : Fin 3, win0_11.index t a * S1x64x512.size a ≤ (i a).val ∧ (i a).val < win0_11.index t a * S1x64x512.size a + S1x64x512.size a := by
  show i ∈ ((View.whole main_v3_1).slice (win0_11.rect t)).set ↔ _
  rw [View.set_slice_whole, Rect.mem_set_unit]
  exact Iff.rfl

/-- Every index of the array is in the block of the point of its batch element. -/
theorem cover11 (i : S64x64x512.Idx) :
    ∃ t : Fin cfg0.N, (cfg0.win 11).flush t = true ∧ i ∈ ((cfg0.win 11).blk t).view.set := by
  refine ⟨Fin.cast N_0.symm (i 0), flush0_11 _, ?_⟩
  rw [mem_blk11]
  obtain ⟨e0, e1, e2⟩ := idx11 (Fin.cast N_0.symm (i 0))
  have hv : (Fin.cast N_0.symm (i 0)).val = (i 0).val := rfl
  have h1 : (i 1).val < 64 := (i 1).isLt
  have h2 : (i 2).val < 512 := (i 2).isLt
  intro a
  match a with
  | ⟨0, _⟩ => show win0_11.index _ (0 : Fin 3) * 1 ≤ (i 0).val ∧ (i 0).val < win0_11.index _ (0 : Fin 3) * 1 + 1; omega
  | ⟨1, _⟩ => show win0_11.index _ (1 : Fin 3) * 64 ≤ (i 1).val ∧ (i 1).val < win0_11.index _ (1 : Fin 3) * 64 + 64; omega
  | ⟨2, _⟩ => show win0_11.index _ (2 : Fin 3) * 512 ≤ (i 2).val ∧ (i 2).val < win0_11.index _ (2 : Fin 3) * 512 + 512; omega

/-- An index of the array is in point t's block iff each coordinate is in the block's range on its axis. -/
theorem mem_blk12 (t : Fin cfg0.N) (i : S64x512x512.Idx) :
    i ∈ ((cfg0.win 12).blk t).view.set ↔ ∀ a : Fin 3, win0_12.index t a * S1x512x512.size a ≤ (i a).val ∧ (i a).val < win0_12.index t a * S1x512x512.size a + S1x512x512.size a := by
  show i ∈ ((View.whole main_v3_2).slice (win0_12.rect t)).set ↔ _
  rw [View.set_slice_whole, Rect.mem_set_unit]
  exact Iff.rfl

/-- Every index of the array is in the block of the point of its batch element. -/
theorem cover12 (i : S64x512x512.Idx) :
    ∃ t : Fin cfg0.N, (cfg0.win 12).flush t = true ∧ i ∈ ((cfg0.win 12).blk t).view.set := by
  refine ⟨Fin.cast N_0.symm (i 0), flush0_12 _, ?_⟩
  rw [mem_blk12]
  obtain ⟨e0, e1, e2⟩ := idx12 (Fin.cast N_0.symm (i 0))
  have hv : (Fin.cast N_0.symm (i 0)).val = (i 0).val := rfl
  have h1 : (i 1).val < 512 := (i 1).isLt
  have h2 : (i 2).val < 512 := (i 2).isLt
  intro a
  match a with
  | ⟨0, _⟩ => show win0_12.index _ (0 : Fin 3) * 1 ≤ (i 0).val ∧ (i 0).val < win0_12.index _ (0 : Fin 3) * 1 + 1; omega
  | ⟨1, _⟩ => show win0_12.index _ (1 : Fin 3) * 512 ≤ (i 1).val ∧ (i 1).val < win0_12.index _ (1 : Fin 3) * 512 + 512; omega
  | ⟨2, _⟩ => show win0_12.index _ (2 : Fin 3) * 512 ≤ (i 2).val ∧ (i 2).val < win0_12.index _ (2 : Fin 3) * 512 + 512; omega

/-! ## The three result arrays as functions of the argument arrays -/

/-- The ten argument arrays as the run finds them. -/
abbrev arr0 (c : Dev nD) : S64x512x512.Idx → EReal := m ((c : Thread nD τ).loc main_arg0)
abbrev arr1 (c : Dev nD) : S64x64x512.Idx → EReal := m ((c : Thread nD τ).loc main_arg1)
abbrev arr2 (c : Dev nD) : S64x512x1.Idx → BitVec 32 := m ((c : Thread nD τ).loc main_arg2)
abbrev arr3 (c : Dev nD) : S64x1x64.Idx → BitVec 32 := m ((c : Thread nD τ).loc main_arg3)
abbrev arr4 (c : Dev nD) : S512x512.Idx → EReal := m ((c : Thread nD τ).loc main_arg4)
abbrev arr5 (c : Dev nD) : S512.Idx → EReal := m ((c : Thread nD τ).loc main_arg5)
abbrev arr6 (c : Dev nD) : S512x512.Idx → EReal := m ((c : Thread nD τ).loc main_arg6)
abbrev arr7 (c : Dev nD) : S512.Idx → EReal := m ((c : Thread nD τ).loc main_arg7)
abbrev arr8 (c : Dev nD) : S512x512.Idx → EReal := m ((c : Thread nD τ).loc main_arg8)
abbrev arr9 (c : Dev nD) : S512.Idx → EReal := m ((c : Thread nD τ).loc main_arg9)

/-- The attended values, the attended context rows and the co-attention, at array index (n, t, j). -/
def G10 (c : Dev nD) : S64x512x512.Idx → EReal := fun i =>
  outCtxAtt (arr0 m c) (arr1 m c) (arr2 m c) (arr3 m c) (arr4 m c) (arr5 m c) (arr6 m c) (arr7 m c) (arr8 m c) (arr9 m c) (i 0) (i 1) (i 2)
def G11 (c : Dev nD) : S64x64x512.Idx → EReal := fun i =>
  outQuesAtt (arr0 m c) (arr4 m c) (arr5 m c)
    (numFromRow (arr0 m c) (arr1 m c) (arr2 m c) (arr3 m c) (arr4 m c) (arr5 m c) (arr6 m c) (arr7 m c)) (i 0) (i 1) (i 2)
def G12 (c : Dev nD) : S64x512x512.Idx → EReal := fun i =>
  outCoAtt (arr0 m c) (arr1 m c) (arr2 m c) (arr3 m c) (arr4 m c) (arr5 m c) (arr6 m c) (arr7 m c)
    (numFromRow (arr0 m c) (arr1 m c) (arr2 m c) (arr3 m c) (arr4 m c) (arr5 m c) (arr6 m c) (arr7 m c)) (i 0) (i 1) (i 2)

/-! ## What each point writes back is its block of the whole-array function -/

/-- A function of three coordinates at equal coordinates. -/
theorem at3 {α : Type} {T : ℕ} (f : Fin 64 → Fin T → Fin 512 → α) {n n' : Fin 64} {t t' : Fin T} {j j' : Fin 512}
    (hn : n = n') (ht : t = t') (hj : j = j') : f n t j = f n' t' j' := by subst hn ht hj; rfl

section Flushed

/-! The body's three block functions are the specification's functions of the ten staged blocks. -/

variable (hout10 : ∀ (x0 : Vec Ideal S1x512x512 .f32) (x1 : Vec Ideal S1x64x512 .f32) (x2 : Vec Ideal S1x512x1 .i32) (x3 : Vec Ideal S1x1x64 .i32)
    (x4 : Vec Ideal S512x512 .f32) (x5 : Vec Ideal S512 .f32) (x6 : Vec Ideal S512x512 .f32) (x7 : Vec Ideal S512 .f32)
    (x8 : Vec Ideal S512x512 .f32) (x9 : Vec Ideal S512 .f32) (y : S1x512x512.Idx),
      out0_10 (F := Ideal) x0 x1 x2 x3 x4 x5 x6 x7 x8 x9 y = blockCtx x0 x1 x2 x3 x4 x5 x6 x7 x8 x9 y)
  (hout11 : ∀ (x0 : Vec Ideal S1x512x512 .f32) (x1 : Vec Ideal S1x64x512 .f32) (x2 : Vec Ideal S1x512x1 .i32) (x3 : Vec Ideal S1x1x64 .i32)
    (x4 : Vec Ideal S512x512 .f32) (x5 : Vec Ideal S512 .f32) (x6 : Vec Ideal S512x512 .f32) (x7 : Vec Ideal S512 .f32)
    (x8 : Vec Ideal S512x512 .f32) (x9 : Vec Ideal S512 .f32) (y : S1x64x512.Idx),
      out0_11 (F := Ideal) x0 x1 x2 x3 x4 x5 x6 x7 x8 x9 y = blockQues x0 x1 x2 x3 x4 x5 x6 x7 x8 x9 y)
  (hout12 : ∀ (x0 : Vec Ideal S1x512x512 .f32) (x1 : Vec Ideal S1x64x512 .f32) (x2 : Vec Ideal S1x512x1 .i32) (x3 : Vec Ideal S1x1x64 .i32)
    (x4 : Vec Ideal S512x512 .f32) (x5 : Vec Ideal S512 .f32) (x6 : Vec Ideal S512x512 .f32) (x7 : Vec Ideal S512 .f32)
    (x8 : Vec Ideal S512x512 .f32) (x9 : Vec Ideal S512 .f32) (y : S1x512x512.Idx),
      out0_12 (F := Ideal) x0 x1 x2 x3 x4 x5 x6 x7 x8 x9 y = blockCo x0 x1 x2 x3 x4 x5 x6 x7 x8 x9 y)

include hout10 in
/-- Point t writes back block t of the attended values. -/
theorem flushed10_eq (c : Dev nD) (t : Fin cfg0.N) :
    (dats m 0 c).flushed 10 t = ((cfg0.win 10).blk t).view.read (Elt Ideal) (G10 m c) := by
  rw [flushed10]
  funext y
  show out0_10 (F := Ideal) (iblk m c 0 t) (iblk m c 1 t) (iblk m c 2 t) (iblk m c 3 t) (iblk m c 4 t) (iblk m c 5 t) (iblk m c 6 t) (iblk m c 7 t) (iblk m c 8 t) (iblk m c 9 t) y = G10 m c (((cfg0.win 10).blk t).view.emb y)
  rw [hout10, blockCtx_eq (iblk m c 0 t) (iblk m c 1 t) (iblk m c 2 t) (iblk m c 3 t) (iblk m c 4 t) (iblk m c 5 t) (iblk m c 6 t) (iblk m c 7 t) (iblk m c 8 t) (iblk m c 9 t) (arr0 m c) (arr1 m c) (arr2 m c) (arr3 m c) (arr4 m c) (arr5 m c) (arr6 m c) (arr7 m c) (arr8 m c) (arr9 m c) (batchOf t)
    (iblk0_apply m c t) (iblk1_apply m c t) (iblk2_apply m c t) (iblk3_apply m c t) (iblk4_apply m c t) (iblk5_apply m c t) (iblk6_apply m c t) (iblk7_apply m c t) (iblk8_apply m c t) (iblk9_apply m c t) y]
  obtain ⟨e0, e1, e2⟩ := idx10 t
  have hy0 : ((y : S1x512x512.Idx) 0).val < 1 := (y 0).isLt
  have h0 : batchOf t = ((cfg0.win 10).blk t).view.emb y 0 := Fin.ext (by
    show t.val = win0_10.index t (0 : Fin 3) * 1 + 1 * (y 0).val; rw [e0]; omega)
  have h1 : (y 1 : Fin 512) = ((cfg0.win 10).blk t).view.emb y 1 := Fin.ext (by
    show (y 1).val = win0_10.index t (1 : Fin 3) * 512 + 1 * (y 1).val; rw [e1]; omega)
  have h2 : (y 2 : Fin 512) = ((cfg0.win 10).blk t).view.emb y 2 := Fin.ext (by
    show (y 2).val = win0_10.index t (2 : Fin 3) * 512 + 1 * (y 2).val; rw [e2]; omega)
  unfold G10
  exact at3 _ h0 h1 h2

include hout11 in
/-- Point t writes back block t of the attended context rows. -/
theorem flushed11_eq (c : Dev nD) (t : Fin cfg0.N) :
    (dats m 0 c).flushed 11 t = ((cfg0.win 11).blk t).view.read (Elt Ideal) (G11 m c) := by
  rw [flushed11]
  funext y
  show out0_11 (F := Ideal) (iblk m c 0 t) (iblk m c 1 t) (iblk m c 2 t) (iblk m c 3 t) (iblk m c 4 t) (iblk m c 5 t) (iblk m c 6 t) (iblk m c 7 t) (iblk m c 8 t) (iblk m c 9 t) y = G11 m c (((cfg0.win 11).blk t).view.emb y)
  rw [hout11, blockQues_eq (iblk m c 0 t) (iblk m c 1 t) (iblk m c 2 t) (iblk m c 3 t) (iblk m c 4 t) (iblk m c 5 t) (iblk m c 6 t) (iblk m c 7 t) (iblk m c 8 t) (iblk m c 9 t) (arr0 m c) (arr1 m c) (arr2 m c) (arr3 m c) (arr4 m c) (arr5 m c) (arr6 m c) (arr7 m c) (arr8 m c) (arr9 m c) (batchOf t)
    (iblk0_apply m c t) (iblk1_apply m c t) (iblk2_apply m c t) (iblk3_apply m c t) (iblk4_apply m c t) (iblk5_apply m c t) (iblk6_apply m c t) (iblk7_apply m c t) (iblk8_apply m c t) (iblk9_apply m c t) y]
  obtain ⟨e0, e1, e2⟩ := idx11 t
  have hy0 : ((y : S1x64x512.Idx) 0).val < 1 := (y 0).isLt
  have h0 : batchOf t = ((cfg0.win 11).blk t).view.emb y 0 := Fin.ext (by
    show t.val = win0_11.index t (0 : Fin 3) * 1 + 1 * (y 0).val; rw [e0]; omega)
  have h1 : (y 1 : Fin 64) = ((cfg0.win 11).blk t).view.emb y 1 := Fin.ext (by
    show (y 1).val = win0_11.index t (1 : Fin 3) * 64 + 1 * (y 1).val; rw [e1]; omega)
  have h2 : (y 2 : Fin 512) = ((cfg0.win 11).blk t).view.emb y 2 := Fin.ext (by
    show (y 2).val = win0_11.index t (2 : Fin 3) * 512 + 1 * (y 2).val; rw [e2]; omega)
  unfold G11
  exact at3 _ h0 h1 h2

include hout12 in
/-- Point t writes back block t of the co-attention. -/
theorem flushed12_eq (c : Dev nD) (t : Fin cfg0.N) :
    (dats m 0 c).flushed 12 t = ((cfg0.win 12).blk t).view.read (Elt Ideal) (G12 m c) := by
  rw [flushed12]
  funext y
  show out0_12 (F := Ideal) (iblk m c 0 t) (iblk m c 1 t) (iblk m c 2 t) (iblk m c 3 t) (iblk m c 4 t) (iblk m c 5 t) (iblk m c 6 t) (iblk m c 7 t) (iblk m c 8 t) (iblk m c 9 t) y = G12 m c (((cfg0.win 12).blk t).view.emb y)
  rw [hout12, blockCo_eq (iblk m c 0 t) (iblk m c 1 t) (iblk m c 2 t) (iblk m c 3 t) (iblk m c 4 t) (iblk m c 5 t) (iblk m c 6 t) (iblk m c 7 t) (iblk m c 8 t) (iblk m c 9 t) (arr0 m c) (arr1 m c) (arr2 m c) (arr3 m c) (arr4 m c) (arr5 m c) (arr6 m c) (arr7 m c) (arr8 m c) (arr9 m c) (batchOf t)
    (iblk0_apply m c t) (iblk1_apply m c t) (iblk2_apply m c t) (iblk3_apply m c t) (iblk4_apply m c t) (iblk5_apply m c t) (iblk6_apply m c t) (iblk7_apply m c t) (iblk8_apply m c t) (iblk9_apply m c t) y]
  obtain ⟨e0, e1, e2⟩ := idx12 t
  have hy0 : ((y : S1x512x512.Idx) 0).val < 1 := (y 0).isLt
  have h0 : batchOf t = ((cfg0.win 12).blk t).view.emb y 0 := Fin.ext (by
    show t.val = win0_12.index t (0 : Fin 3) * 1 + 1 * (y 0).val; rw [e0]; omega)
  have h1 : (y 1 : Fin 512) = ((cfg0.win 12).blk t).view.emb y 1 := Fin.ext (by
    show (y 1).val = win0_12.index t (1 : Fin 3) * 512 + 1 * (y 1).val; rw [e1]; omega)
  have h2 : (y 2 : Fin 512) = ((cfg0.win 12).blk t).view.emb y 2 := Fin.ext (by
    show (y 2).val = win0_12.index t (2 : Fin 3) * 512 + 1 * (y 2).val; rw [e2]; omega)
  unfold G12
  exact at3 _ h0 h1 h2

/-! ## The arrays after the run -/

include hout10 in
theorem final10 (c : Dev nD) : (dats m 0 c).arrAt 10 cfg0.N = G10 m c :=
  (dats m 0 c).arrAt_eq_of_cover 10 (G10 m c) (fun t _ => flushed10_eq m hout10 c t) cover10

include hout11 in
theorem final11 (c : Dev nD) : (dats m 0 c).arrAt 11 cfg0.N = G11 m c :=
  (dats m 0 c).arrAt_eq_of_cover 11 (G11 m c) (fun t _ => flushed11_eq m hout11 c t) cover11

include hout12 in
theorem final12 (c : Dev nD) : (dats m 0 c).arrAt 12 cfg0.N = G12 m c :=
  (dats m 0 c).arrAt_eq_of_cover 12 (G12 m c) (fun t _ => flushed12_eq m hout12 c t) cover12

include hout10 hout11 hout12 in
/-- The run, read: the three result arrays at their functions of the arguments, the arguments unchanged. -/
theorem run : θ_run defs (onTc (τ := τ) (main (F := Ideal))) ⟨m, fun _ => 0, ρ⟩ fun r => ∀ c : Dev nD,
      r.2.mem ((c : Thread nD τ).loc main_v3_0) = G10 m c
      ∧ r.2.mem ((c : Thread nD τ).loc main_v3_1) = G11 m c
      ∧ r.2.mem ((c : Thread nD τ).loc main_v3_2) = G12 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final10 m hout10 c), (h c).2.1.trans (final11 m hout11 c),
      (h c).2.2.1.trans (final12 m hout12 c), (h c).2.2.2⟩) (run_blocks m ρ)

end Flushed

end Cert.CoAttn.KArray

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.KDots.lean ====
/-
  The kernel's five matrix products, read at an index as plain sums over the contracted coordinate.

  Two are rows-by-columns products of whole blocks (a `[T, 512]` block against a `[512, 512]` weight); three carry the
  eight heads as a batch axis: the scores `Σ_c x (h, q, c) · y (h, k, c)` (both operands contracted on their last axis),
  the weighted sums `Σ_k x (h, q, k) · y (h, k, d)`, and the sums over the context rows `Σ_q x (h, q, k) · y (h, q, d)`.
  At the ideal values a product into the zero accumulator is that sum; the work is naming the operands' indices.
-/
import proofs.«152353_j773094113483_2_alg».proof.Proof.Gen.KernelIdeal
import proofs.«152353_j773094113483_2_alg».proof.Proof.LibPlainDot
import Idealize.ShloMosaic.PureOps.Ideal.Laws
import Idealize.ShloMosaic.Lib.ValueIdx

open scoped BigOperators

noncomputable section

namespace Cert.CoAttn.KDots

open Cert.KernelIdeal Idealize.ShloMosaic Idealize.ShloMosaic.ValueIdx

/-- A `[512, 512]` block times a `[512, 512]` weight into the zero accumulator. -/
theorem proj512_apply {φ₁ φ₂ : FTy} (x : FVec Ideal S512x512 φ₁) (y : FVec Ideal S512x512 φ₂) (p q : Fin 512) :
    matmul dot_S512x512_S512x512_S512x512_1_0_0_1_n_n none x y (constant (F := Ideal) S512x512 .f32 0x00000000#32) (ix2 p q)
      = ∑ c : Fin 512, x (ix2 p c) * y (ix2 c q) := by
  simp only [matmul]
  exact (Ideal.matmul_constant_zero_apply _ _ x y _).trans
    (Cert.PlainDot.sum_eq dot_S512x512_S512x512_S512x512_1_0_0_1_n_n rfl rfl rfl rfl rfl rfl rfl rfl x y p q)

/-- A `[64, 512]` block times a `[512, 512]` weight into the zero accumulator. -/
theorem proj64_apply {φ₁ φ₂ : FTy} (x : FVec Ideal S64x512 φ₁) (y : FVec Ideal S512x512 φ₂) (p : Fin 64) (q : Fin 512) :
    matmul dot_S64x512_S512x512_S64x512_1_0_0_1_n_n none x y (constant (F := Ideal) S64x512 .f32 0x00000000#32) (ix2 p q)
      = ∑ c : Fin 512, x (ix2 p c) * y (ix2 c q) := by
  simp only [matmul]
  exact (Ideal.matmul_constant_zero_apply _ _ x y _).trans
    (Cert.PlainDot.sum_eq dot_S64x512_S512x512_S64x512_1_0_0_1_n_n rfl rfl rfl rfl rfl rfl rfl rfl x y p q)

theorem scores_lhs_0 (i : S8x512x64.Idx) (c : dot_S8x512x64_S8x64x64_S8x512x64_2_2_1_1_0_0.contr.Idx) :
    (dot_S8x512x64_S8x64x64_S8x512x64_2_2_1_1_0_0.lhsIdx i c 0).val = (i 0).val := by
  unfold DotDims.lhsIdx
  rw [dif_pos (show (0 : Fin S8x512x64.rank) ∈ dot_S8x512x64_S8x64x64_S8x512x64_2_2_1_1_0_0.lhsBatch by decide)]
  rfl
theorem scores_lhs_1 (i : S8x512x64.Idx) (c : dot_S8x512x64_S8x64x64_S8x512x64_2_2_1_1_0_0.contr.Idx) :
    (dot_S8x512x64_S8x64x64_S8x512x64_2_2_1_1_0_0.lhsIdx i c 1).val = (i 1).val := by
  unfold DotDims.lhsIdx
  rw [dif_neg (show ¬(1 : Fin S8x512x64.rank) ∈ dot_S8x512x64_S8x64x64_S8x512x64_2_2_1_1_0_0.lhsBatch by decide), dif_pos (show (1 : Fin S8x512x64.rank) ∈ dot_S8x512x64_S8x64x64_S8x512x64_2_2_1_1_0_0.lhsNonContracting by decide)]
  rfl
theorem scores_lhs_2 (i : S8x512x64.Idx) (c : dot_S8x512x64_S8x64x64_S8x512x64_2_2_1_1_0_0.contr.Idx) :
    (dot_S8x512x64_S8x64x64_S8x512x64_2_2_1_1_0_0.lhsIdx i c 2).val = (c ⟨0, by decide⟩).val :=
  dot_S8x512x64_S8x64x64_S8x512x64_2_2_1_1_0_0.lhsIdx_val_of_single rfl i c
theorem scores_rhs_0 (i : S8x512x64.Idx) (c : dot_S8x512x64_S8x64x64_S8x512x64_2_2_1_1_0_0.contr.Idx) :
    (dot_S8x512x64_S8x64x64_S8x512x64_2_2_1_1_0_0.rhsIdx i c 0).val = (i 0).val := by
  unfold DotDims.rhsIdx
  rw [dif_pos (show (0 : Fin S8x64x64.rank) ∈ dot_S8x512x64_S8x64x64_S8x512x64_2_2_1_1_0_0.rhsBatch by decide)]
  rfl
theorem scores_rhs_1 (i : S8x512x64.Idx) (c : dot_S8x512x64_S8x64x64_S8x512x64_2_2_1_1_0_0.contr.Idx) :
    (dot_S8x512x64_S8x64x64_S8x512x64_2_2_1_1_0_0.rhsIdx i c 1).val = (i 2).val := by
  unfold DotDims.rhsIdx
  rw [dif_neg (show ¬(1 : Fin S8x64x64.rank) ∈ dot_S8x512x64_S8x64x64_S8x512x64_2_2_1_1_0_0.rhsBatch by decide), dif_pos (show (1 : Fin S8x64x64.rank) ∈ dot_S8x512x64_S8x64x64_S8x512x64_2_2_1_1_0_0.rhsNonContracting by decide)]
  rfl
theorem scores_rhs_2 (i : S8x512x64.Idx) (c : dot_S8x512x64_S8x64x64_S8x512x64_2_2_1_1_0_0.contr.Idx) :
    (dot_S8x512x64_S8x64x64_S8x512x64_2_2_1_1_0_0.rhsIdx i c 2).val = (c ⟨0, by decide⟩).val :=
  dot_S8x512x64_S8x64x64_S8x512x64_2_2_1_1_0_0.rhsIdx_val_of_single rfl i c
/-- The heads' scores: both operands contracted on their last axis. -/
theorem scores_apply {φ₁ φ₂ : FTy} (x : FVec Ideal S8x512x64 φ₁) (y : FVec Ideal S8x64x64 φ₂) (h : Fin 8) (q : Fin 512) (k : Fin 64) :
    matmul dot_S8x512x64_S8x64x64_S8x512x64_2_2_1_1_0_0 none x y (constant (F := Ideal) S8x512x64 .f32 0x00000000#32) (ix3 h q k)
      = ∑ c : Fin 64, x (ix3 h q c) * y (ix3 h k c) := by
  simp only [matmul]
  rw [Ideal.matmul_constant_zero_apply, ← Equiv.sum_comp (contrEquiv1 dot_S8x512x64_S8x64x64_S8x512x64_2_2_1_1_0_0 64 rfl rfl).symm]
  refine Finset.sum_congr rfl fun c _ => ?_
  have hk := contrEquiv1_symm_val dot_S8x512x64_S8x64x64_S8x512x64_2_2_1_1_0_0 64 rfl rfl c
  have el : dot_S8x512x64_S8x64x64_S8x512x64_2_2_1_1_0_0.lhsIdx (ix3 h q k) ((contrEquiv1 dot_S8x512x64_S8x64x64_S8x512x64_2_2_1_1_0_0 64 rfl rfl).symm c) = ix3 h q c := funext fun a => Fin.ext (by
    match a with
    | ⟨0, _⟩ => exact scores_lhs_0 _ _
    | ⟨1, _⟩ => exact scores_lhs_1 _ _
    | ⟨2, _⟩ => exact (scores_lhs_2 _ _).trans hk)
  have er : dot_S8x512x64_S8x64x64_S8x512x64_2_2_1_1_0_0.rhsIdx (ix3 h q k) ((contrEquiv1 dot_S8x512x64_S8x64x64_S8x512x64_2_2_1_1_0_0 64 rfl rfl).symm c) = ix3 h k c := funext fun a => Fin.ext (by
    match a with
    | ⟨0, _⟩ => exact scores_rhs_0 _ _
    | ⟨1, _⟩ => exact scores_rhs_1 _ _
    | ⟨2, _⟩ => exact (scores_rhs_2 _ _).trans hk)
  rw [el, er]

theorem weighted_lhs_0 (i : S8x512x64.Idx) (c : dot_S8x512x64_S8x64x64_S8x512x64_2_1_1_2_0_0.contr.Idx) :
    (dot_S8x512x64_S8x64x64_S8x512x64_2_1_1_2_0_0.lhsIdx i c 0).val = (i 0).val := by
  unfold DotDims.lhsIdx
  rw [dif_pos (show (0 : Fin S8x512x64.rank) ∈ dot_S8x512x64_S8x64x64_S8x512x64_2_1_1_2_0_0.lhsBatch by decide)]
  rfl
theorem weighted_lhs_1 (i : S8x512x64.Idx) (c : dot_S8x512x64_S8x64x64_S8x512x64_2_1_1_2_0_0.contr.Idx) :
    (dot_S8x512x64_S8x64x64_S8x512x64_2_1_1_2_0_0.lhsIdx i c 1).val = (i 1).val := by
  unfold DotDims.lhsIdx
  rw [dif_neg (show ¬(1 : Fin S8x512x64.rank) ∈ dot_S8x512x64_S8x64x64_S8x512x64_2_1_1_2_0_0.lhsBatch by decide), dif_pos (show (1 : Fin S8x512x64.rank) ∈ dot_S8x512x64_S8x64x64_S8x512x64_2_1_1_2_0_0.lhsNonContracting by decide)]
  rfl
theorem weighted_lhs_2 (i : S8x512x64.Idx) (c : dot_S8x512x64_S8x64x64_S8x512x64_2_1_1_2_0_0.contr.Idx) :
    (dot_S8x512x64_S8x64x64_S8x512x64_2_1_1_2_0_0.lhsIdx i c 2).val = (c ⟨0, by decide⟩).val :=
  dot_S8x512x64_S8x64x64_S8x512x64_2_1_1_2_0_0.lhsIdx_val_of_single rfl i c
theorem weighted_rhs_0 (i : S8x512x64.Idx) (c : dot_S8x512x64_S8x64x64_S8x512x64_2_1_1_2_0_0.contr.Idx) :
    (dot_S8x512x64_S8x64x64_S8x512x64_2_1_1_2_0_0.rhsIdx i c 0).val = (i 0).val := by
  unfold DotDims.rhsIdx
  rw [dif_pos (show (0 : Fin S8x64x64.rank) ∈ dot_S8x512x64_S8x64x64_S8x512x64_2_1_1_2_0_0.rhsBatch by decide)]
  rfl
theorem weighted_rhs_1 (i : S8x512x64.Idx) (c : dot_S8x512x64_S8x64x64_S8x512x64_2_1_1_2_0_0.contr.Idx) :
    (dot_S8x512x64_S8x64x64_S8x512x64_2_1_1_2_0_0.rhsIdx i c 1).val = (c ⟨0, by decide⟩).val :=
  dot_S8x512x64_S8x64x64_S8x512x64_2_1_1_2_0_0.rhsIdx_val_of_single rfl i c
theorem weighted_rhs_2 (i : S8x512x64.Idx) (c : dot_S8x512x64_S8x64x64_S8x512x64_2_1_1_2_0_0.contr.Idx) :
    (dot_S8x512x64_S8x64x64_S8x512x64_2_1_1_2_0_0.rhsIdx i c 2).val = (i 2).val := by
  unfold DotDims.rhsIdx
  rw [dif_neg (show ¬(2 : Fin S8x64x64.rank) ∈ dot_S8x512x64_S8x64x64_S8x512x64_2_1_1_2_0_0.rhsBatch by decide), dif_pos (show (2 : Fin S8x64x64.rank) ∈ dot_S8x512x64_S8x64x64_S8x512x64_2_1_1_2_0_0.rhsNonContracting by decide)]
  rfl
/-- Per head, rows of weights against a `[64, 64]` matrix: `Σ_c x (h, q, c) · y (h, c, d)`. -/
theorem weighted_apply {φ₁ φ₂ : FTy} (x : FVec Ideal S8x512x64 φ₁) (y : FVec Ideal S8x64x64 φ₂) (h : Fin 8) (q : Fin 512) (d : Fin 64) :
    matmul dot_S8x512x64_S8x64x64_S8x512x64_2_1_1_2_0_0 none x y (constant (F := Ideal) S8x512x64 .f32 0x00000000#32) (ix3 h q d)
      = ∑ c : Fin 64, x (ix3 h q c) * y (ix3 h c d) := by
  simp only [matmul]
  rw [Ideal.matmul_constant_zero_apply, ← Equiv.sum_comp (contrEquiv1 dot_S8x512x64_S8x64x64_S8x512x64_2_1_1_2_0_0 64 rfl rfl).symm]
  refine Finset.sum_congr rfl fun c _ => ?_
  have hk := contrEquiv1_symm_val dot_S8x512x64_S8x64x64_S8x512x64_2_1_1_2_0_0 64 rfl rfl c
  have el : dot_S8x512x64_S8x64x64_S8x512x64_2_1_1_2_0_0.lhsIdx (ix3 h q d) ((contrEquiv1 dot_S8x512x64_S8x64x64_S8x512x64_2_1_1_2_0_0 64 rfl rfl).symm c) = ix3 h q c := funext fun a => Fin.ext (by
    match a with
    | ⟨0, _⟩ => exact weighted_lhs_0 _ _
    | ⟨1, _⟩ => exact weighted_lhs_1 _ _
    | ⟨2, _⟩ => exact (weighted_lhs_2 _ _).trans hk)
  have er : dot_S8x512x64_S8x64x64_S8x512x64_2_1_1_2_0_0.rhsIdx (ix3 h q d) ((contrEquiv1 dot_S8x512x64_S8x64x64_S8x512x64_2_1_1_2_0_0 64 rfl rfl).symm c) = ix3 h c d := funext fun a => Fin.ext (by
    match a with
    | ⟨0, _⟩ => exact weighted_rhs_0 _ _
    | ⟨1, _⟩ => exact (weighted_rhs_1 _ _).trans hk
    | ⟨2, _⟩ => exact weighted_rhs_2 _ _)
  rw [el, er]

theorem overRows_lhs_0 (i : S8x64x64.Idx) (c : dot_S8x512x64_S8x512x64_S8x64x64_1_1_2_2_0_0.contr.Idx) :
    (dot_S8x512x64_S8x512x64_S8x64x64_1_1_2_2_0_0.lhsIdx i c 0).val = (i 0).val := by
  unfold DotDims.lhsIdx
  rw [dif_pos (show (0 : Fin S8x512x64.rank) ∈ dot_S8x512x64_S8x512x64_S8x64x64_1_1_2_2_0_0.lhsBatch by decide)]
  rfl
theorem overRows_lhs_1 (i : S8x64x64.Idx) (c : dot_S8x512x64_S8x512x64_S8x64x64_1_1_2_2_0_0.contr.Idx) :
    (dot_S8x512x64_S8x512x64_S8x64x64_1_1_2_2_0_0.lhsIdx i c 1).val = (c ⟨0, by decide⟩).val :=
  dot_S8x512x64_S8x512x64_S8x64x64_1_1_2_2_0_0.lhsIdx_val_of_single rfl i c
theorem overRows_lhs_2 (i : S8x64x64.Idx) (c : dot_S8x512x64_S8x512x64_S8x64x64_1_1_2_2_0_0.contr.Idx) :
    (dot_S8x512x64_S8x512x64_S8x64x64_1_1_2_2_0_0.lhsIdx i c 2).val = (i 1).val := by
  unfold DotDims.lhsIdx
  rw [dif_neg (show ¬(2 : Fin S8x512x64.rank) ∈ dot_S8x512x64_S8x512x64_S8x64x64_1_1_2_2_0_0.lhsBatch by decide), dif_pos (show (2 : Fin S8x512x64.rank) ∈ dot_S8x512x64_S8x512x64_S8x64x64_1_1_2_2_0_0.lhsNonContracting by decide)]
  rfl
theorem overRows_rhs_0 (i : S8x64x64.Idx) (c : dot_S8x512x64_S8x512x64_S8x64x64_1_1_2_2_0_0.contr.Idx) :
    (dot_S8x512x64_S8x512x64_S8x64x64_1_1_2_2_0_0.rhsIdx i c 0).val = (i 0).val := by
  unfold DotDims.rhsIdx
  rw [dif_pos (show (0 : Fin S8x512x64.rank) ∈ dot_S8x512x64_S8x512x64_S8x64x64_1_1_2_2_0_0.rhsBatch by decide)]
  rfl
theorem overRows_rhs_1 (i : S8x64x64.Idx) (c : dot_S8x512x64_S8x512x64_S8x64x64_1_1_2_2_0_0.contr.Idx) :
    (dot_S8x512x64_S8x512x64_S8x64x64_1_1_2_2_0_0.rhsIdx i c 1).val = (c ⟨0, by decide⟩).val :=
  dot_S8x512x64_S8x512x64_S8x64x64_1_1_2_2_0_0.rhsIdx_val_of_single rfl i c
theorem overRows_rhs_2 (i : S8x64x64.Idx) (c : dot_S8x512x64_S8x512x64_S8x64x64_1_1_2_2_0_0.contr.Idx) :
    (dot_S8x512x64_S8x512x64_S8x64x64_1_1_2_2_0_0.rhsIdx i c 2).val = (i 2).val := by
  unfold DotDims.rhsIdx
  rw [dif_neg (show ¬(2 : Fin S8x512x64.rank) ∈ dot_S8x512x64_S8x512x64_S8x64x64_1_1_2_2_0_0.rhsBatch by decide), dif_pos (show (2 : Fin S8x512x64.rank) ∈ dot_S8x512x64_S8x512x64_S8x64x64_1_1_2_2_0_0.rhsNonContracting by decide)]
  rfl
/-- Per head, the sum over the context rows: `Σ_c x (h, c, k) · y (h, c, d)`. -/
theorem overRows_apply {φ₁ φ₂ : FTy} (x : FVec Ideal S8x512x64 φ₁) (y : FVec Ideal S8x512x64 φ₂) (h : Fin 8) (k : Fin 64) (d : Fin 64) :
    matmul dot_S8x512x64_S8x512x64_S8x64x64_1_1_2_2_0_0 none x y (constant (F := Ideal) S8x64x64 .f32 0x00000000#32) (ix3 h k d)
      = ∑ c : Fin 512, x (ix3 h c k) * y (ix3 h c d) := by
  simp only [matmul]
  rw [Ideal.matmul_constant_zero_apply, ← Equiv.sum_comp (contrEquiv1 dot_S8x512x64_S8x512x64_S8x64x64_1_1_2_2_0_0 512 rfl rfl).symm]
  refine Finset.sum_congr rfl fun c _ => ?_
  have hk := contrEquiv1_symm_val dot_S8x512x64_S8x512x64_S8x64x64_1_1_2_2_0_0 512 rfl rfl c
  have el : dot_S8x512x64_S8x512x64_S8x64x64_1_1_2_2_0_0.lhsIdx (ix3 h k d) ((contrEquiv1 dot_S8x512x64_S8x512x64_S8x64x64_1_1_2_2_0_0 512 rfl rfl).symm c) = ix3 h c k := funext fun a => Fin.ext (by
    match a with
    | ⟨0, _⟩ => exact overRows_lhs_0 _ _
    | ⟨1, _⟩ => exact (overRows_lhs_1 _ _).trans hk
    | ⟨2, _⟩ => exact overRows_lhs_2 _ _)
  have er : dot_S8x512x64_S8x512x64_S8x64x64_1_1_2_2_0_0.rhsIdx (ix3 h k d) ((contrEquiv1 dot_S8x512x64_S8x512x64_S8x64x64_1_1_2_2_0_0 512 rfl rfl).symm c) = ix3 h c d := funext fun a => Fin.ext (by
    match a with
    | ⟨0, _⟩ => exact overRows_rhs_0 _ _
    | ⟨1, _⟩ => exact (overRows_rhs_1 _ _).trans hk
    | ⟨2, _⟩ => exact overRows_rhs_2 _ _)
  rw [el, er]

end Cert.CoAttn.KDots

end
-- ==== Proof.LibHeadLayout.lean ====
/-
  Heads laid side by side in the columns of a matrix, stacked along a new leading axis and read back.

  A `[T, 8·D]`-like matrix holds eight heads of `D` columns each. Cutting the column range of head `n` out of it, viewing
  the cut as a `[1, T, D]` slab and stacking the eight slabs along the first axis gives the `[8, T, D]` array whose entry
  `(h, q, d)` is the matrix entry `(q, o_h + d)`, `o_h` the head's first column. Conversely slab `n` of an `[8, T, D]`
  array, squeezed to `[T, D]` and viewed as `[1, T, D]` again, has entry `(0, q, d)` equal to the array's `(n, q, d)`.
  Also here: an `[a, b]` array viewed as `[a, 1, b]`, and an `[a, 1, b]` array repeated along its middle axis.
-/
import Idealize.ShloMosaic.Lib.Pipeline.Value
import Idealize.ShloMosaic.Lib.ValueIdx
import Idealize.ShloMosaic.Lib.ValueLayout

namespace Cert.HeadLayout

open Idealize.ShloMosaic Idealize.ShloMosaic.ValueIdx

variable {α : Type}

/-- The `h`-th of eight things. -/
def sel8 {β : Type} (p0 p1 p2 p3 p4 p5 p6 p7 : β) (h : Fin 8) : β :=
  match h with
  | ⟨0, _⟩ => p0 | ⟨1, _⟩ => p1 | ⟨2, _⟩ => p2 | ⟨3, _⟩ => p3
  | ⟨4, _⟩ => p4 | ⟨5, _⟩ => p5 | ⟨6, _⟩ => p6 | ⟨7, _⟩ => p7

private theorem off_axis {T D : ℕ} (h : Fin 8) (q : Fin T) (d : Fin D)
    (hr : (⟨3, ![1, T, D]⟩ : Shape).rank = (⟨3, ![8, T, D]⟩ : Shape).rank) :
    ∀ b : Fin (⟨3, ![1, T, D]⟩ : Shape).rank, b.cast hr ≠ (0 : Fin 3) →
      ((ix3 (0 : Fin 1) q d : (⟨3, ![1, T, D]⟩ : Shape).Idx) b).val
        = ((ix3 h q d : (⟨3, ![8, T, D]⟩ : Shape).Idx) (b.cast hr)).val
  | ⟨0, _⟩, hb => absurd rfl hb
  | ⟨1, _⟩, _ => rfl
  | ⟨2, _⟩, _ => rfl

/-- Eight `[1, T, D]` slabs stacked along the first axis: entry `(h, q, d)` is slab `h`'s entry `(0, q, d)`. -/
theorem concat8_apply {T D : ℕ} (p0 p1 p2 p3 p4 p5 p6 p7 : (⟨3, ![1, T, D]⟩ : Shape).Idx → α)
    (hcat : Shape.Concatenates (([⟨⟨3, ![1, T, D]⟩, p0⟩, ⟨⟨3, ![1, T, D]⟩, p1⟩, ⟨⟨3, ![1, T, D]⟩, p2⟩, ⟨⟨3, ![1, T, D]⟩, p3⟩,
      ⟨⟨3, ![1, T, D]⟩, p4⟩, ⟨⟨3, ![1, T, D]⟩, p5⟩, ⟨⟨3, ![1, T, D]⟩, p6⟩, ⟨⟨3, ![1, T, D]⟩, p7⟩] :
        List ((s : Shape) × (s.Idx → α))).map (·.1)) ⟨3, ![8, T, D]⟩ 0)
    (h : Fin 8) (q : Fin T) (d : Fin D) :
    concatenate ⟨3, ![8, T, D]⟩ 0 [⟨⟨3, ![1, T, D]⟩, p0⟩, ⟨⟨3, ![1, T, D]⟩, p1⟩, ⟨⟨3, ![1, T, D]⟩, p2⟩, ⟨⟨3, ![1, T, D]⟩, p3⟩,
      ⟨⟨3, ![1, T, D]⟩, p4⟩, ⟨⟨3, ![1, T, D]⟩, p5⟩, ⟨⟨3, ![1, T, D]⟩, p6⟩, ⟨⟨3, ![1, T, D]⟩, p7⟩] hcat (ix3 h q d)
      = sel8 p0 p1 p2 p3 p4 p5 p6 p7 h (ix3 (0 : Fin 1) q d) :=
  concatenate_ofFn_unit_apply (t := ⟨3, ![8, T, D]⟩) (s₁ := ⟨3, ![1, T, D]⟩) (0 : Fin 3) (sel8 p0 p1 p2 p3 p4 p5 p6 p7) hcat rfl rfl
    (ix3 h q d) h rfl (ix3 (0 : Fin 1) q d) (off_axis h q d rfl)

/-- Columns `o … o + D − 1` of a `[T, C]` matrix, viewed as a `[1, T, D]` slab: entry `(u, q, d)` is the matrix entry
    `(q, o + d)`. -/
theorem headSlab_apply {T C D : ℕ} (x : (⟨2, ![T, C]⟩ : Shape).Idx → α) (o : ℕ)
    (hs : (⟨2, ![T, C]⟩ : Shape).Slices ![0, o] ⟨2, ![T, D]⟩) (hc : (⟨2, ![T, D]⟩ : Shape).ShapeCasts ⟨3, ![1, T, D]⟩)
    (u : Fin 1) (q : Fin T) (d : Fin D) (ho : o + d.val < C) :
    shapeCast ⟨3, ![1, T, D]⟩ (extractStridedSlice ⟨2, ![T, D]⟩ ![0, o] x hs) hc (ix3 u q d) = x (ix2 q ⟨o + d.val, ho⟩) := by
  rw [shapeCast_ab_1ab_apply]
  exact extractStridedSlice_apply _ x hs _ _ fun a => match a with
    | ⟨0, _⟩ => by show q.val = 0 + q.val; omega
    | ⟨1, _⟩ => rfl

/-- The same cut before it is viewed as a slab: entry `(q, d)` is the matrix entry `(q, o + d)`. -/
theorem headCut_apply {T C D : ℕ} (x : (⟨2, ![T, C]⟩ : Shape).Idx → α) (o : ℕ)
    (hs : (⟨2, ![T, C]⟩ : Shape).Slices ![0, o] ⟨2, ![T, D]⟩) (q : Fin T) (d : Fin D) (ho : o + d.val < C) :
    extractStridedSlice ⟨2, ![T, D]⟩ ![0, o] x hs (ix2 q d) = x (ix2 q ⟨o + d.val, ho⟩) :=
  extractStridedSlice_apply _ x hs _ _ fun a => match a with
    | ⟨0, _⟩ => by show q.val = 0 + q.val; omega
    | ⟨1, _⟩ => rfl

/-- Slab `n` of an `[H, T, D]` array, squeezed to `[T, D]` and viewed as `[1, T, D]` again: entry `(u, q, d)` is the
    array's `(n, q, d)`. -/
theorem slabOut_apply {H T D : ℕ} (v : (⟨3, ![H, T, D]⟩ : Shape).Idx → α) (n : ℕ) (hn : n < H)
    (hs : (⟨3, ![H, T, D]⟩ : Shape).Slices ![n, 0, 0] ⟨3, ![1, T, D]⟩)
    (hc1 : (⟨3, ![1, T, D]⟩ : Shape).ShapeCasts ⟨2, ![T, D]⟩) (hc2 : (⟨2, ![T, D]⟩ : Shape).ShapeCasts ⟨3, ![1, T, D]⟩)
    (u : Fin 1) (q : Fin T) (d : Fin D) :
    shapeCast ⟨3, ![1, T, D]⟩ (shapeCast ⟨2, ![T, D]⟩ (extractStridedSlice ⟨3, ![1, T, D]⟩ ![n, 0, 0] v hs) hc1) hc2 (ix3 u q d)
      = v (ix3 ⟨n, hn⟩ q d) := by
  rw [shapeCast_shapeCast]
  exact extractStridedSlice_apply _ v hs _ _ fun a => match a with
    | ⟨0, _⟩ => by show n = n + u.val; omega
    | ⟨1, _⟩ => by show q.val = 0 + q.val; omega
    | ⟨2, _⟩ => by show d.val = 0 + d.val; omega

/-- The squeezed slab alone: entry `(q, d)` of slab `n` squeezed to `[T, D]` is the array's `(n, q, d)`. -/
theorem slabSqueeze_apply {H T D : ℕ} (v : (⟨3, ![H, T, D]⟩ : Shape).Idx → α) (n : ℕ) (hn : n < H)
    (hs : (⟨3, ![H, T, D]⟩ : Shape).Slices ![n, 0, 0] ⟨3, ![1, T, D]⟩)
    (hc1 : (⟨3, ![1, T, D]⟩ : Shape).ShapeCasts ⟨2, ![T, D]⟩) (q : Fin T) (d : Fin D) :
    shapeCast ⟨2, ![T, D]⟩ (extractStridedSlice ⟨3, ![1, T, D]⟩ ![n, 0, 0] v hs) hc1 (ix2 q d) = v (ix3 ⟨n, hn⟩ q d) := by
  rw [shapeCast_1ab_ab_apply]
  exact extractStridedSlice_apply _ v hs _ _ fun a => match a with
    | ⟨0, _⟩ => by show n = n + 0; omega
    | ⟨1, _⟩ => by show q.val = 0 + q.val; omega
    | ⟨2, _⟩ => by show d.val = 0 + d.val; omega

/-- An `[a, b]` array viewed as `[a, 1, b]`: entry `(i, u, j)` is the operand's `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array repeated along its middle axis to `[a, m, b]`: entry `(i, k, j)` is the operand's `(i, 0, j)`. -/
theorem broadcastTo_a1b_amb_apply {a m b : ℕ} (x : (⟨3, ![a, 1, b]⟩ : Shape).Idx → α)
    (h : (⟨3, ![a, 1, b]⟩ : Shape).Broadcasts ⟨3, ![a, m, b]⟩) (i : Fin a) (k : Fin m) (j : Fin b) :
    broadcastTo ⟨3, ![a, m, b]⟩ x h (ix3 i k j) = x (ix3 i (0 : Fin 1) j) :=
  broadcastTo_apply x h _ _ (fun d => match d with
    | ⟨0, _⟩ => by
        show i.val = if a = 1 then 0 else i.val
        split
        · omega
        · rfl
    | ⟨1, _⟩ => by
        show 0 = if (1 : ℕ) = 1 then 0 else k.val
        rw [if_pos rfl]
    | ⟨2, _⟩ => by
        show j.val = if b = 1 then 0 else j.val
        split
        · omega
        · rfl)

end Cert.HeadLayout
-- ==== Proof.LibUnitAxes.lean ====
/-
  Layout operations around a unit axis, read at an index written by coordinates.

  A rank-2 array `[a, b]` cast to `[a, b, 1]` keeps every element where it was (the new axis has one
  coordinate); a broadcast of `[a, b, 1]` to `[a, b, c]` repeats each element along the new last axis; a
  broadcast of `[1, a, b]` to `[m, a, b]` repeats the one slab along the new first axis.
-/
import Idealize.ShloMosaic.Lib.Pipeline.Value
import Idealize.ShloMosaic.Lib.ValueIdx

namespace Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j ⟨0, Nat.one_pos⟩) :=
  broadcastTo_apply x h _ _ (fun d => match d with
    | ⟨0, _⟩ => by
        show i.val = if a = 1 then 0 else i.val
        split
        · omega
        · rfl
    | ⟨1, _⟩ => by
        show j.val = if b = 1 then 0 else j.val
        split
        · omega
        · rfl
    | ⟨2, _⟩ => by
        show 0 = if (1 : ℕ) = 1 then 0 else k.val
        rw [if_pos rfl])

/-- A `[1, a, b]` array broadcast to `[m, a, b]` reads, at `(k, i, j)`, the operand at `(0, i, j)`. -/
theorem broadcastTo_1ab_mab_apply {m a b : ℕ} (x : (⟨3, ![1, a, b]⟩ : Shape).Idx → α)
    (h : (⟨3, ![1, a, b]⟩ : Shape).Broadcasts ⟨3, ![m, a, b]⟩) (k : Fin m) (i : Fin a) (j : Fin b) :
    broadcastTo ⟨3, ![m, a, b]⟩ x h (ix3 k i j) = x (ix3 ⟨0, Nat.one_pos⟩ i j) :=
  broadcastTo_apply x h _ _ (fun d => match d with
    | ⟨0, _⟩ => by
        show 0 = if (1 : ℕ) = 1 then 0 else k.val
        rw [if_pos rfl]
    | ⟨1, _⟩ => by
        show i.val = if a = 1 then 0 else i.val
        split
        · omega
        · rfl
    | ⟨2, _⟩ => by
        show j.val = if b = 1 then 0 else j.val
        split
        · omega
        · rfl)

end Idealize.ShloMosaic.ValueIdx
-- ==== Proof.LibColumnLayout.lean ====
/-
  Column vectors read at an index: a length-`a` vector viewed as an `[a, 1]` column and back, and a column repeated
  along the second axis. Row-major position is preserved by the two casts (the unit axis contributes nothing to it), and
  a broadcast reads a unit axis of its operand at coordinate zero.
-/
import Idealize.ShloMosaic.Lib.ValueIdx
import Idealize.ShloMosaic.Lib.Pipeline.Value

noncomputable section

namespace Cert.ColumnLayout

open Idealize.ShloMosaic Idealize.ShloMosaic.ValueIdx

variable {α : Type}

/-- An `[a]` array cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.ColumnLayout

end
-- ==== Proof.KProj.lean ====
/-
  The kernel body's first half, read at an index: the three rectified projections of one block and their split into
  eight heads.

  Each projection is a block times a (transposed) weight plus a bias row, rectified: entry `(t, j)` is
  `max (Σ_c x (0, t, c) · w (c, j) + b j) 0`. The split cuts the 512 columns into eight runs of 64 and stacks them: entry
  `(h, t, d)` of the stack is entry `(t, 64 h + d)` of the projection. The two integer masks become reals entry by entry.
-/
import proofs.«152353_j773094113483_2_alg».proof.Proof.Gen.KernelIdeal.Skeleton
import proofs.«152353_j773094113483_2_alg».proof.Proof.Spec
import proofs.«152353_j773094113483_2_alg».proof.Proof.KDots
import proofs.«152353_j773094113483_2_alg».proof.Proof.LibHeadLayout
import proofs.«152353_j773094113483_2_alg».proof.Proof.LibUnitAxes
import proofs.«152353_j773094113483_2_alg».proof.Proof.LibColumnLayout
import Idealize.ShloMosaic.Lib.ValueLayout
import Idealize.ShloMosaic.Lib.Pipeline.Value

open scoped BigOperators

noncomputable section

namespace Cert.CoAttn.KBody

open Cert.KernelIdeal Cert.KernelIdeal.Gen Idealize.ShloMosaic Idealize.ShloMosaic.ValueIdx Cert.CoAttn Cert.HeadLayout Cert.ColumnLayout

/-- The context block's projection: `max (Σ_c x (0, q, c) · w (c, j) + b j) 0`. -/
theorem pay9_apply (x0 : Vec Ideal S1x512x512 .f32) (x4 : Vec Ideal S512x512 .f32) (x5 : Vec Ideal S512 .f32) (q j : Fin 512) :
    k0_pay9 (F := Ideal) x0 x4 x5 (ix2 q j)
      = max ((∑ c : Fin 512, x0 (ix3 (0 : Fin 1) q c) * x4 (ix2 c j)) + x5 (ix1 j)) 0 := by
  unfold k0_pay9
  try dsimp only
  rw [maximumf_apply, addf_apply, broadcast_apply, KDots.proj512_apply, broadcastTo_1b_ab_apply, shapeCast_a_1a_apply]
  simp only [truncf_apply, shapeCast_1ab_ab_apply, shapeCast_self, Ideal.ofBits_def, Cert.CoAttn.ofBits_zero]

/-- The question block's first projection before it is rectified: `Σ_c x (0, k, c) · w (c, j) + b j`. -/
theorem pay10_apply (x1 : Vec Ideal S1x64x512 .f32) (x6 : Vec Ideal S512x512 .f32) (x7 : Vec Ideal S512 .f32) (k : Fin 64) (j : Fin 512) :
    k0_pay10 (F := Ideal) x1 x6 x7 (ix2 k j) = (∑ c : Fin 512, x1 (ix3 (0 : Fin 1) k c) * x6 (ix2 c j)) + x7 (ix1 j) := by
  unfold k0_pay10 k0_pay8
  try dsimp only
  rw [addf_apply, KDots.proj64_apply, broadcastTo_1b_ab_apply, shapeCast_a_1a_apply]
  simp only [truncf_apply, shapeCast_1ab_ab_apply, shapeCast_self]

/-- The question block's second projection, rectified, from the block and weight as loaded. -/
theorem pay11_apply (x1 : Vec Ideal S1x64x512 .f32) (x8 : Vec Ideal S512x512 .f32) (x9 : Vec Ideal S512 .f32) (k : Fin 64) (j : Fin 512) :
    k0_pay11 (F := Ideal) (k0_pay7 x8) x9 (k0_pay8 x1) (ix2 k j)
      = max ((∑ c : Fin 512, x1 (ix3 (0 : Fin 1) k c) * x8 (ix2 c j)) + x9 (ix1 j)) 0 := by
  unfold k0_pay11 k0_pay7 k0_pay8
  try dsimp only
  rw [truncf_apply, maximumf_apply, addf_apply, broadcast_apply, KDots.proj64_apply, broadcastTo_1b_ab_apply, shapeCast_a_1a_apply]
  simp only [truncf_apply, shapeCast_1ab_ab_apply, shapeCast_self, Ideal.ofBits_def, Cert.CoAttn.ofBits_zero]

/-- The context mask as reals. -/
theorem pay5_apply (x2 : Vec Ideal S1x512x1 .i32) (q : Fin 512) (u : Fin 1) :
    k0_pay5 (F := Ideal) x2 (ix2 q u) = (((x2 (ix3 (0 : Fin 1) q u)).toInt : ℝ) : EReal) := by
  unfold k0_pay5
  try dsimp only
  rw [sitofp_apply, shapeCast_1ab_ab_apply]
  rfl

/-- The question mask as reals. -/
theorem pay6_apply (x3 : Vec Ideal S1x1x64 .i32) (u : Fin 1) (k : Fin 64) :
    k0_pay6 (F := Ideal) x3 (ix2 u k) = (((x3 (ix3 (0 : Fin 1) u k)).toInt : ℝ) : EReal) := by
  unfold k0_pay6
  try dsimp only
  rw [sitofp_apply, shapeCast_1ab_ab_apply]
  rfl

/-- The context projection split into heads: entry `(h, q, d)` is the projection's entry `(q, 64 h + d)`. -/
theorem pay12_apply (v29 : FVec Ideal S512x512 .f32) (h : Fin 8) (q : Fin 512) (d : Fin 64) :
    k0_pay12 (F := Ideal) v29 (ix3 h q d) = v29 (ix2 q (col h d)) := by
  unfold k0_pay12
  try dsimp only
  rw [concat8_apply]
  match h with
  | ⟨0, _⟩ => exact (headSlab_apply _ 0 _ _ _ _ d (by omega)).trans rfl
  | ⟨1, _⟩ => exact (headSlab_apply _ 64 _ _ _ _ d (by omega)).trans rfl
  | ⟨2, _⟩ => exact (headSlab_apply _ 128 _ _ _ _ d (by omega)).trans rfl
  | ⟨3, _⟩ => exact (headSlab_apply _ 192 _ _ _ _ d (by omega)).trans rfl
  | ⟨4, _⟩ => exact (headSlab_apply _ 256 _ _ _ _ d (by omega)).trans rfl
  | ⟨5, _⟩ => exact (headSlab_apply _ 320 _ _ _ _ d (by omega)).trans rfl
  | ⟨6, _⟩ => exact (headSlab_apply _ 384 _ _ _ _ d (by omega)).trans rfl
  | ⟨7, _⟩ => exact (headSlab_apply _ 448 _ _ _ _ d (by omega)).trans rfl

/-- The first question projection, rectified and split into heads: entry `(h, k, d)` is `max (v (k, 64 h + d)) z`. -/
theorem pay13_apply (v33 : FVec Ideal S64x512 .f32) (z : Ideal .f32) (h : Fin 8) (k : Fin 64) (d : Fin 64) :
    k0_pay13 (F := Ideal) v33 z (ix3 h k d) = max (v33 (ix2 k (col h d))) z := by
  unfold k0_pay13
  try dsimp only
  rw [concat8_apply]
  match h with
  | ⟨0, _⟩ => exact (headSlab_apply _ 0 _ _ _ _ d (by omega)).trans rfl
  | ⟨1, _⟩ => exact (headSlab_apply _ 64 _ _ _ _ d (by omega)).trans rfl
  | ⟨2, _⟩ => exact (headSlab_apply _ 128 _ _ _ _ d (by omega)).trans rfl
  | ⟨3, _⟩ => exact (headSlab_apply _ 192 _ _ _ _ d (by omega)).trans rfl
  | ⟨4, _⟩ => exact (headSlab_apply _ 256 _ _ _ _ d (by omega)).trans rfl
  | ⟨5, _⟩ => exact (headSlab_apply _ 320 _ _ _ _ d (by omega)).trans rfl
  | ⟨6, _⟩ => exact (headSlab_apply _ 384 _ _ _ _ d (by omega)).trans rfl
  | ⟨7, _⟩ => exact (headSlab_apply _ 448 _ _ _ _ d (by omega)).trans rfl

/-- The second question projection's eight head slabs, as the body carries them (five already `[1, 64, 64]`, three still
    `[64, 64]`): slab `h` at `(k, d)` is the projection's entry `(k, 64 h + d)`. -/
theorem valueHeads_apply (v18 : FVec Ideal S512x512 .bf16) (v21 : Vec Ideal S512 .f32) (v23 : FVec Ideal S64x512 .bf16)
    (hc : S64x64.ShapeCasts S1x64x64) (h : Fin 8) (k : Fin 64) (d : Fin 64) :
    sel8 (k0_pay17 (F := Ideal) v18 v21 v23) (k0_pay18 v18 v21 v23) (k0_pay19 v18 v21 v23) (k0_pay20 v18 v21 v23) (k0_pay21 v18 v21 v23)
      (shapeCast S1x64x64 (k0_pay14 v18 v21 v23) hc) (shapeCast S1x64x64 (k0_pay15 v18 v21 v23) hc)
      (shapeCast S1x64x64 (k0_pay16 v18 v21 v23) hc) h (ix3 (0 : Fin 1) k d)
      = k0_pay11 v18 v21 v23 (ix2 k (col h d)) := by
  match h with
  | ⟨0, _⟩ => exact (by unfold k0_pay17; exact headSlab_apply _ 0 _ _ _ _ d (by omega) : k0_pay17 (F := Ideal) v18 v21 v23 (ix3 (0 : Fin 1) k d) = _).trans rfl
  | ⟨1, _⟩ => exact (by unfold k0_pay18; exact headSlab_apply _ 64 _ _ _ _ d (by omega) : k0_pay18 (F := Ideal) v18 v21 v23 (ix3 (0 : Fin 1) k d) = _).trans rfl
  | ⟨2, _⟩ => exact (by unfold k0_pay19; exact headSlab_apply _ 128 _ _ _ _ d (by omega) : k0_pay19 (F := Ideal) v18 v21 v23 (ix3 (0 : Fin 1) k d) = _).trans rfl
  | ⟨3, _⟩ => exact (by unfold k0_pay20; exact headSlab_apply _ 192 _ _ _ _ d (by omega) : k0_pay20 (F := Ideal) v18 v21 v23 (ix3 (0 : Fin 1) k d) = _).trans rfl
  | ⟨4, _⟩ => exact (by unfold k0_pay21; exact headSlab_apply _ 256 _ _ _ _ d (by omega) : k0_pay21 (F := Ideal) v18 v21 v23 (ix3 (0 : Fin 1) k d) = _).trans rfl
  | ⟨5, _⟩ => exact (by unfold k0_pay14; exact headSlab_apply _ 320 _ _ _ _ d (by omega) : shapeCast S1x64x64 (k0_pay14 (F := Ideal) v18 v21 v23) hc (ix3 (0 : Fin 1) k d) = _).trans rfl
  | ⟨6, _⟩ => exact (by unfold k0_pay15; exact headSlab_apply _ 384 _ _ _ _ d (by omega) : shapeCast S1x64x64 (k0_pay15 (F := Ideal) v18 v21 v23) hc (ix3 (0 : Fin 1) k d) = _).trans rfl
  | ⟨7, _⟩ => exact (by unfold k0_pay16; exact headSlab_apply _ 448 _ _ _ _ d (by omega) : shapeCast S1x64x64 (k0_pay16 (F := Ideal) v18 v21 v23) hc (ix3 (0 : Fin 1) k d) = _).trans rfl

end Cert.CoAttn.KBody

end
-- ==== Proof.KSoft.lean ====
/-
  The kernel body's second half, read at an index: from the heads and the two masks to the masked scores, their two
  maxima, the two softmax numerators and the three attention sums.

  The stacked heads `(h, q, d) ↦ Q q (64h+d)`, `(h, k, d) ↦ K k (64h+d)` and the masks' outer product `mk q k` are taken as
  given (hypotheses `hQ`, `hK`, `hm`); every array the body computes from them is then the specification's function of
  the coordinates: the masked score `sim`, its maximum along `k` and along `q`, `exp (sim − rowMax)`, the context weights,
  the numerator along `q` rebuilt as `exp (sim − rowMax) · exp rowMax · exp (0 − colMax)`, and the sums over `k` and `q`.
-/
import proofs.«152353_j773094113483_2_alg».proof.Proof.Gen.KernelIdeal.Skeleton
import proofs.«152353_j773094113483_2_alg».proof.Proof.Spec
import proofs.«152353_j773094113483_2_alg».proof.Proof.KDots
import proofs.«152353_j773094113483_2_alg».proof.Proof.LibHeadLayout
import proofs.«152353_j773094113483_2_alg».proof.Proof.LibUnitAxes
import proofs.«152353_j773094113483_2_alg».proof.Proof.LibColumnLayout
import proofs.«152353_j773094113483_2_alg».proof.Proof.KProj
import Idealize.ShloMosaic.Lib.ValueLayout
import Idealize.ShloMosaic.Lib.Pipeline.Value

open scoped BigOperators

noncomputable section

namespace Cert.CoAttn.KBody

open Cert.KernelIdeal Cert.KernelIdeal.Gen Idealize.ShloMosaic Idealize.ShloMosaic.ValueIdx Cert.CoAttn Cert.HeadLayout Cert.ColumnLayout

/-- The exponential of an array, read at an index. -/
theorem exp_apply' {s : Shape} {φ : FTy} (a : FVec Ideal s φ) (i : s.Idx) : exp a i = Ideal.exp (a i) := rfl

/-- The coordinate put back by a reduction along the last axis. -/
theorem lift_last (h : Fin 8) (q : Fin 512) (k : Fin (S8x512x64.size 2)) :
    reduces_S8x512x64_S8x512.lift (ix2 h q) k = ix3 h q (k : Fin 64) :=
  funext fun a => Fin.ext (by match a with | ⟨0, _⟩ => rfl | ⟨1, _⟩ => rfl | ⟨2, _⟩ => rfl)

/-- The coordinate put back by a reduction along the middle axis. -/
theorem lift_mid (h : Fin 8) (k : Fin 64) (q : Fin (S8x512x64.size 1)) :
    reduces_S8x512x64_S8x64.lift (ix2 h k) q = ix3 h (q : Fin 512) k :=
  funext fun a => Fin.ext (by match a with | ⟨0, _⟩ => rfl | ⟨1, _⟩ => rfl | ⟨2, _⟩ => rfl)

/-- The maximum along the last axis, started at `-inf`: a running maximum from the bottom over the last coordinate. -/
theorem maxLast_apply (src : FVec Ideal S8x512x64 .f32) (hφ : FKind.Formats .f32)
    (hacc : (0xFF800000#32 : BitVec 32) = 0xFF800000#32) (h : Fin 8) (q : Fin 512) :
    multiReduction .maximumf [2] S8x512 src 0xFF800000#32 reduces_S8x512x64_S8x512 hφ hacc (ix2 h q)
      = (Finset.univ : Finset (Fin 64)).fold max ⊥ (fun k => src (ix3 h q k)) := by
  refine (Ideal.multiReduction_maximumf_single src 0xFF800000#32 reduces_S8x512x64_S8x512 hφ hacc (ix2 h q)).trans ?_
  rw [Ideal.ofBits_def, ofBits_negInf]
  exact Finset.fold_congr fun (k : Fin 64) _ => congrArg src (lift_last h q k)

/-- The maximum along the middle axis. -/
theorem maxMid_apply (src : FVec Ideal S8x512x64 .f32) (hφ : FKind.Formats .f32)
    (hacc : (0xFF800000#32 : BitVec 32) = 0xFF800000#32) (h : Fin 8) (k : Fin 64) :
    multiReduction .maximumf [1] S8x64 src 0xFF800000#32 reduces_S8x512x64_S8x64 hφ hacc (ix2 h k)
      = (Finset.univ : Finset (Fin 512)).fold max ⊥ (fun q => src (ix3 h q k)) := by
  refine (Ideal.multiReduction_maximumf_single src 0xFF800000#32 reduces_S8x512x64_S8x64 hφ hacc (ix2 h k)).trans ?_
  rw [Ideal.ofBits_def, ofBits_negInf]
  exact Finset.fold_congr fun (q : Fin 512) _ => congrArg src (lift_mid h k q)

/-- The sum along the last axis. -/
theorem sumLast_apply (src : FVec Ideal S8x512x64 .f32) (hφ : FKind.Formats .f32)
    (hacc : (0x00000000#32 : BitVec 32) = 0x00000000#32) (h : Fin 8) (q : Fin 512) :
    multiReduction .add [2] S8x512 src 0x00000000#32 reduces_S8x512x64_S8x512 hφ hacc (ix2 h q) = ∑ k : Fin 64, src (ix3 h q k) := by
  refine (Ideal.multiReduction_add_single src 0x00000000#32 reduces_S8x512x64_S8x512 hφ hacc (ix2 h q)).trans ?_
  exact Finset.sum_congr rfl fun (k : Fin 64) _ => congrArg src (lift_last h q k)

/-- The sum along the middle axis. -/
theorem sumMid_apply (src : FVec Ideal S8x512x64 .f32) (hφ : FKind.Formats .f32)
    (hacc : (0x00000000#32 : BitVec 32) = 0x00000000#32) (h : Fin 8) (k : Fin 64) :
    multiReduction .add [1] S8x64 src 0x00000000#32 reduces_S8x512x64_S8x64 hφ hacc (ix2 h k) = ∑ q : Fin 512, src (ix3 h q k) := by
  refine (Ideal.multiReduction_add_single src 0x00000000#32 reduces_S8x512x64_S8x64 hφ hacc (ix2 h k)).trans ?_
  exact Finset.sum_congr rfl fun (q : Fin 512) _ => congrArg src (lift_mid h k q)

section Soft

variable (v6 : FVec Ideal S512x1 .f32) (v9 : FVec Ideal S1x64 .f32) (v61 : FVec Ideal S8x512x64 .bf16) (v78 : FVec Ideal S8x64x64 .bf16)
  (Q : Fin 512 → Fin 512 → EReal) (K : Fin 64 → Fin 512 → EReal) (mk : Fin 512 → Fin 64 → EReal)
  (hQ : ∀ h q d, v61 (ix3 h q d) = Q q (col h d)) (hK : ∀ h k d, v78 (ix3 h k d) = K k (col h d))
  (hm : ∀ q k, v6 (ix2 q (0 : Fin 1)) * v9 (ix2 (0 : Fin 1) k) = mk q k)

include hQ hK hm

/-- The masked, scaled scores. -/
theorem pay22_apply (h : Fin 8) (q : Fin 512) (k : Fin 64) :
    k0_pay22 (F := Ideal) v6 v9 v61 v78 (ix3 h q k) = sim Q K mk h q k := by
  unfold k0_pay22 sim score
  try dsimp only
  simp only [addf_apply, mulf_apply, subf_apply, broadcast_apply, broadcastTo_1ab_mab_apply, shapeCast_ab_1ab_apply,
    broadcastTo_a1_ab_apply, broadcastTo_1b_ab_apply, KDots.scores_apply, hQ, hK, hm, Ideal.ofBits_def, ofBits_eighth, one, negBig]

/-- The maximum of the masked scores along `k`. -/
theorem pay23_apply (h : Fin 8) (q : Fin 512) (u : Fin 1) :
    k0_pay23 (F := Ideal) v6 v9 v61 v78 (ix3 h q u) = rowMax Q K mk h q := by
  unfold k0_pay23 rowMax
  try dsimp only
  rw [shapeCast_ab_ab1_apply]
  refine (maxLast_apply _ _ _ h q).trans ?_
  exact Finset.fold_congr fun k _ => pay22_apply v6 v9 v61 v78 Q K mk hQ hK hm h q k

/-- The maximum of the masked scores along `q`. -/
theorem colMax_apply (hφ : FKind.Formats .f32) (hacc : (0xFF800000#32 : BitVec 32) = 0xFF800000#32) (h : Fin 8) (k : Fin 64) :
    multiReduction .maximumf [1] S8x64 (k0_pay22 (F := Ideal) v6 v9 v61 v78) 0xFF800000#32 reduces_S8x512x64_S8x64 hφ hacc (ix2 h k)
      = colMax Q K mk h k := by
  unfold colMax
  refine (maxMid_apply _ _ _ h k).trans ?_
  exact Finset.fold_congr fun q _ => pay22_apply v6 v9 v61 v78 Q K mk hQ hK hm h q k

/-- The numerator of the softmax along `k`. -/
theorem pay24_apply (h : Fin 8) (q : Fin 512) (k : Fin 64) :
    k0_pay24 (F := Ideal) v6 v9 v61 v78 (ix3 h q k) = rowExp Q K mk h q k := by
  unfold k0_pay24 rowExp
  try dsimp only
  rw [exp_apply', subf_apply, broadcastTo_ab1_abc_apply, pay22_apply v6 v9 v61 v78 Q K mk hQ hK hm, pay23_apply v6 v9 v61 v78 Q K mk hQ hK hm]

/-- The context weights. -/
theorem pay25_apply (h : Fin 8) (q : Fin 512) (k : Fin 64) :
    k0_pay25 (F := Ideal) v6 v9 v61 v78 (ix3 h q k) = cw Q K mk h q k := by
  unfold k0_pay25 cw
  try dsimp only
  rw [truncf_apply, divf_apply, broadcastTo_ab1_abc_apply, shapeCast_ab_ab1_apply, pay24_apply v6 v9 v61 v78 Q K mk hQ hK hm]
  congr 1
  refine (sumLast_apply _ _ _ h q).trans ?_
  exact Finset.sum_congr rfl fun k' _ => pay24_apply v6 v9 v61 v78 Q K mk hQ hK hm h q k'

/-- The numerator of the softmax along `q` as the body forms it: the numerator along `k` times `exp rowMax` times
    `exp (0 − colMax)`. -/
def colNumK (v6 : FVec Ideal S512x1 .f32) (v9 : FVec Ideal S1x64 .f32) (v61 : FVec Ideal S8x512x64 .bf16) (v78 : FVec Ideal S8x64x64 .bf16) :
    FVec Ideal S8x512x64 .f32 :=
  mulf (mulf (k0_pay24 v6 v9 v61 v78) (broadcastTo S8x512x64 (exp (k0_pay23 v6 v9 v61 v78)) broadcasts_S8x512x1_S8x512x64))
    (broadcastTo S8x512x64
      (exp (subf (broadcast S8x1x64 (Scalar.ofBits .f32 0x00000000#32))
        (shapeCast S8x1x64 (multiReduction .maximumf [1] S8x64 (k0_pay22 v6 v9 v61 v78) 0xFF800000#32 reduces_S8x512x64_S8x64 (.inl rfl) rfl)
          shapeCasts_S8x64_S8x1x64)))
      broadcasts_S8x1x64_S8x512x64)

theorem colNumK_apply (h : Fin 8) (q : Fin 512) (k : Fin 64) :
    colNumK v6 v9 v61 v78 (ix3 h q k) = colExpFromRow Q K mk h q k := by
  unfold colNumK colExpFromRow
  simp only [mulf_apply, subf_apply, exp_apply', broadcast_apply, broadcastTo_a1b_amb_apply, broadcastTo_ab1_abc_apply,
    shapeCast_ab_a1b_apply, pay24_apply v6 v9 v61 v78 Q K mk hQ hK hm, pay23_apply v6 v9 v61 v78 Q K mk hQ hK hm, colMax_apply v6 v9 v61 v78 Q K mk hQ hK hm, Ideal.ofBits_def, ofBits_zero]

/-- The attended context rows, with the numerator along `q` rebuilt from the numerator along `k`. -/
theorem pay27_apply (h : Fin 8) (k : Fin 64) (d : Fin 64) :
    k0_pay27 (F := Ideal) v6 v9 v61 v78 (ix3 h k d) = quesAttOf Q (colExpFromRow Q K mk) h k d := by
  unfold k0_pay27 quesAttOf qwOf
  try dsimp only
  rw [KDots.overRows_apply]
  refine Finset.sum_congr rfl fun q _ => ?_
  rw [hQ]
  congr 1
  show Ideal.div (colNumK v6 v9 v61 v78 (ix3 h q k))
      (broadcastTo S8x512x64 (shapeCast S8x1x64 (multiReduction .add [1] S8x64 (colNumK v6 v9 v61 v78) 0x00000000#32
        reduces_S8x512x64_S8x64 (.inl rfl) rfl) shapeCasts_S8x64_S8x1x64) broadcasts_S8x1x64_S8x512x64 (ix3 h q k)) = _
  rw [broadcastTo_a1b_amb_apply, shapeCast_ab_a1b_apply, colNumK_apply v6 v9 v61 v78 Q K mk hQ hK hm]
  congr 1
  refine (sumMid_apply _ _ _ h k).trans ?_
  exact Finset.sum_congr rfl fun q' _ => colNumK_apply v6 v9 v61 v78 Q K mk hQ hK hm h q' k

/-- The same after the change of format. -/
theorem pay28_apply (h : Fin 8) (k : Fin 64) (d : Fin 64) :
    k0_pay28 (F := Ideal) v6 v9 v61 v78 (ix3 h k d) = quesAttOf Q (colExpFromRow Q K mk) h k d := by
  unfold k0_pay28
  try dsimp only
  rw [truncf_apply]
  exact pay27_apply v6 v9 v61 v78 Q K mk hQ hK hm h k d

/-- The co-attention: the context weights against the attended context rows. -/
theorem pay29_apply (h : Fin 8) (q : Fin 512) (d : Fin 64) :
    k0_pay29 (F := Ideal) (k0_pay25 v6 v9 v61 v78) (k0_pay28 v6 v9 v61 v78) (constant S8x512x64 .f32 0x00000000#32) (ix3 h q d)
      = coAttOf Q K mk (colExpFromRow Q K mk) h q d := by
  unfold k0_pay29 coAttOf
  try dsimp only
  rw [KDots.weighted_apply]
  simp only [pay25_apply v6 v9 v61 v78 Q K mk hQ hK hm, pay28_apply v6 v9 v61 v78 Q K mk hQ hK hm]

/-- The attended values: the context weights against the value heads. -/
theorem pay26_apply (V : Fin 64 → Fin 512 → EReal) (v18 : FVec Ideal S512x512 .bf16) (v21 : Vec Ideal S512 .f32) (v23 : FVec Ideal S64x512 .bf16)
    (hV : ∀ k j, k0_pay11 (F := Ideal) v18 v21 v23 (ix2 k j) = V k j) (h : Fin 8) (q : Fin 512) (d : Fin 64) :
    k0_pay26 (F := Ideal) v6 v9 v61 v78 (k0_pay14 v18 v21 v23) (k0_pay15 v18 v21 v23) (k0_pay16 v18 v21 v23) (k0_pay17 v18 v21 v23)
      (k0_pay18 v18 v21 v23) (k0_pay19 v18 v21 v23) (k0_pay20 v18 v21 v23) (k0_pay21 v18 v21 v23) (ix3 h q d)
      = ctxAtt Q K V mk h q d := by
  unfold k0_pay26 ctxAtt
  try dsimp only
  rw [KDots.weighted_apply]
  simp only [pay25_apply v6 v9 v61 v78 Q K mk hQ hK hm, concat8_apply, valueHeads_apply, hV]

end Soft

end Cert.CoAttn.KBody

end
-- ==== Proof.KOut.lean ====
/-
  What the body leaves in the three output blocks of one grid point, as functions of the ten input blocks.

  Each output block `[1, T, 512]` is written in eight pieces, piece `n` filling columns `64 n … 64 n + 63` with head `n` of
  an `[8, T, 64]` result. So entry `(0, t, j)` of the block is entry `(j / 64, t, j % 64)` of that result, and the results
  are the specification's attention sums over the block's own projections `projB` and mask product `maskB`.
-/
import proofs.«152353_j773094113483_2_alg».proof.Proof.Gen.KernelIdeal.Skeleton
import proofs.«152353_j773094113483_2_alg».proof.Proof.Spec
import proofs.«152353_j773094113483_2_alg».proof.Proof.KDots
import proofs.«152353_j773094113483_2_alg».proof.Proof.LibHeadLayout
import proofs.«152353_j773094113483_2_alg».proof.Proof.LibUnitAxes
import proofs.«152353_j773094113483_2_alg».proof.Proof.LibColumnLayout
import proofs.«152353_j773094113483_2_alg».proof.Proof.Gen.KernelIdeal.Frame
import proofs.«152353_j773094113483_2_alg».proof.Proof.KSoft
import proofs.«152353_j773094113483_2_alg».proof.Proof.KBlock
import Idealize.ShloMosaic.Lib.ValueLayout
import Idealize.ShloMosaic.Lib.Pipeline.Value

open scoped BigOperators

noncomputable section

namespace Cert.CoAttn.KBody

open Cert.KernelIdeal Cert.KernelIdeal.Gen Idealize.ShloMosaic Idealize.ShloMosaic.ValueIdx Cert.CoAttn Cert.HeadLayout Cert.ColumnLayout

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a; rfl

section Block

variable (x0 : Vec Ideal S1x512x512 .f32) (x1 : Vec Ideal S1x64x512 .f32) (x2 : Vec Ideal S1x512x1 .i32) (x3 : Vec Ideal S1x1x64 .i32)
  (x4 : Vec Ideal S512x512 .f32) (x5 : Vec Ideal S512 .f32) (x6 : Vec Ideal S512x512 .f32) (x7 : Vec Ideal S512 .f32)
  (x8 : Vec Ideal S512x512 .f32) (x9 : Vec Ideal S512 .f32)

theorem qHeads (h : Fin 8) (q : Fin 512) (d : Fin 64) :
    k0_pay12 (F := Ideal) (k0_pay9 x0 x4 x5) (ix3 h q d) = projB x0 x4 x5 q (col h d) := by
  rw [pay12_apply, pay9_apply]; rfl

theorem kHeads (h : Fin 8) (k : Fin 64) (d : Fin 64) :
    k0_pay13 (F := Ideal) (k0_pay10 x1 x6 x7) (Scalar.ofBits .f32 0x00000000#32) (ix3 h k d) = projB x1 x6 x7 k (col h d) := by
  rw [pay13_apply, pay10_apply]
  show max _ (Ideal.ofBits .f32 0x00000000#32) = _
  rw [ofBits_zero]; rfl

theorem maskOuter (q : Fin 512) (k : Fin 64) :
    k0_pay5 (F := Ideal) x2 (ix2 q (0 : Fin 1)) * k0_pay6 (F := Ideal) x3 (ix2 (0 : Fin 1) k) = maskB x2 x3 q k := by
  rw [pay5_apply, pay6_apply]; rfl

theorem vFull (k : Fin 64) (j : Fin 512) :
    k0_pay11 (F := Ideal) (k0_pay7 x8) x9 (k0_pay8 x1) (ix2 k j) = projB x1 x8 x9 k j := by
  rw [pay11_apply]; rfl

/-- The attended values of the block. -/
theorem ctx_apply (h : Fin 8) (q : Fin 512) (d : Fin 64) :
    (k0_pay26 (F := Ideal) (k0_pay5 x2) (k0_pay6 x3) (k0_pay12 (k0_pay9 x0 x4 x5)) (k0_pay13 (k0_pay10 x1 x6 x7) (Scalar.ofBits .f32 0x00000000#32)) (k0_pay14 (k0_pay7 x8) x9 (k0_pay8 x1)) (k0_pay15 (k0_pay7 x8) x9 (k0_pay8 x1)) (k0_pay16 (k0_pay7 x8) x9 (k0_pay8 x1)) (k0_pay17 (k0_pay7 x8) x9 (k0_pay8 x1)) (k0_pay18 (k0_pay7 x8) x9 (k0_pay8 x1)) (k0_pay19 (k0_pay7 x8) x9 (k0_pay8 x1)) (k0_pay20 (k0_pay7 x8) x9 (k0_pay8 x1)) (k0_pay21 (k0_pay7 x8) x9 (k0_pay8 x1))) (ix3 h q d) = ctxAtt (projB x0 x4 x5) (projB x1 x6 x7) (projB x1 x8 x9) (maskB x2 x3) h q d :=
  pay26_apply _ _ _ _ _ _ _ (qHeads x0 x4 x5) (kHeads x1 x6 x7) (maskOuter x2 x3) _ _ _ _ (vFull x1 x8 x9) h q d

/-- The attended context rows of the block. -/
theorem ques_apply (h : Fin 8) (k : Fin 64) (d : Fin 64) :
    (k0_pay27 (F := Ideal) (k0_pay5 x2) (k0_pay6 x3) (k0_pay12 (k0_pay9 x0 x4 x5)) (k0_pay13 (k0_pay10 x1 x6 x7) (Scalar.ofBits .f32 0x00000000#32))) (ix3 h k d) = quesAttOf (projB x0 x4 x5) (colExpFromRow (projB x0 x4 x5) (projB x1 x6 x7) (maskB x2 x3)) h k d :=
  pay27_apply _ _ _ _ _ _ _ (qHeads x0 x4 x5) (kHeads x1 x6 x7) (maskOuter x2 x3) h k d

/-- The co-attention of the block. -/
theorem co_apply (h : Fin 8) (q : Fin 512) (d : Fin 64) :
    (k0_pay29 (F := Ideal) (k0_pay25 (k0_pay5 x2) (k0_pay6 x3) (k0_pay12 (k0_pay9 x0 x4 x5)) (k0_pay13 (k0_pay10 x1 x6 x7) (Scalar.ofBits .f32 0x00000000#32))) (k0_pay28 (k0_pay5 x2) (k0_pay6 x3) (k0_pay12 (k0_pay9 x0 x4 x5)) (k0_pay13 (k0_pay10 x1 x6 x7) (Scalar.ofBits .f32 0x00000000#32))) (constant S8x512x64 .f32 0x00000000#32)) (ix3 h q d) = coAttOf (projB x0 x4 x5) (projB x1 x6 x7) (maskB x2 x3) (colExpFromRow (projB x0 x4 x5) (projB x1 x6 x7) (maskB x2 x3)) h q d :=
  pay29_apply _ _ _ _ _ _ _ (qHeads x0 x4 x5) (kHeads x1 x6 x7) (maskOuter x2 x3) h q d

/-- The first output block: the attended values. -/
theorem out10_apply (y : S1x512x512.Idx) :
    out0_10 (F := Ideal) x0 x1 x2 x3 x4 x5 x6 x7 x8 x9 y = blockCtx x0 x1 x2 x3 x4 x5 x6 x7 x8 x9 y := by
  unfold out0_10
  simp only [View.ld_unit_zero (S := S1x512x512) hz3, View.ld_unit_zero (S := S1x64x512) hz3, View.ld_unit_zero (S := S1x512x1) hz3,
    View.ld_unit_zero (S := S1x1x64) hz3, View.ld_unit_zero (S := S512x512) hz2, View.ld_unit_zero (S := S512) hz1]
  refine View.canon_apply_of_pieces (Val := Elt Ideal) (blockCtx x0 x1 x2 x3 x4 x5 x6 x7 x8 x9 : _ → Elt Ideal .f32) _ ?_ y (cover0_10 _ _ _ _ _ _ _ _ y)
  intro p hp x
  simp only [List.mem_cons, List.not_mem_nil, or_false] at hp
  rcases hp with rfl | rfl | rfl | rfl | rfl | rfl | rfl | rfl
  · -- head 7
    obtain ⟨u, q, d, rfl⟩ : ∃ (u : Fin 1) (q : Fin 512) (d : Fin 64), x = ix3 u q d := ⟨x 0, x 1, x 2, eq_ix3 x⟩
    have he : r0_20.emb (ix3 u q d) = ix3 (0 : Fin 1) q (col ⟨7, by omega⟩ d) := funext fun a => Fin.ext (by
      match a with
      | ⟨0, _⟩ => show 0 + 1 * u.val = 0; omega
      | ⟨1, _⟩ => show 0 + 1 * q.val = q.val; omega
      | ⟨2, _⟩ => show 448 + 1 * d.val = 64 * 7 + d.val; omega)
    show _ = blockCtx x0 x1 x2 x3 x4 x5 x6 x7 x8 x9 (r0_20.emb (ix3 u q d))
    rw [he, blockCtx_at x0 x1 x2 x3 x4 x5 x6 x7 x8 x9]
    unfold k0_pay2
    exact (slabOut_apply _ 7 (by omega) slices_S8x512x64_o7_0_0_S1x512x64 _ _ u q d).trans (ctx_apply x0 x1 x2 x3 x4 x5 x6 x7 x8 x9 ⟨7, by omega⟩ q d)
  · -- head 6
    obtain ⟨u, q, d, rfl⟩ : ∃ (u : Fin 1) (q : Fin 512) (d : Fin 64), x = ix3 u q d := ⟨x 0, x 1, x 2, eq_ix3 x⟩
    have he : r0_18.emb (ix3 u q d) = ix3 (0 : Fin 1) q (col ⟨6, by omega⟩ d) := funext fun a => Fin.ext (by
      match a with
      | ⟨0, _⟩ => show 0 + 1 * u.val = 0; omega
      | ⟨1, _⟩ => show 0 + 1 * q.val = q.val; omega
      | ⟨2, _⟩ => show 384 + 1 * d.val = 64 * 6 + d.val; omega)
    show _ = blockCtx x0 x1 x2 x3 x4 x5 x6 x7 x8 x9 (r0_18.emb (ix3 u q d))
    rw [he, blockCtx_at x0 x1 x2 x3 x4 x5 x6 x7 x8 x9]
    unfold k0_pay50
    exact (slabOut_apply _ 6 (by omega) slices_S8x512x64_o6_0_0_S1x512x64 _ _ u q d).trans (ctx_apply x0 x1 x2 x3 x4 x5 x6 x7 x8 x9 ⟨6, by omega⟩ q d)
  · -- head 5
    obtain ⟨u, q, d, rfl⟩ : ∃ (u : Fin 1) (q : Fin 512) (d : Fin 64), x = ix3 u q d := ⟨x 0, x 1, x 2, eq_ix3 x⟩
    have he : r0_16.emb (ix3 u q d) = ix3 (0 : Fin 1) q (col ⟨5, by omega⟩ d) := funext fun a => Fin.ext (by
      match a with
      | ⟨0, _⟩ => show 0 + 1 * u.val = 0; omega
      | ⟨1, _⟩ => show 0 + 1 * q.val = q.val; omega
      | ⟨2, _⟩ => show 320 + 1 * d.val = 64 * 5 + d.val; omega)
    show _ = blockCtx x0 x1 x2 x3 x4 x5 x6 x7 x8 x9 (r0_16.emb (ix3 u q d))
    rw [he, blockCtx_at x0 x1 x2 x3 x4 x5 x6 x7 x8 x9]
    unfold k0_pay47
    exact (slabOut_apply _ 5 (by omega) slices_S8x512x64_o5_0_0_S1x512x64 _ _ u q d).trans (ctx_apply x0 x1 x2 x3 x4 x5 x6 x7 x8 x9 ⟨5, by omega⟩ q d)
  · -- head 4
    obtain ⟨u, q, d, rfl⟩ : ∃ (u : Fin 1) (q : Fin 512) (d : Fin 64), x = ix3 u q d := ⟨x 0, x 1, x 2, eq_ix3 x⟩
    have he : r0_14.emb (ix3 u q d) = ix3 (0 : Fin 1) q (col ⟨4, by omega⟩ d) := funext fun a => Fin.ext (by
      match a with
      | ⟨0, _⟩ => show 0 + 1 * u.val = 0; omega
      | ⟨1, _⟩ => show 0 + 1 * q.val = q.val; omega
      | ⟨2, _⟩ => show 256 + 1 * d.val = 64 * 4 + d.val; omega)
    show _ = blockCtx x0 x1 x2 x3 x4 x5 x6 x7 x8 x9 (r0_14.emb (ix3 u q d))
    rw [he, blockCtx_at x0 x1 x2 x3 x4 x5 x6 x7 x8 x9]
    unfold k0_pay43
    exact (slabOut_apply _ 4 (by omega) slices_S8x512x64_o4_0_0_S1x512x64 _ _ u q d).trans (ctx_apply x0 x1 x2 x3 x4 x5 x6 x7 x8 x9 ⟨4, by omega⟩ q d)
  · -- head 3
    obtain ⟨u, q, d, rfl⟩ : ∃ (u : Fin 1) (q : Fin 512) (d : Fin 64), x = ix3 u q d := ⟨x 0, x 1, x 2, eq_ix3 x⟩
    have he : r0_12.emb (ix3 u q d) = ix3 (0 : Fin 1) q (col ⟨3, by omega⟩ d) := funext fun a => Fin.ext (by
      match a with
      | ⟨0, _⟩ => show 0 + 1 * u.val = 0; omega
      | ⟨1, _⟩ => show 0 + 1 * q.val = q.val; omega
      | ⟨2, _⟩ => show 192 + 1 * d.val = 64 * 3 + d.val; omega)
    show _ = blockCtx x0 x1 x2 x3 x4 x5 x6 x7 x8 x9 (r0_12.emb (ix3 u q d))
    rw [he, blockCtx_at x0 x1 x2 x3 x4 x5 x6 x7 x8 x9]
    unfold k0_pay40
    exact (slabOut_apply _ 3 (by omega) slices_S8x512x64_o3_0_0_S1x512x64 _ _ u q d).trans (ctx_apply x0 x1 x2 x3 x4 x5 x6 x7 x8 x9 ⟨3, by omega⟩ q d)
  · -- head 2
    obtain ⟨u, q, d, rfl⟩ : ∃ (u : Fin 1) (q : Fin 512) (d : Fin 64), x = ix3 u q d := ⟨x 0, x 1, x 2, eq_ix3 x⟩
    have he : r0_10.emb (ix3 u q d) = ix3 (0 : Fin 1) q (col ⟨2, by omega⟩ d) := funext fun a => Fin.ext (by
      match a with
      | ⟨0, _⟩ => show 0 + 1 * u.val = 0; omega
      | ⟨1, _⟩ => show 0 + 1 * q.val = q.val; omega
      | ⟨2, _⟩ => show 128 + 1 * d.val = 64 * 2 + d.val; omega)
    show _ = blockCtx x0 x1 x2 x3 x4 x5 x6 x7 x8 x9 (r0_10.emb (ix3 u q d))
    rw [he, blockCtx_at x0 x1 x2 x3 x4 x5 x6 x7 x8 x9]
    unfold k0_pay37 k0_pay36
    exact (slabOut_apply _ 2 (by omega) slices_S8x512x64_o2_0_0_S1x512x64 _ _ u q d).trans (ctx_apply x0 x1 x2 x3 x4 x5 x6 x7 x8 x9 ⟨2, by omega⟩ q d)
  · -- head 1
    obtain ⟨u, q, d, rfl⟩ : ∃ (u : Fin 1) (q : Fin 512) (d : Fin 64), x = ix3 u q d := ⟨x 0, x 1, x 2, eq_ix3 x⟩
    have he : r0_8.emb (ix3 u q d) = ix3 (0 : Fin 1) q (col ⟨1, by omega⟩ d) := funext fun a => Fin.ext (by
      match a with
      | ⟨0, _⟩ => show 0 + 1 * u.val = 0; omega
      | ⟨1, _⟩ => show 0 + 1 * q.val = q.val; omega
      | ⟨2, _⟩ => show 64 + 1 * d.val = 64 * 1 + d.val; omega)
    show _ = blockCtx x0 x1 x2 x3 x4 x5 x6 x7 x8 x9 (r0_8.emb (ix3 u q d))
    rw [he, blockCtx_at x0 x1 x2 x3 x4 x5 x6 x7 x8 x9]
    unfold k0_pay33
    exact (slabOut_apply _ 1 (by omega) slices_S8x512x64_o1_0_0_S1x512x64 _ _ u q d).trans (ctx_apply x0 x1 x2 x3 x4 x5 x6 x7 x8 x9 ⟨1, by omega⟩ q d)
  · -- head 0
    obtain ⟨u, q, d, rfl⟩ : ∃ (u : Fin 1) (q : Fin 512) (d : Fin 64), x = ix3 u q d := ⟨x 0, x 1, x 2, eq_ix3 x⟩
    have he : r0_6.emb (ix3 u q d) = ix3 (0 : Fin 1) q (col ⟨0, by omega⟩ d) := funext fun a => Fin.ext (by
      match a with
      | ⟨0, _⟩ => show 0 + 1 * u.val = 0; omega
      | ⟨1, _⟩ => show 0 + 1 * q.val = q.val; omega
      | ⟨2, _⟩ => show 0 + 1 * d.val = 64 * 0 + d.val; omega)
    show _ = blockCtx x0 x1 x2 x3 x4 x5 x6 x7 x8 x9 (r0_6.emb (ix3 u q d))
    rw [he, blockCtx_at x0 x1 x2 x3 x4 x5 x6 x7 x8 x9]
    unfold k0_pay30
    exact (slabOut_apply _ 0 (by omega) slices_S8x512x64_o0_0_0_S1x512x64 _ _ u q d).trans (ctx_apply x0 x1 x2 x3 x4 x5 x6 x7 x8 x9 ⟨0, by omega⟩ q d)

/-- The second output block: the attended context rows. -/
theorem out11_apply (y : S1x64x512.Idx) :
    out0_11 (F := Ideal) x0 x1 x2 x3 x4 x5 x6 x7 x8 x9 y = blockQues x0 x1 x2 x3 x4 x5 x6 x7 x8 x9 y := by
  unfold out0_11
  simp only [View.ld_unit_zero (S := S1x512x512) hz3, View.ld_unit_zero (S := S1x64x512) hz3, View.ld_unit_zero (S := S1x512x1) hz3,
    View.ld_unit_zero (S := S1x1x64) hz3, View.ld_unit_zero (S := S512x512) hz2, View.ld_unit_zero (S := S512) hz1]
  refine View.canon_apply_of_pieces (Val := Elt Ideal) (blockQues x0 x1 x2 x3 x4 x5 x6 x7 x8 x9 : _ → Elt Ideal .f32) _ ?_ y (cover0_11 _ _ _ _ _ _ _ _ y)
  intro p hp x
  simp only [List.mem_cons, List.not_mem_nil, or_false] at hp
  rcases hp with rfl | rfl | rfl | rfl | rfl | rfl | rfl | rfl
  · -- head 7
    obtain ⟨u, q, d, rfl⟩ : ∃ (u : Fin 1) (q : Fin 64) (d : Fin 64), x = ix3 u q d := ⟨x 0, x 1, x 2, eq_ix3 x⟩
    have he : r0_21.emb (ix3 u q d) = ix3 (0 : Fin 1) q (col ⟨7, by omega⟩ d) := funext fun a => Fin.ext (by
      match a with
      | ⟨0, _⟩ => show 0 + 1 * u.val = 0; omega
      | ⟨1, _⟩ => show 0 + 1 * q.val = q.val; omega
      | ⟨2, _⟩ => show 448 + 1 * d.val = 64 * 7 + d.val; omega)
    show _ = blockQues x0 x1 x2 x3 x4 x5 x6 x7 x8 x9 (r0_21.emb (ix3 u q d))
    rw [he, blockQues_at x0 x1 x2 x3 x4 x5 x6 x7 x8 x9]
    unfold k0_pay3
    exact (slabOut_apply _ 7 (by omega) slices_S8x64x64_o7_0_0_S1x64x64 _ _ u q d).trans (ques_apply x0 x1 x2 x3 x4 x5 x6 x7 ⟨7, by omega⟩ q d)
  · -- head 6
    obtain ⟨u, q, d, rfl⟩ : ∃ (u : Fin 1) (q : Fin 64) (d : Fin 64), x = ix3 u q d := ⟨x 0, x 1, x 2, eq_ix3 x⟩
    have he : r0_19.emb (ix3 u q d) = ix3 (0 : Fin 1) q (col ⟨6, by omega⟩ d) := funext fun a => Fin.ext (by
      match a with
      | ⟨0, _⟩ => show 0 + 1 * u.val = 0; omega
      | ⟨1, _⟩ => show 0 + 1 * q.val = q.val; omega
      | ⟨2, _⟩ => show 384 + 1 * d.val = 64 * 6 + d.val; omega)
    show _ = blockQues x0 x1 x2 x3 x4 x5 x6 x7 x8 x9 (r0_19.emb (ix3 u q d))
    rw [he, blockQues_at x0 x1 x2 x3 x4 x5 x6 x7 x8 x9]
    unfold k0_pay51
    exact (slabOut_apply _ 6 (by omega) slices_S8x64x64_o6_0_0_S1x64x64 _ _ u q d).trans (ques_apply x0 x1 x2 x3 x4 x5 x6 x7 ⟨6, by omega⟩ q d)
  · -- head 5
    obtain ⟨u, q, d, rfl⟩ : ∃ (u : Fin 1) (q : Fin 64) (d : Fin 64), x = ix3 u q d := ⟨x 0, x 1, x 2, eq_ix3 x⟩
    have he : r0_17.emb (ix3 u q d) = ix3 (0 : Fin 1) q (col ⟨5, by omega⟩ d) := funext fun a => Fin.ext (by
      match a with
      | ⟨0, _⟩ => show 0 + 1 * u.val = 0; omega
      | ⟨1, _⟩ => show 0 + 1 * q.val = q.val; omega
      | ⟨2, _⟩ => show 320 + 1 * d.val = 64 * 5 + d.val; omega)
    show _ = blockQues x0 x1 x2 x3 x4 x5 x6 x7 x8 x9 (r0_17.emb (ix3 u q d))
    rw [he, blockQues_at x0 x1 x2 x3 x4 x5 x6 x7 x8 x9]
    unfold k0_pay48
    exact (slabOut_apply _ 5 (by omega) slices_S8x64x64_o5_0_0_S1x64x64 _ _ u q d).trans (ques_apply x0 x1 x2 x3 x4 x5 x6 x7 ⟨5, by omega⟩ q d)
  · -- head 4
    obtain ⟨u, q, d, rfl⟩ : ∃ (u : Fin 1) (q : Fin 64) (d : Fin 64), x = ix3 u q d := ⟨x 0, x 1, x 2, eq_ix3 x⟩
    have he : r0_15.emb (ix3 u q d) = ix3 (0 : Fin 1) q (col ⟨4, by omega⟩ d) := funext fun a => Fin.ext (by
      match a with
      | ⟨0, _⟩ => show 0 + 1 * u.val = 0; omega
      | ⟨1, _⟩ => show 0 + 1 * q.val = q.val; omega
      | ⟨2, _⟩ => show 256 + 1 * d.val = 64 * 4 + d.val; omega)
    show _ = blockQues x0 x1 x2 x3 x4 x5 x6 x7 x8 x9 (r0_15.emb (ix3 u q d))
    rw [he, blockQues_at x0 x1 x2 x3 x4 x5 x6 x7 x8 x9]
    unfold k0_pay45 k0_pay44
    exact (slabOut_apply _ 4 (by omega) slices_S8x64x64_o4_0_0_S1x64x64 _ _ u q d).trans (ques_apply x0 x1 x2 x3 x4 x5 x6 x7 ⟨4, by omega⟩ q d)
  · -- head 3
    obtain ⟨u, q, d, rfl⟩ : ∃ (u : Fin 1) (q : Fin 64) (d : Fin 64), x = ix3 u q d := ⟨x 0, x 1, x 2, eq_ix3 x⟩
    have he : r0_13.emb (ix3 u q d) = ix3 (0 : Fin 1) q (col ⟨3, by omega⟩ d) := funext fun a => Fin.ext (by
      match a with
      | ⟨0, _⟩ => show 0 + 1 * u.val = 0; omega
      | ⟨1, _⟩ => show 0 + 1 * q.val = q.val; omega
      | ⟨2, _⟩ => show 192 + 1 * d.val = 64 * 3 + d.val; omega)
    show _ = blockQues x0 x1 x2 x3 x4 x5 x6 x7 x8 x9 (r0_13.emb (ix3 u q d))
    rw [he, blockQues_at x0 x1 x2 x3 x4 x5 x6 x7 x8 x9]
    unfold k0_pay41
    exact (slabOut_apply _ 3 (by omega) slices_S8x64x64_o3_0_0_S1x64x64 _ _ u q d).trans (ques_apply x0 x1 x2 x3 x4 x5 x6 x7 ⟨3, by omega⟩ q d)
  · -- head 2
    obtain ⟨u, q, d, rfl⟩ : ∃ (u : Fin 1) (q : Fin 64) (d : Fin 64), x = ix3 u q d := ⟨x 0, x 1, x 2, eq_ix3 x⟩
    have he : r0_11.emb (ix3 u q d) = ix3 (0 : Fin 1) q (col ⟨2, by omega⟩ d) := funext fun a => Fin.ext (by
      match a with
      | ⟨0, _⟩ => show 0 + 1 * u.val = 0; omega
      | ⟨1, _⟩ => show 0 + 1 * q.val = q.val; omega
      | ⟨2, _⟩ => show 128 + 1 * d.val = 64 * 2 + d.val; omega)
    show _ = blockQues x0 x1 x2 x3 x4 x5 x6 x7 x8 x9 (r0_11.emb (ix3 u q d))
    rw [he, blockQues_at x0 x1 x2 x3 x4 x5 x6 x7 x8 x9]
    unfold k0_pay38
    exact (slabOut_apply _ 2 (by omega) slices_S8x64x64_o2_0_0_S1x64x64 _ _ u q d).trans (ques_apply x0 x1 x2 x3 x4 x5 x6 x7 ⟨2, by omega⟩ q d)
  · -- head 1
    obtain ⟨u, q, d, rfl⟩ : ∃ (u : Fin 1) (q : Fin 64) (d : Fin 64), x = ix3 u q d := ⟨x 0, x 1, x 2, eq_ix3 x⟩
    have he : r0_9.emb (ix3 u q d) = ix3 (0 : Fin 1) q (col ⟨1, by omega⟩ d) := funext fun a => Fin.ext (by
      match a with
      | ⟨0, _⟩ => show 0 + 1 * u.val = 0; omega
      | ⟨1, _⟩ => show 0 + 1 * q.val = q.val; omega
      | ⟨2, _⟩ => show 64 + 1 * d.val = 64 * 1 + d.val; omega)
    show _ = blockQues x0 x1 x2 x3 x4 x5 x6 x7 x8 x9 (r0_9.emb (ix3 u q d))
    rw [he, blockQues_at x0 x1 x2 x3 x4 x5 x6 x7 x8 x9]
    unfold k0_pay34
    exact (slabOut_apply _ 1 (by omega) slices_S8x64x64_o1_0_0_S1x64x64 _ _ u q d).trans (ques_apply x0 x1 x2 x3 x4 x5 x6 x7 ⟨1, by omega⟩ q d)
  · -- head 0
    obtain ⟨u, q, d, rfl⟩ : ∃ (u : Fin 1) (q : Fin 64) (d : Fin 64), x = ix3 u q d := ⟨x 0, x 1, x 2, eq_ix3 x⟩
    have he : r0_7.emb (ix3 u q d) = ix3 (0 : Fin 1) q (col ⟨0, by omega⟩ d) := funext fun a => Fin.ext (by
      match a with
      | ⟨0, _⟩ => show 0 + 1 * u.val = 0; omega
      | ⟨1, _⟩ => show 0 + 1 * q.val = q.val; omega
      | ⟨2, _⟩ => show 0 + 1 * d.val = 64 * 0 + d.val; omega)
    show _ = blockQues x0 x1 x2 x3 x4 x5 x6 x7 x8 x9 (r0_7.emb (ix3 u q d))
    rw [he, blockQues_at x0 x1 x2 x3 x4 x5 x6 x7 x8 x9]
    unfold k0_pay31
    exact (slabOut_apply _ 0 (by omega) slices_S8x64x64_o0_0_0_S1x64x64 _ _ u q d).trans (ques_apply x0 x1 x2 x3 x4 x5 x6 x7 ⟨0, by omega⟩ q d)

/-- The third output block: the co-attention. -/
theorem out12_apply (y : S1x512x512.Idx) :
    out0_12 (F := Ideal) x0 x1 x2 x3 x4 x5 x6 x7 x8 x9 y = blockCo x0 x1 x2 x3 x4 x5 x6 x7 x8 x9 y := by
  unfold out0_12
  simp only [View.ld_unit_zero (S := S1x512x512) hz3, View.ld_unit_zero (S := S1x64x512) hz3, View.ld_unit_zero (S := S1x512x1) hz3,
    View.ld_unit_zero (S := S1x1x64) hz3, View.ld_unit_zero (S := S512x512) hz2, View.ld_unit_zero (S := S512) hz1]
  refine View.canon_apply_of_pieces (Val := Elt Ideal) (blockCo x0 x1 x2 x3 x4 x5 x6 x7 x8 x9 : _ → Elt Ideal .f32) _ ?_ y (cover0_12 _ _ _ _ _ _ _ _ y)
  intro p hp x
  simp only [List.mem_cons, List.not_mem_nil, or_false] at hp
  rcases hp with rfl | rfl | rfl | rfl | rfl | rfl | rfl | rfl
  · -- head 7
    obtain ⟨u, q, d, rfl⟩ : ∃ (u : Fin 1) (q : Fin 512) (d : Fin 64), x = ix3 u q d := ⟨x 0, x 1, x 2, eq_ix3 x⟩
    have he : r0_20.emb (ix3 u q d) = ix3 (0 : Fin 1) q (col ⟨7, by omega⟩ d) := funext fun a => Fin.ext (by
      match a with
      | ⟨0, _⟩ => show 0 + 1 * u.val = 0; omega
      | ⟨1, _⟩ => show 0 + 1 * q.val = q.val; omega
      | ⟨2, _⟩ => show 448 + 1 * d.val = 64 * 7 + d.val; omega)
    show _ = blockCo x0 x1 x2 x3 x4 x5 x6 x7 x8 x9 (r0_20.emb (ix3 u q d))
    rw [he, blockCo_at x0 x1 x2 x3 x4 x5 x6 x7 x8 x9]
    unfold k0_pay4
    exact (slabOut_apply _ 7 (by omega) slices_S8x512x64_o7_0_0_S1x512x64 _ _ u q d).trans (co_apply x0 x1 x2 x3 x4 x5 x6 x7 ⟨7, by omega⟩ q d)
  · -- head 6
    obtain ⟨u, q, d, rfl⟩ : ∃ (u : Fin 1) (q : Fin 512) (d : Fin 64), x = ix3 u q d := ⟨x 0, x 1, x 2, eq_ix3 x⟩
    have he : r0_18.emb (ix3 u q d) = ix3 (0 : Fin 1) q (col ⟨6, by omega⟩ d) := funext fun a => Fin.ext (by
      match a with
      | ⟨0, _⟩ => show 0 + 1 * u.val = 0; omega
      | ⟨1, _⟩ => show 0 + 1 * q.val = q.val; omega
      | ⟨2, _⟩ => show 384 + 1 * d.val = 64 * 6 + d.val; omega)
    show _ = blockCo x0 x1 x2 x3 x4 x5 x6 x7 x8 x9 (r0_18.emb (ix3 u q d))
    rw [he, blockCo_at x0 x1 x2 x3 x4 x5 x6 x7 x8 x9]
    unfold k0_pay1
    exact (slabOut_apply _ 6 (by omega) slices_S8x512x64_o6_0_0_S1x512x64 _ _ u q d).trans (co_apply x0 x1 x2 x3 x4 x5 x6 x7 ⟨6, by omega⟩ q d)
  · -- head 5
    obtain ⟨u, q, d, rfl⟩ : ∃ (u : Fin 1) (q : Fin 512) (d : Fin 64), x = ix3 u q d := ⟨x 0, x 1, x 2, eq_ix3 x⟩
    have he : r0_16.emb (ix3 u q d) = ix3 (0 : Fin 1) q (col ⟨5, by omega⟩ d) := funext fun a => Fin.ext (by
      match a with
      | ⟨0, _⟩ => show 0 + 1 * u.val = 0; omega
      | ⟨1, _⟩ => show 0 + 1 * q.val = q.val; omega
      | ⟨2, _⟩ => show 320 + 1 * d.val = 64 * 5 + d.val; omega)
    show _ = blockCo x0 x1 x2 x3 x4 x5 x6 x7 x8 x9 (r0_16.emb (ix3 u q d))
    rw [he, blockCo_at x0 x1 x2 x3 x4 x5 x6 x7 x8 x9]
    unfold k0_pay49
    exact (slabOut_apply _ 5 (by omega) slices_S8x512x64_o5_0_0_S1x512x64 _ _ u q d).trans (co_apply x0 x1 x2 x3 x4 x5 x6 x7 ⟨5, by omega⟩ q d)
  · -- head 4
    obtain ⟨u, q, d, rfl⟩ : ∃ (u : Fin 1) (q : Fin 512) (d : Fin 64), x = ix3 u q d := ⟨x 0, x 1, x 2, eq_ix3 x⟩
    have he : r0_14.emb (ix3 u q d) = ix3 (0 : Fin 1) q (col ⟨4, by omega⟩ d) := funext fun a => Fin.ext (by
      match a with
      | ⟨0, _⟩ => show 0 + 1 * u.val = 0; omega
      | ⟨1, _⟩ => show 0 + 1 * q.val = q.val; omega
      | ⟨2, _⟩ => show 256 + 1 * d.val = 64 * 4 + d.val; omega)
    show _ = blockCo x0 x1 x2 x3 x4 x5 x6 x7 x8 x9 (r0_14.emb (ix3 u q d))
    rw [he, blockCo_at x0 x1 x2 x3 x4 x5 x6 x7 x8 x9]
    unfold k0_pay46
    exact (slabOut_apply _ 4 (by omega) slices_S8x512x64_o4_0_0_S1x512x64 _ _ u q d).trans (co_apply x0 x1 x2 x3 x4 x5 x6 x7 ⟨4, by omega⟩ q d)
  · -- head 3
    obtain ⟨u, q, d, rfl⟩ : ∃ (u : Fin 1) (q : Fin 512) (d : Fin 64), x = ix3 u q d := ⟨x 0, x 1, x 2, eq_ix3 x⟩
    have he : r0_12.emb (ix3 u q d) = ix3 (0 : Fin 1) q (col ⟨3, by omega⟩ d) := funext fun a => Fin.ext (by
      match a with
      | ⟨0, _⟩ => show 0 + 1 * u.val = 0; omega
      | ⟨1, _⟩ => show 0 + 1 * q.val = q.val; omega
      | ⟨2, _⟩ => show 192 + 1 * d.val = 64 * 3 + d.val; omega)
    show _ = blockCo x0 x1 x2 x3 x4 x5 x6 x7 x8 x9 (r0_12.emb (ix3 u q d))
    rw [he, blockCo_at x0 x1 x2 x3 x4 x5 x6 x7 x8 x9]
    unfold k0_pay42
    exact (slabOut_apply _ 3 (by omega) slices_S8x512x64_o3_0_0_S1x512x64 _ _ u q d).trans (co_apply x0 x1 x2 x3 x4 x5 x6 x7 ⟨3, by omega⟩ q d)
  · -- head 2
    obtain ⟨u, q, d, rfl⟩ : ∃ (u : Fin 1) (q : Fin 512) (d : Fin 64), x = ix3 u q d := ⟨x 0, x 1, x 2, eq_ix3 x⟩
    have he : r0_10.emb (ix3 u q d) = ix3 (0 : Fin 1) q (col ⟨2, by omega⟩ d) := funext fun a => Fin.ext (by
      match a with
      | ⟨0, _⟩ => show 0 + 1 * u.val = 0; omega
      | ⟨1, _⟩ => show 0 + 1 * q.val = q.val; omega
      | ⟨2, _⟩ => show 128 + 1 * d.val = 64 * 2 + d.val; omega)
    show _ = blockCo x0 x1 x2 x3 x4 x5 x6 x7 x8 x9 (r0_10.emb (ix3 u q d))
    rw [he, blockCo_at x0 x1 x2 x3 x4 x5 x6 x7 x8 x9]
    unfold k0_pay39
    exact (slabOut_apply _ 2 (by omega) slices_S8x512x64_o2_0_0_S1x512x64 _ _ u q d).trans (co_apply x0 x1 x2 x3 x4 x5 x6 x7 ⟨2, by omega⟩ q d)
  · -- head 1
    obtain ⟨u, q, d, rfl⟩ : ∃ (u : Fin 1) (q : Fin 512) (d : Fin 64), x = ix3 u q d := ⟨x 0, x 1, x 2, eq_ix3 x⟩
    have he : r0_8.emb (ix3 u q d) = ix3 (0 : Fin 1) q (col ⟨1, by omega⟩ d) := funext fun a => Fin.ext (by
      match a with
      | ⟨0, _⟩ => show 0 + 1 * u.val = 0; omega
      | ⟨1, _⟩ => show 0 + 1 * q.val = q.val; omega
      | ⟨2, _⟩ => show 64 + 1 * d.val = 64 * 1 + d.val; omega)
    show _ = blockCo x0 x1 x2 x3 x4 x5 x6 x7 x8 x9 (r0_8.emb (ix3 u q d))
    rw [he, blockCo_at x0 x1 x2 x3 x4 x5 x6 x7 x8 x9]
    unfold k0_pay35
    exact (slabOut_apply _ 1 (by omega) slices_S8x512x64_o1_0_0_S1x512x64 _ _ u q d).trans (co_apply x0 x1 x2 x3 x4 x5 x6 x7 ⟨1, by omega⟩ q d)
  · -- head 0
    obtain ⟨u, q, d, rfl⟩ : ∃ (u : Fin 1) (q : Fin 512) (d : Fin 64), x = ix3 u q d := ⟨x 0, x 1, x 2, eq_ix3 x⟩
    have he : r0_6.emb (ix3 u q d) = ix3 (0 : Fin 1) q (col ⟨0, by omega⟩ d) := funext fun a => Fin.ext (by
      match a with
      | ⟨0, _⟩ => show 0 + 1 * u.val = 0; omega
      | ⟨1, _⟩ => show 0 + 1 * q.val = q.val; omega
      | ⟨2, _⟩ => show 0 + 1 * d.val = 64 * 0 + d.val; omega)
    show _ = blockCo x0 x1 x2 x3 x4 x5 x6 x7 x8 x9 (r0_6.emb (ix3 u q d))
    rw [he, blockCo_at x0 x1 x2 x3 x4 x5 x6 x7 x8 x9]
    unfold k0_pay32
    exact (slabOut_apply _ 0 (by omega) slices_S8x512x64_o0_0_0_S1x512x64 _ _ u q d).trans (co_apply x0 x1 x2 x3 x4 x5 x6 x7 ⟨0, by omega⟩ q d)

end Block

end Cert.CoAttn.KBody

end
-- ==== Proof.lean ====
/-
  A batched multi-head co-attention kernel against its jnp reference, on the extended reals.

  Both programs compute, for every batch element, three rectified projections, split them into eight heads of 64
  columns, form the masked scaled scores, take their softmax along the question rows and along the context rows, and
  return three attention sums laid back into `[N, T, 512]` arrays. They differ in layout (the kernel works one batch
  element per grid point on weights transposed beforehand, heads stacked along a new axis; the reference reshapes and
  transposes whole arrays), in the scale (a product with 1/8 against a quotient by 8), in the mask product (an outer
  product against a one-term contraction), and in one step of mathematics: the kernel rebuilds the numerator of the
  softmax along the context rows from the other softmax's numerator, `exp (s − r) · exp r · exp (0 − c)`, where the
  reference computes `exp (s − c)`. For finite inputs every score is a real number, so are both maxima, and the two
  numerators agree; that is the only use of the precondition.
-/
import proofs.«152353_j773094113483_2_alg».proof.Defs
import proofs.«152353_j773094113483_2_alg».proof.Proof.Gen.Kernel
import proofs.«152353_j773094113483_2_alg».proof.Proof.Gen.Kernel.Skeleton
import proofs.«152353_j773094113483_2_alg».proof.Proof.Gen.Kernel.Launch
import proofs.«152353_j773094113483_2_alg».proof.Proof.Gen.Kernel.Points
import proofs.«152353_j773094113483_2_alg».proof.Proof.Gen.Kernel.Frame
import proofs.«152353_j773094113483_2_alg».proof.Proof.Gen.KernelIdeal
import proofs.«152353_j773094113483_2_alg».proof.Proof.Gen.KernelIdeal.Skeleton
import proofs.«152353_j773094113483_2_alg».proof.Proof.Gen.KernelIdeal.Launch
import proofs.«152353_j773094113483_2_alg».proof.Proof.Gen.KernelIdeal.Points
import proofs.«152353_j773094113483_2_alg».proof.Proof.Gen.KernelIdeal.Frame
import proofs.«152353_j773094113483_2_alg».proof.Proof.Gen.ReferenceIdeal
import proofs.«152353_j773094113483_2_alg».proof.Proof.Gen.Pre_finite_inputs
import proofs.«152353_j773094113483_2_alg».proof.Proof.Gen.KernelIdeal.Value
import proofs.«152353_j773094113483_2_alg».proof.Proof.Gen.ReferenceIdeal.Run
import proofs.«152353_j773094113483_2_alg».proof.Proof.Gen.ReferenceIdeal.Read
import proofs.«152353_j773094113483_2_alg».proof.Proof.Spec
import proofs.«152353_j773094113483_2_alg».proof.Proof.FiniteInputs
import proofs.«152353_j773094113483_2_alg».proof.Proof.RefSide
import proofs.«152353_j773094113483_2_alg».proof.Proof.KArray
import proofs.«152353_j773094113483_2_alg».proof.Proof.KOut
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the three results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- At the ideal values the kernel's three result arrays are the specification's functions with the numerator rebuilt
    from the row softmax, the reference's the same functions with the numerator taken directly; for finite inputs the
    two numerators are one function. -/
theorem algebraic : Cert.algebraic_KernelIdeal_ReferenceIdeal := by
  intro m ρ m' ρ' hpre hagree
  refine ⟨fun c => Cert.CoAttn.KArray.G10 m c, fun c => Cert.CoAttn.KArray.G11 m c, fun c => Cert.CoAttn.KArray.G12 m c,
    Cert.CoAttn.KArray.run m ρ Cert.CoAttn.KBody.out10_apply Cert.CoAttn.KBody.out11_apply Cert.CoAttn.KBody.out12_apply, ?_⟩
  refine (θ_run Cert.ReferenceIdeal.defs _ _).mono (fun _ h c => ?_) (Cert.ReferenceIdeal.Value.run (F := Ideal) m' ρ')
  obtain ⟨h62, h64, h66, hargs⟩ := h c
  obtain ⟨g0, g1, g2, g3, g4, g5, g6, g7, g8, g9⟩ := hagree c
  obtain ⟨r0, r1, r4, r5, r6, r7, _, _⟩ := Cert.CoAttn.Finite.reals_of_pre _ _ _ _ _ _ _ _ _ _ (hpre c)
  have hnum := Cert.CoAttn.numFromRow_eq _ _ (m ((c.tc : Thread Cert.KernelIdeal.nD Cert.KernelIdeal.τ).loc Cert.KernelIdeal.main_arg2)) (m ((c.tc : Thread Cert.KernelIdeal.nD Cert.KernelIdeal.τ).loc Cert.KernelIdeal.main_arg3)) _ _ _ _ r0 r1 r4 r5 r6 r7
  refine ⟨h62.trans ?_, h64.trans ?_, h66.trans ?_, hargs⟩
  · rw [Cert.ReferenceIdeal.Read.val_main_v62_eq, g0, g1, g2, g3, g4, g5, g6, g7, g8, g9]
    funext i
    exact (congrArg _ (eq_ix3 i)).trans (Cert.CoAttn.Ref.ref_ctxAtt _ _ _ _ _ _ _ _ _ _ (i 0) (i 1) (i 2))
  · rw [Cert.ReferenceIdeal.Read.val_main_v64_eq, g0, g1, g2, g3, g4, g5, g6, g7]
    funext i
    refine (congrArg _ (eq_ix3 i)).trans ((Cert.CoAttn.Ref.ref_quesAtt _ _ _ _ _ _ _ _ (i 0) (i 1) (i 2)).trans ?_)
    show _ = Cert.CoAttn.outQuesAtt _ _ _ (Cert.CoAttn.numFromRow _ _ _ _ _ _ _ _) (i 0) (i 1) (i 2)
    rw [hnum]
  · rw [Cert.ReferenceIdeal.Read.val_main_v66_eq, g0, g1, g2, g3, g4, g5, g6, g7]
    funext i
    refine (congrArg _ (eq_ix3 i)).trans ((Cert.CoAttn.Ref.ref_coAtt _ _ _ _ _ _ _ _ (i 0) (i 1) (i 2)).trans ?_)
    show _ = Cert.CoAttn.outCoAtt _ _ _ _ _ _ _ _ (Cert.CoAttn.numFromRow _ _ _ _ _ _ _ _) (i 0) (i 1) (i 2)
    rw [hnum]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
